-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x767 : Shape := ⟨2, ![100000, 767]⟩
abbrev S2x3200000 : Shape := ⟨2, ![2, 3200000]⟩
abbrev S767x16 : Shape := ⟨2, ![767, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x767 : S_.BroadcastsInDim S100000x767 (![] : Fin 0 → Fin S100000x767.rank)
  reducesTo_S100000x767_S_d0_1 : S100000x767.ReducesTo [0, 1] S_
  h_S_ : 0 < S_.numel
  bcast_S_S767x16 : S_.BroadcastsInDim S767x16 (![] : Fin 0 → Fin S767x16.rank)
  reducesTo_S767x16_S_d0_1 : S767x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S16x10 .f32) (main_arg9 : FVec F S16x10 .f32) (main_arg10 : FVec F S10 .f32) (main_v33 : IVec S_ 1) : IVec S_ 1 :=
  let main_v34 : FVec F S16x10 .f32 := Host.absf main_arg8
  let main_cst_12 : FVec F S_ .f32 := constant S_ .f32 0x7F800000#32
  let main_v35 : FVec F S16x10 .f32 := broadcastInDim S16x10 ![] bcast_S_S16x10 main_cst_12
  let main_v36 : IVec S16x10 1 := cmpf .olt main_v34 main_v35
  let main_c_13 : IVec S_ 1 := constantI S_ 1 1#1
  let main_v37 : IVec S_ 1 := (fun x v => Host.reduce IntOp.andi x v reducesTo_S16x10_S_d0_1 h_S_) main_v36 main_c_13
  let main_v38 : IVec S_ 1 := andi main_v33 main_v37
  let main_v39 : FVec F S16x10 .f32 := Host.absf main_arg9
  let main_cst_14 : FVec F S_ .f32 := constant S_ .f32 0x7F800000#32
  let main_v40 : FVec F S16x10 .f32 := broadcastInDim S16x10 ![] bcast_S_S16x10 main_cst_14
  let main_v41 : IVec S16x10 1 := cmpf .olt main_v39 main_v40
  let main_c_15 : IVec S_ 1 := constantI S_ 1 1#1
  let main_v42 : IVec S_ 1 := (fun x v => Host.reduce IntOp.andi x v reducesTo_S16x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S16x16 .f32) (main_arg6 : FVec F S16x16 .f32) (main_arg7 : FVec F S16 .f32) (main_arg8 : FVec F S16x10 .f32) (main_arg9 : FVec F S16x10 .f32) (main_arg10 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_v33

def fn {F : FTy → Type} [FloatOps F] (main_arg0 : FVec F S100000x767 .f32) (main_arg1 : IVec S2x3200000 32) (main_arg2 : FVec F S767x16 .f32) (main_arg3 : FVec F S767x16 .f32) (main_arg4 : FVec F S16 .f32) (main_arg5 : FVec F S16x16 .f32) (main_arg6 : FVec F S16x16 .f32) (main_arg7 : FVec F S16 .f32) (main_arg8 : FVec F S16x10 .f32) (main_arg9 : FVec F S16x10 .f32) (main_arg10 : FVec F S10 .f32) : IVec S_ 1 :=
  let main_v0 : FVec F S100000x767 .f32 := Host.absf main_arg0
  let main_cst : FVec F S_ .f32 := constant S_ .f32 0x7F800000#32
  let main_v1 : FVec F S100000x767 .f32 := broadcastInDim S100000x767 ![] bcast_S_S100000x767 main_cst
  let main_v2 : IVec S100000x767 1 := cmpf .olt main_v0 main_v1
  let main_c : IVec S_ 1 := constantI S_ 1 1#1
  let main_v3 : IVec S_ 1 := (fun x v => Host.reduce IntOp.andi x v reducesTo_S100000x767_S_d0_1 h_S_) main_v2 main_c
  let main_v4 : FVec F S767x16 .f32 := Host.absf main_arg2
  let main_cst_0 : FVec F S_ .f32 := constant S_ .f32 0x7F800000#32
  let main_v5 : FVec F S767x16 .f32 := broadcastInDim S767x16 ![] bcast_S_S767x16 main_cst_0
  let main_v6 : IVec S767x16 1 := cmpf .olt main_v4 main_v5
  let main_c_1 : IVec S_ 1 := constantI S_ 1 1#1
  let main_v7 : IVec S_ 1 := (fun x v => Host.reduce IntOp.andi x v reducesTo_S767x16_S_d0_1 h_S_) main_v6 main_c_1
  let main_v8 : IVec S_ 1 := andi main_v3 main_v7
  let main_v9 : FVec F S767x16 .f32 := Host.absf main_arg3
  let main_cst_2 : FVec F S_ .f32 := constant S_ .f32 0x7F800000#32
  let main_v10 : FVec F S767x16 .f32 := broadcastInDim S767x16 ![] bcast_S_S767x16 main_cst_2
  let main_v11 : IVec S767x16 1 := cmpf .olt main_v9 main_v10
  let main_c_3 : IVec S_ 1 := constantI S_ 1 1#1
  let main_v12 : IVec S_ 1 := (fun x v => Host.reduce IntOp.andi x v reducesTo_S767x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x767 : Shape := ⟨2, ![100000, 767]⟩
abbrev S2x3200000 : Shape := ⟨2, ![2, 3200000]⟩
abbrev S767x16 : Shape := ⟨2, ![767, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S767x32 : Shape := ⟨2, ![767, 32]⟩
abbrev S100000x32 : Shape := ⟨2, ![100000, 32]⟩
abbrev S4000x767 : Shape := ⟨2, ![4000, 767]⟩
abbrev S4000x32 : Shape := ⟨2, ![4000, 32]⟩
abbrev S100000x16 : Shape := ⟨2, ![100000, 16]⟩
abbrev S3200000x16 : Shape := ⟨2, ![3200000, 16]⟩
abbrev S1x16 : Shape := ⟨2, ![1, 16]⟩
abbrev S16x32 : Shape := ⟨2, ![16, 32]⟩
abbrev S10000x16 : Shape := ⟨2, ![10000, 16]⟩
abbrev S10000x32 : Shape := ⟨2, ![10000, 32]⟩
abbrev S16x20 : Shape := ⟨2, ![16, 20]⟩
abbrev S100000x20 : Shape := ⟨2, ![100000, 20]⟩
abbrev S10000x20 : Shape := ⟨2, ![10000, 20]⟩
abbrev S100000x10 : Shape := ⟨2, ![100000, 10]⟩
abbrev S3200000x10 : Shape := ⟨2, ![3200000, 10]⟩
abbrev S1x10 : Shape := ⟨2, ![1, 10]⟩
abbrev S100000x1 : Shape := ⟨2, ![100000, 1]⟩

abbrev nBuf : Space → Nat
  | .hbm => 134
  | .vmem => 21
  | .smem => 0
  | _ => 0

abbrev hbmTy0_0 (i : Nat) : BufTy := match i % 128 with
  | 0 => ⟨S100000x767, .f32⟩
  | 1 => ⟨S2x3200000, .i32⟩
  | 2 => ⟨S767x16, .f32⟩
  | 3 => ⟨S767x16, .f32⟩
  | 4 => ⟨S16, .f32⟩
  | 5 => ⟨S16x16, .f32⟩
  | 6 => ⟨S16x16, .f32⟩
  | 7 => ⟨S16, .f32⟩
  | 8 => ⟨S16x10, .f32⟩
  | 9 => ⟨S16x10, .f32⟩
  | 10 => ⟨S10, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S767x32, .f32⟩
  | 51 => ⟨S100000x32, .f32⟩
  | 52 => ⟨S100000x16, .f32⟩
  | 53 => ⟨S100000x16, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x16, .f32⟩
  | 63 => ⟨S3200000x1, .f32⟩
  | 64 => ⟨S3200000x16, .f32⟩
  | 65 => ⟨S3200000x16, .f32⟩
  | 66 => ⟨S_, .f32⟩
  | 67 => ⟨S100000x16, .f32⟩
  | 68 => ⟨S3200000x1, .i32⟩
  | 69 => ⟨S100000x16, .f32⟩
  | 70 => ⟨S1x16, .f32⟩
  | 71 => ⟨S16x32, .f32⟩
  | 72 => ⟨S100000x32, .f32⟩
  | 73 => ⟨S100000x16, .f32⟩
  | 74 => ⟨S100000x16, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x16, .f32⟩
  | 84 => ⟨S3200000x1, .f32⟩
  | 85 => ⟨S3200000x16, .f32⟩
  | 86 => ⟨S3200000x16, .f32⟩
  | 87 => ⟨S_, .f32⟩
  | 88 => ⟨S100000x16, .f32⟩
  | 89 => ⟨S3200000x1, .i32⟩
  | 90 => ⟨S100000x16, .f32⟩
  | 91 => ⟨S1x16, .f32⟩
  | 92 => ⟨S16x20, .f32⟩
  | 93 => ⟨S100000x20, .f32⟩
  | 94 => ⟨S100000x10, .f32⟩
  | 95 => ⟨S100000x10, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x10, .f32⟩
  | 105 => ⟨S3200000x1, .f32⟩
  | 106 => ⟨S3200000x10, .f32⟩
  | 107 => ⟨S3200000x10, .f32⟩
  | 108 => ⟨S_, .f32⟩
  | 109 => ⟨S100000x10, .f32⟩
  | 110 => ⟨S3200000x1, .i32⟩
  | 111 => ⟨S100000x10, .f32⟩
  | 112 => ⟨S100000x10, .f32⟩
  | 113 => ⟨S1x10, .f32⟩
  | 114 => ⟨S100000x10, .f32⟩
  | 115 => ⟨S100000x10, .f32⟩
  | 116 => ⟨S_, .f32⟩
  | 117 => ⟨S100000x10, .f32⟩
  | 118 => ⟨S100000x10, .f32⟩
  | 119 => ⟨S_, .f32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x10, .f32⟩
  | 126 => ⟨S100000x10, .f32⟩
  | 127 => ⟨S100000x10, .f32⟩
  | _ => ⟨S100000x767, .f32⟩

abbrev hbmTy0_1 (i : Nat) : BufTy := match i % 128 with
  | 0 => ⟨S_, .f32⟩
  | 1 => ⟨S100000, .f32⟩
  | 2 => ⟨S100000x1, .f32⟩
  | 3 => ⟨S100000x1, .f32⟩
  | 4 => ⟨S100000x10, .f32⟩
  | 5 => ⟨S100000x10, .f32⟩
  | _ => ⟨S100000x767, .f32⟩

abbrev hbmTy (i : Nat) : BufTy := match i / 128 with
  | 0 => hbmTy0_0 i
  | 1 => hbmTy0_1 i
  | _ => ⟨S100000x767, .f32⟩

abbrev bufTy : (tb : Table) → Fin (tcTables nBuf tb) → BufTy
  | .hbm, ⟨i, _⟩ => hbmTy i
  | .local _ .vmem, ⟨0, _⟩ => ⟨S4000x767, .f32⟩
  | .local _ .vmem, ⟨1, _⟩ => ⟨S4000x767, .f32⟩
  | .local _ .vmem, ⟨2, _⟩ => ⟨S767x32, .f32⟩
  | .local _ .vmem, ⟨3, _⟩ => ⟨S4000x32, .f32⟩
  | .local _ .vmem, ⟨4, _⟩ => ⟨S4000x32, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S1x16, .f32⟩
  | .local _ .vmem, ⟨10, _⟩ => ⟨S16x32, .f32⟩
  | .local _ .vmem, ⟨11, _⟩ => ⟨S10000x32, .f32⟩
  | .local _ .vmem, ⟨12, _⟩ => ⟨S10000x32, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S16x20, .f32⟩
  | .local _ .vmem, ⟨19, _⟩ => ⟨S10000x20, .f32⟩
  | .local _ .vmem, ⟨20, _⟩ => ⟨S10000x20, .f32⟩
  | _, _ => ⟨S100000x767, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩
abbrev main_call2_cst : Ref sig .tc := ⟨.hbm, 119, rfl⟩
abbrev main_call2_v0 : Ref sig .tc := ⟨.hbm, 120, rfl⟩
abbrev main_call2_cst_0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_cst_1 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_v86 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x767 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S767x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S767x16_S767x16_S767x32_d1 : Shape.Concatenates [S767x16, S767x16] S767x32 1
  inb_S4000x767_S4000x767_0_0 : ∀ a, (![0, 0] : Fin 2 → Nat) a + S4000x767.size a ≤ S4000x767.size a
  h_S4000x767 : 0 < S4000x767.numel
  bitsLt_bf16_f32 : FTy.bits .bf16 < FTy.bits .f32
  inb_S767x32_S767x32_0_0 : ∀ a, (![0, 0] : Fin 2 → Nat) a + S767x32.size a ≤ S767x32.size a
  h_S767x32 : 0 < S767x32.numel
  shapeCasts_S767x32_S767x32 : S767x32.ShapeCasts S767x32
  inb_S4000x32_S4000x32_0_0 : ∀ a, (![0, 0] : Fin 2 → Nat) a + S4000x32.size a ≤ S4000x32.size a
  h_S4000x32 : 0 < S4000x32.numel
  slices_S100000x32_S100000x16_0_0 : S100000x32.Slices ![0, 0] S100000x16
  slices_S100000x32_S100000x16_0_16 : S100000x32.Slices ![0, 16] S100000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  concatenates_S16x16_S16x16_S16x32_d1 : Shape.Concatenates [S16x16, S16x16] S16x32 1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S10000x32_S10000x32_0_0 : ∀ a, (![0, 0] : Fin 2 → Nat) a + S10000x32.size a ≤ S10000x32.size a
  h_S10000x32 : 0 < S10000x32.numel
  concatenates_S16x10_S16x10_S16x20_d1 : Shape.Concatenates [S16x10, S16x10] S16x20 1
  inb_S16x20_S16x20_0_0 : ∀ a, (![0, 0] : Fin 2 → Nat) a + S16x20.size a ≤ S16x20.size a
  h_S16x20 : 0 < S16x20.numel
  shapeCasts_S16x20_S16x20 : S16x20.ShapeCasts S16x20
  inb_S10000x20_S10000x20_0_0 : ∀ a, (![0, 0] : Fin 2 → Nat) a + S10000x20.size a ≤ S10000x20.size a
  h_S10000x20 : 0 < S10000x20.numel
  slices_S100000x20_S100000x10_0_0 : S100000x20.Slices ![0, 0] S100000x10
  slices_S100000x20_S100000x10_0_10 : S100000x20.Slices ![0, 10] S100000x10
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x767_S767x32_S4000x32_1_0_0_1_n_n_wf : DotDims.WF S4000x767 S767x32 S4000x32 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x32_S10000x32_1_0_0_1_n_n_wf : DotDims.WF S10000x16 S16x32 S10000x32 [1] [0] [0] [1] [] []
  dot_S10000x16_S16x20_S10000x20_1_0_0_1_n_n_wf : DotDims.WF S10000x16 S16x20 S10000x20 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x767.size a ≤ S100000x767.size a
  hwx0_0 : ∀ i : grid0.Coords, EltTy.bits .f32 = 32 ∨ (Rect.block (s := S100000x767) S4000x767.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S767x32.size a ≤ S767x32.size a
  hwx0_1 : ∀ i : grid0.Coords, EltTy.bits .f32 = 32 ∨ (Rect.block (s := S767x32) S767x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x20.size a ≤ S16x20.size a
  hwx2_3 : ∀ i : grid2.Coords, EltTy.bits .f32 = 32 ∨ (Rect.block (s := S16x20) S16x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x20.size a ≤ S100000x20.size a
  hwx2_4 : ∀ i : grid2.Coords, EltTy.bits .f32 = 32 ∨ (Rect.block (s := S100000x20) S10000x20.size (cc2_transform_4 i) (hinb2_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x767_S767x32_S4000x32_1_0_0_1_n_n : DotDims S4000x767 S767x32 S4000x32 where
  lhsContracting := [1]
  rhsContracting := [0]
  lhsNonContracting := [0]
  rhsNonContracting := [1]
  lhsBatch := []
  rhsBatch := []
  wf := dot_S4000x767_S767x32_S4000x32_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x16_S16x20_S10000x20_1_0_0_1_n_n : DotDims S10000x16 S16x20 S10000x20 where
  lhsContracting := [1]
  rhsContracting := [0]
  lhsNonContracting := [0]
  rhsNonContracting := [1]
  lhsBatch := []
  rhsBatch := []
  wf := dot_S10000x16_S16x20_S10000x20_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S4000x767.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S767x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v62) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S16x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x767 : Shape := ⟨2, ![100000, 767]⟩
abbrev S2x3200000 : Shape := ⟨2, ![2, 3200000]⟩
abbrev S767x16 : Shape := ⟨2, ![767, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S3200000x16 : Shape := ⟨2, ![3200000, 16]⟩
abbrev S1x16 : Shape := ⟨2, ![1, 16]⟩
abbrev S100000x10 : Shape := ⟨2, ![100000, 10]⟩
abbrev S3200000x10 : Shape := ⟨2, ![3200000, 10]⟩
abbrev S1x10 : Shape := ⟨2, ![1, 10]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x767, .f32⟩
  | 1 => ⟨S2x3200000, .i32⟩
  | 2 => ⟨S767x16, .f32⟩
  | 3 => ⟨S767x16, .f32⟩
  | 4 => ⟨S16, .f32⟩
  | 5 => ⟨S16x16, .f32⟩
  | 6 => ⟨S16x16, .f32⟩
  | 7 => ⟨S16, .f32⟩
  | 8 => ⟨S16x10, .f32⟩
  | 9 => ⟨S16x10, .f32⟩
  | 10 => ⟨S10, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000x16, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x16, .f32⟩
  | 60 => ⟨S3200000x1, .f32⟩
  | 61 => ⟨S3200000x16, .f32⟩
  | 62 => ⟨S3200000x16, .f32⟩
  | 63 => ⟨S_, .f32⟩
  | 64 => ⟨S100000x16, .f32⟩
  | 65 => ⟨S3200000x1, .i32⟩
  | 66 => ⟨S100000x16, .f32⟩
  | 67 => ⟨S100000x16, .f32⟩
  | 68 => ⟨S100000x16, .f32⟩
  | 69 => ⟨S1x16, .f32⟩
  | 70 => ⟨S100000x16, .f32⟩
  | 71 => ⟨S100000x16, .f32⟩
  | 72 => ⟨S_, .f32⟩
  | 73 => ⟨S100000x16, .f32⟩
  | 74 => ⟨S100000x16, .f32⟩
  | 75 => ⟨S_, .f32⟩
  | 76 => ⟨S100000x16, .f32⟩
  | 77 => ⟨S100000x16, .f32⟩
  | 78 => ⟨S100000x16, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000x16, .f32⟩
  | 88 => ⟨S3200000x1, .f32⟩
  | 89 => ⟨S3200000x16, .f32⟩
  | 90 => ⟨S3200000x16, .f32⟩
  | 91 => ⟨S_, .f32⟩
  | 92 => ⟨S100000x16, .f32⟩
  | 93 => ⟨S3200000x1, .i32⟩
  | 94 => ⟨S100000x16, .f32⟩
  | 95 => ⟨S100000x16, .f32⟩
  | 96 => ⟨S100000x16, .f32⟩
  | 97 => ⟨S1x16, .f32⟩
  | 98 => ⟨S100000x16, .f32⟩
  | 99 => ⟨S100000x16, .f32⟩
  | 100 => ⟨S_, .f32⟩
  | 101 => ⟨S100000x16, .f32⟩
  | 102 => ⟨S100000x16, .f32⟩
  | 103 => ⟨S_, .f32⟩
  | 104 => ⟨S100000x16, .f32⟩
  | 105 => ⟨S100000x16, .f32⟩
  | 106 => ⟨S100000x10, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x10, .f32⟩
  | 116 => ⟨S3200000x1, .f32⟩
  | 117 => ⟨S3200000x10, .f32⟩
  | 118 => ⟨S3200000x10, .f32⟩
  | 119 => ⟨S_, .f32⟩
  | 120 => ⟨S100000x10, .f32⟩
  | 121 => ⟨S3200000x1, .i32⟩
  | 122 => ⟨S100000x10, .f32⟩
  | 123 => ⟨S100000x10, .f32⟩
  | 124 => ⟨S100000x10, .f32⟩
  | 125 => ⟨S1x10, .f32⟩
  | 126 => ⟨S100000x10, .f32⟩
  | 127 => ⟨S100000x10, .f32⟩
  | _ => ⟨S100000x767, .f32⟩

abbrev hbmTy0_1 (i : Nat) : BufTy := match i % 128 with
  | 0 => ⟨S_, .f32⟩
  | 1 => ⟨S100000x10, .f32⟩
  | 2 => ⟨S100000x10, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x10, .f32⟩
  | 10 => ⟨S100000x10, .f32⟩
  | 11 => ⟨S100000x10, .f32⟩
  | 12 => ⟨S_, .f32⟩
  | 13 => ⟨S100000, .f32⟩
  | 14 => ⟨S100000x1, .f32⟩
  | 15 => ⟨S100000x1, .f32⟩
  | 16 => ⟨S100000x10, .f32⟩
  | 17 => ⟨S100000x10, .f32⟩
  | _ => ⟨S100000x767, .f32⟩

abbrev hbmTy (i : Nat) : BufTy := match i / 128 with
  | 0 => hbmTy0_0 i
  | 1 => hbmTy0_1 i
  | _ => ⟨S100000x767, .f32⟩

abbrev bufTy : (tb : Table) → Fin (tcTables nBuf tb) → BufTy
  | .hbm, ⟨i, _⟩ => hbmTy i
  | _, _ => ⟨S100000x767, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_call2_cst : Ref sig .tc := ⟨.hbm, 75, rfl⟩
abbrev main_call2_v0 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call3_cst : Ref sig .tc := ⟨.hbm, 100, rfl⟩
abbrev main_call3_v0 : Ref sig .tc := ⟨.hbm, 101, rfl⟩
abbrev main_v68 : Ref sig .tc := ⟨.hbm, 102, rfl⟩
abbrev main_call4_cst : Ref sig .tc := ⟨.hbm, 103, rfl⟩
abbrev main_call4_v0 : Ref sig .tc := ⟨.hbm, 104, rfl⟩
abbrev main_v69 : Ref sig .tc := ⟨.hbm, 105, rfl⟩
abbrev main_v70 : Ref sig .tc := ⟨.hbm, 106, rfl⟩
abbrev main_c_13 : Ref sig .tc := ⟨.hbm, 107, rfl⟩
abbrev main_v71 : Ref sig .tc := ⟨.hbm, 108, rfl⟩
abbrev main_v72 : Ref sig .tc := ⟨.hbm, 109, rfl⟩
abbrev main_c_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call5_cst : Ref sig .tc := ⟨.hbm, 128, rfl⟩
abbrev main_call5_v0 : Ref sig .tc := ⟨.hbm, 129, rfl⟩
abbrev main_v89 : Ref sig .tc := ⟨.hbm, 130, rfl⟩
abbrev main_call6_cst : Ref sig .tc := ⟨.hbm, 131, rfl⟩
abbrev main_call6_v0 : Ref sig .tc := ⟨.hbm, 132, rfl⟩
abbrev main_call6_cst_0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_cst_1 : Ref sig .tc := ⟨.hbm, 140, rfl⟩
abbrev main_call6_v7 : Ref sig .tc := ⟨.hbm, 141, rfl⟩
abbrev main_call6_v8 : Ref sig .tc := ⟨.hbm, 142, rfl⟩
abbrev main_call6_v9 : Ref sig .tc := ⟨.hbm, 143, rfl⟩
abbrev main_call6_v10 : Ref sig .tc := ⟨.hbm, 144, rfl⟩
abbrev main_v90 : Ref sig .tc := ⟨.hbm, 145, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x767_S767x16_S100000x16_1_0_0_1_n_n_wf : DotDims.WF S100000x767 S767x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S100000x16_S16x10_S100000x10_1_0_0_1_n_n_wf : DotDims.WF S100000x16 S16x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x767_S767x16_S100000x16_1_0_0_1_n_n : DotDims S100000x767 S767x16 S100000x16 where
  lhsContracting := [1]
  rhsContracting := [0]
  lhsNonContracting := [0]
  rhsNonContracting := [1]
  lhsBatch := []
  rhsBatch := []
  wf := dot_S100000x767_S767x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.KRun.lean ====
/-
  The idealized kernel's run, with its result named.

  The program is eleven segments: stretches of host operations and three pipelined kernels between them. Each
  segment takes the device's buffers from one contents to the next — a stretch by applying its operations in order,
  a kernel by replacing its arrays with what its blocks' write-backs leave — so the buffers at the return are a fold
  `W11` of these steps over the launch memory. Every weakly fair execution terminates with every unscoped buffer at
  that fold; read at the result buffer this names the result, and read at the argument buffers it gives them back
  unchanged. What the fold is, as a function of the arguments, is computed elsewhere.
-/
import proofs.«126903_j3564822856024_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the fold of the segments over
    the launch memory and the arguments as launched. -/
theorem run_fold : θ_run defs (onTc (τ := τ) (main (F := F))) ⟨m, fun _ => 0, ρ⟩ (fun r => ∀ c : Dev nD,
      r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.Layers.lean ====
/-
  The two dense layers of the network, as whole-array functions on the extended reals.

  `proj x w` is the plain matrix product: entry `(p, q)` is the sum over `e` of `x (p, e) * w (e, q)`.
  `reluProj a r b w` first forms the activation `max (a + r + b) 0` entry by entry — `a` the aggregated
  messages, `r` the root term, `b` a bias row repeated down the rows — and then takes its product with `w`.
  Both are stated for any extents; the zero of the activation is kept as the float word it is printed with.
-/
import Idealize.ShloMosaic.PureOps.Ideal
import Idealize.ShloMosaic.Lib.ValueIdx

noncomputable section

namespace Cert.Layers

open Idealize.ShloMosaic Idealize.ShloMosaic.ValueIdx

variable {M K N : ℕ}

/-- The matrix product of an `[M, K]` array with a `[K, N]` array. -/
def proj (x : (⟨2, ![M, K]⟩ : Shape).Idx → EReal) (w : (⟨2, ![K, N]⟩ : Shape).Idx → EReal) :
    (⟨2, ![M, N]⟩ : Shape).Idx → EReal :=
  fun i => ∑ e : Fin K, x (ix2 (n0 := M) (i 0) e) * w (ix2 (n1 := N) e (i 1))

theorem proj_apply (x : (⟨2, ![M, K]⟩ : Shape).Idx → EReal) (w : (⟨2, ![K, N]⟩ : Shape).Idx → EReal)
    (p : Fin M) (q : Fin N) : proj x w (ix2 p q) = ∑ e : Fin K, x (ix2 p e) * w (ix2 e q) := rfl

/-- The activation of a layer boundary: messages plus root term plus bias, cut off below at zero. -/
def act (a r : (⟨2, ![M, K]⟩ : Shape).Idx → EReal) (b : (⟨2, ![1, K]⟩ : Shape).Idx → EReal) (p : Fin M) (e : Fin K) : EReal :=
  max (a (ix2 p e) + r (ix2 p e) + b (ix2 (0 : Fin 1) e)) (Ideal.ofBits .f32 0x00000000#32)

/-- The activation followed by the matrix product with `w`. -/
def reluProj (a r : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  fun i => ∑ e : Fin K, act a r b (i 0) e * w (ix2 (n1 := N) e (i 1))

theorem reluProj_apply (a r : (⟨2, ![M, K]⟩ : Shape).Idx → EReal) (b : (⟨2, ![1, K]⟩ : Shape).Idx → EReal)
    (w : (⟨2, ![K, N]⟩ : Shape).Idx → EReal) (p : Fin M) (q : Fin N) :
    reluProj a r b w (ix2 p q) = ∑ e : Fin K, act a r b p e * w (ix2 e q) := rfl

end Cert.Layers

end
-- ==== Proof.HostChain.lean ====
/-
  The graph part of the network, shared by the two programs, as named whole-array functions on the extended reals.

  From the edge list `ei` (row 0 the sources, row 1 the targets): the target column `colIx` and the source column
  `rowIx` (negative indices wrapped by the number of nodes), the degree `deg` of each node (a scatter of ones over the
  targets), its inverse square root `dinv` where the degree is positive and zero elsewhere, and the edge weight
  `nrmCol` = dinv(source) * dinv(target) as a column. `agg16` / `agg10` send a node feature array along the edges:
  gather the source rows, scale each by its edge weight, and add them up at the targets. `pre16` / `pre10` add the
  aggregated messages, the root term and the bias row; `relu16` / `relu10` cut off at zero; `finish` is the row-wise
  log-softmax. The reference composes these with host matrix products (`refOut`); the kernel composes them with the
  column halves of three fused matrix products (`kerOut`, over `Layers.proj` and `Layers.reluProj`).
  Nothing here is evaluated: each function is a name for a fixed composition of host operations, so that two programs
  applying the same composition to equal arrays are seen to agree without opening it.
-/
import proofs.«126903_j3564822856024_2_alg».proof.KernelIdeal
import proofs.«126903_j3564822856024_2_alg».proof.ReferenceIdeal
import proofs.«126903_j3564822856024_2_alg».proof.Proof.Layers

set_option maxRecDepth 8192

noncomputable section

namespace Cert.Chain

open Idealize.ShloMosaic Cert.KernelIdeal Cert.KernelIdeal.Facts₀ Cert.KernelIdeal.Facts

variable [hK : Cert.KernelIdeal.Facts] [hR : Cert.ReferenceIdeal.Facts]

/-- A float array and an integer array of a given shape, at a float instance `F`. -/
abbrev Arr (F : FTy → Type) (S : Shape) : Type := (⟨S, .f32⟩ : BufTy).Contents (Elt F)
abbrev IArr (F : FTy → Type) (S : Shape) : Type := (⟨S, .i32⟩ : BufTy).Contents (Elt F)

section Host

variable {F : FTy → Type} [FloatOps F]

/-- The targets of the edges. -/
def colVec (ei : IArr F S2x3200000) : IArr F S3200000 :=
  shapeCast _ (extractStridedSlice S1x3200000 ![1, 0] ei slices_S2x3200000_S1x3200000_1_0) shapeCasts_S1x3200000_S3200000
/-- The sources of the edges. -/
def rowVec (ei : IArr F S2x3200000) : IArr F S3200000 :=
  shapeCast _ (extractStridedSlice S1x3200000 ![0, 0] ei slices_S2x3200000_S1x3200000_0_0) shapeCasts_S1x3200000_S3200000
/-- A negative index counts from the end. -/
def wrap (v : IArr F S3200000) : IArr F S3200000 :=
  select (cmpi .slt v (broadcastInDim S3200000 ![] bcast_S_S3200000 (constantI S_ 32 0#32))) (addi v (broadcastInDim S3200000 ![] bcast_S_S3200000 (constantI S_ 32 100000#32))) v
/-- An index vector as the one-column index array the gathers and scatters take. -/
def asIx (v : IArr F S3200000) : IArr F S3200000x1 := broadcastInDim S3200000x1 ![0] bcast_S3200000_S3200000x1_0 v

def zeros1 : Arr F S100000 := broadcastInDim S100000 ![] bcast_S_S100000 (constant (F := F) S_ .f32 0x00000000#32)
/-- The number of edges arriving at each node: ones added up at the targets `cv`. -/
def deg (cv : IArr F S3200000) : Arr F S100000 :=
  Host.scatterAdd (F := F) scatter_S100000_S3200000x1_S3200000_n_0_0_1 zeros1 (asIx cv) (broadcastInDim S3200000 ![] bcast_S_S3200000 (constant (F := F) S_ .f32 0x3F800000#32))
/-- The choice between two arrays entry by entry: `pw` where the mask `cmp` holds, the scalar `z` elsewhere. -/
def dinvOf (cmp : (⟨S100000, .i1⟩ : BufTy).Contents (Elt F)) (pw : Arr F S100000) (z : Arr F S_) : Arr F S100000 :=
  select cmp pw (broadcastInDim S100000 ![] bcast_S_S100000 (id z))
/-- Where the degree is positive. -/
def degPos (cv : IArr F S3200000) : (⟨S100000, .i1⟩ : BufTy).Contents (Elt F) := cmpf .ogt (deg cv) zeros1
/-- The degree to the power -1/2. -/
def degPow (cv : IArr F S3200000) : Arr F S100000 :=
  Host.powf (F := F) (deg cv) (broadcastInDim S100000 ![] bcast_S_S100000 (constant (F := F) S_ .f32 0xBF000000#32))
/-- The scalar zero. -/
def zeroS : Arr F S_ := constant (F := F) S_ .f32 0x00000000#32
/-- deg ^ (-1/2) where the degree is positive, zero elsewhere. -/
def dinv (cv : IArr F S3200000) : Arr F S100000 := dinvOf (degPos cv) (degPow cv) zeroS
/-- The product of a node array `d` read at the sources and at the targets of the edges. -/
def nrmOf (d : Arr F S100000) (rv cv : IArr F S3200000) : Arr F S3200000 :=
  mulf (Host.gather gather_S100000_S3200000x1_S3200000_n_0_n_n_0_1_1 d (asIx (wrap rv))) (Host.gather gather_S100000_S3200000x1_S3200000_n_0_n_n_0_1_1 d (asIx (wrap cv)))
/-- The weight of each edge from source `rv` to target `cv`: dinv(source) * dinv(target). -/
def nrm (rv cv : IArr F S3200000) : Arr F S3200000 := nrmOf (dinv cv) rv cv

def zeros16 : Arr F S100000x16 := broadcastInDim S100000x16 ![] bcast_S_S100000x16 (constant (F := F) S_ .f32 0x00000000#32)
def zeros10 : Arr F S100000x10 := broadcastInDim S100000x10 ![] bcast_S_S100000x10 (constant (F := F) S_ .f32 0x00000000#32)

/-- Weighted sum of the source rows of `h` at each target node (16 features): gather the rows at the sources `rv`,
    scale row by row with the edge weights `nv`, add up at the targets `cv`. -/
def aggV16 (rv cv : IArr F S3200000) (nv : Arr F S3200000) (h : Arr F S100000x16) : Arr F S100000x16 :=
  Host.scatterAdd (F := F) scatter_S100000x16_S3200000x1_S3200000x16_1_0_0_1 zeros16 (asIx cv) (mulf (Host.gather gather_S100000x16_S3200000x1_S3200000x16_1_0_n_n_0_1_116 h (asIx (wrap rv))) (broadcastInDim S3200000x16 ![0, 1] bcast_S3200000x1_S3200000x16_0_1 (broadcastInDim S3200000x1 ![0] bcast_S3200000_S3200000x1_0 nv)))
/-- The same with 10 features. -/
def aggV10 (rv cv : IArr F S3200000) (nv : Arr F S3200000) (h : Arr F S100000x10) : Arr F S100000x10 :=
  Host.scatterAdd (F := F) scatter_S100000x10_S3200000x1_S3200000x10_1_0_0_1 zeros10 (asIx cv) (mulf (Host.gather gather_S100000x10_S3200000x1_S3200000x10_1_0_n_n_0_1_110 h (asIx (wrap rv))) (broadcastInDim S3200000x10 ![0, 1] bcast_S3200000x1_S3200000x10_0_1 (broadcastInDim S3200000x1 ![0] bcast_S3200000_S3200000x1_0 nv)))
/-- The aggregation along the edge list `ei`. -/
def agg16 (ei : IArr F S2x3200000) (h : Arr F S100000x16) : Arr F S100000x16 := aggV16 (rowVec ei) (colVec ei) (nrm (rowVec ei) (colVec ei)) h
def agg10 (ei : IArr F S2x3200000) (h : Arr F S100000x10) : Arr F S100000x10 := aggV10 (rowVec ei) (colVec ei) (nrm (rowVec ei) (colVec ei)) h

def bias16 (b : Arr F S16) : Arr F S100000x16 := broadcastInDim S100000x16 ![0, 1] Cert.ReferenceIdeal.Facts₀.bcast_S1x16_S100000x16_0_1 (broadcastInDim S1x16 ![1] Cert.ReferenceIdeal.Facts₀.bcast_S16_S1x16_1 b)
def bias10 (b : Arr F S10) : Arr F S100000x10 := broadcastInDim S100000x10 ![0, 1] bcast_S1x10_S100000x10_0_1 (broadcastInDim S1x10 ![1] bcast_S10_S1x10_1 b)
def pre16 (a r : Arr F S100000x16) (b : Arr F S16) : Arr F S100000x16 := addf (addf a r) (bias16 b)
def pre10 (a r : Arr F S100000x10) (b : Arr F S10) : Arr F S100000x10 := addf (addf a r) (bias10 b)
def relu16 (z : Arr F S100000x16) : Arr F S100000x16 := maximumf z zeros16
def relu10 (z : Arr F S100000x10) : Arr F S100000x10 := maximumf z zeros10

/-- The largest entry of each row, repeated along the row. -/
def rowMax (z : Arr F S100000x10) : Arr F S100000x10 :=
  broadcastInDim S100000x10 ![0, 1] bcast_S100000x1_S100000x10_0_1 (broadcastInDim S100000x1 ![0] bcast_S100000_S100000x1_0 (maximumf (broadcastInDim S100000 ![] bcast_S_S100000 (constant (F := F) S_ .f32 0xFF800000#32)) (Host.reduce (FloatOps.maximumf (F := F) (φ := .f32)) z (constant (F := F) S_ .f32 0xFF800000#32) reducesTo_S100000x10_S100000_d1 h_S_)))
/-- The logarithm of each row's sum of exponentials of the shifted entries, repeated along the row. -/
def rowLogSum (z : Arr F S100000x10) : Arr F S100000x10 :=
  broadcastInDim S100000x10 ![0, 1] bcast_S100000x1_S100000x10_0_1 (Host.log (F := F) (broadcastInDim S100000x1 ![0] bcast_S100000_S100000x1_0 (Host.reduceAdd (F := F) (Host.exp (F := F) (subf z (rowMax z))) (constant (F := F) S_ .f32 0x00000000#32) reducesTo_S100000x10_S100000_d1 h_S_)))
/-- The row-wise log-softmax. -/
def finish (z : Arr F S100000x10) : Arr F S100000x10 := subf (subf z (rowMax z)) (rowLogSum z)

/-- The two column halves of a fused product, the two weight arrays side by side, and a bias as a row. -/
def left16 (y : Arr F S100000x32) : Arr F S100000x16 := extractStridedSlice S100000x16 ![0, 0] y slices_S100000x32_S100000x16_0_0
def right16 (y : Arr F S100000x32) : Arr F S100000x16 := extractStridedSlice S100000x16 ![0, 16] y slices_S100000x32_S100000x16_0_16
def left10 (y : Arr F S100000x20) : Arr F S100000x10 := extractStridedSlice S100000x10 ![0, 0] y slices_S100000x20_S100000x10_0_0
def right10 (y : Arr F S100000x20) : Arr F S100000x10 := extractStridedSlice S100000x10 ![0, 10] y slices_S100000x20_S100000x10_0_10
def cat767 (a b : Arr F S767x16) : Arr F S767x32 := concatenate S767x32 1 [⟨S767x16, a⟩, ⟨S767x16, b⟩] concatenates_S767x16_S767x16_S767x32_d1
def cat32 (a b : Arr F S16x16) : Arr F S16x32 := concatenate S16x32 1 [⟨S16x16, a⟩, ⟨S16x16, b⟩] concatenates_S16x16_S16x16_S16x32_d1
def cat20 (a b : Arr F S16x10) : Arr F S16x20 := concatenate S16x20 1 [⟨S16x10, a⟩, ⟨S16x10, b⟩] concatenates_S16x10_S16x10_S16x20_d1
def biasRow (b : Arr F S16) : Arr F S1x16 := shapeCast _ b shapeCasts_S16_S1x16

/-! ## The reference: host matrix products between the graph steps -/

def hid1R (x : Arr F S100000x767) (ei : IArr F S2x3200000) (w1i w1r : Arr F S767x16) (b1 : Arr F S16) : Arr F S100000x16 :=
  relu16 (relu16 (pre16 (agg16 ei (Host.dotGeneral (F := F) Cert.ReferenceIdeal.dot_S100000x767_S767x16_S100000x16_1_0_0_1_n_n none x w1i)) (Host.dotGeneral (F := F) Cert.ReferenceIdeal.dot_S100000x767_S767x16_S100000x16_1_0_0_1_n_n none x w1r) b1))
def hid2R (h1 : Arr F S100000x16) (ei : IArr F S2x3200000) (w2i w2r : Arr F S16x16) (b2 : Arr F S16) : Arr F S100000x16 :=
  relu16 (relu16 (pre16 (agg16 ei (Host.dotGeneral (F := F) Cert.ReferenceIdeal.dot_S100000x16_S16x16_S100000x16_1_0_0_1_n_n none h1 w2i)) (Host.dotGeneral (F := F) Cert.ReferenceIdeal.dot_S100000x16_S16x16_S100000x16_1_0_0_1_n_n none h1 w2r) b2))
def lastR (h2 : Arr F S100000x16) (ei : IArr F S2x3200000) (w3i w3r : Arr F S16x10) (b3 : Arr F S10) : Arr F S100000x10 :=
  finish (relu10 (pre10 (agg10 ei (Host.dotGeneral (F := F) Cert.ReferenceIdeal.dot_S100000x16_S16x10_S100000x10_1_0_0_1_n_n none h2 w3i)) (Host.dotGeneral (F := F) Cert.ReferenceIdeal.dot_S100000x16_S16x10_S100000x10_1_0_0_1_n_n none h2 w3r) b3))
def refOut (x : Arr F S100000x767) (ei : IArr F S2x3200000) (w1i w1r : Arr F S767x16) (b1 : Arr F S16) (w2i w2r : Arr F S16x16) (b2 : Arr F S16)
    (w3i w3r : Arr F S16x10) (b3 : Arr F S10) : Arr F S100000x10 :=
  lastR (hid2R (hid1R x ei w1i w1r b1) ei w2i w2r b2) ei w3i w3r b3

end Host

/-! ## The kernel: the two column halves of one fused product per layer -/

def y1K (x : Arr Ideal S100000x767) (w1i w1r : Arr Ideal S767x16) : Arr Ideal S100000x32 := Cert.Layers.proj x (cat767 w1i w1r)
def y2K (y1 : Arr Ideal S100000x32) (ei : IArr Ideal S2x3200000) (b1 : Arr Ideal S16) (w2i w2r : Arr Ideal S16x16) : Arr Ideal S100000x32 :=
  Cert.Layers.reluProj (agg16 ei (left16 y1)) (right16 y1) (biasRow b1) (cat32 w2i w2r)
def y3K (y2 : Arr Ideal S100000x32) (ei : IArr Ideal S2x3200000) (b2 : Arr Ideal S16) (w3i w3r : Arr Ideal S16x10) : Arr Ideal S100000x20 :=
  Cert.Layers.reluProj (agg16 ei (left16 y2)) (right16 y2) (biasRow b2) (cat20 w3i w3r)
def lastK (y3 : Arr Ideal S100000x20) (ei : IArr Ideal S2x3200000) (b3 : Arr Ideal S10) : Arr Ideal S100000x10 :=
  finish (relu10 (pre10 (agg10 ei (left10 y3)) (right10 y3) b3))
def kerOut (x : Arr Ideal S100000x767) (ei : IArr Ideal S2x3200000) (w1i w1r : Arr Ideal S767x16) (b1 : Arr Ideal S16) (w2i w2r : Arr Ideal S16x16) (b2 : Arr Ideal S16)
    (w3i w3r : Arr Ideal S16x10) (b3 : Arr Ideal S10) : Arr Ideal S100000x10 :=
  lastK (y3K (y2K (y1K x w1i w1r) ei b1 w2i w2r) ei b2 w3i w3r) ei b3

end Cert.Chain

end
-- ==== Proof.LibTypedRead.lean ====
/-
  Reading a typed reference after the operations of a called function: general lemmas.

  Inside a called function a value is a buffer together with a proof that the buffer's type is the value's type, and
  every operation moves contents across that equation: once from the buffer's type on the way in, once back on the
  way out. Read at the VALUE's type — `rd x V`, the contents of `x`'s buffer in `V` carried to `x`'s value type —
  the two crossings cancel for any reference whatever (the equation is eliminated once, abstractly), so the result
  of an operation read at its own reference is its function of its operands read the same way, and read at another
  reference it is what was there. No buffer's type is ever computed.
-/
import Idealize.ShloMosaic.Lib.StableHlo
import Idealize.ShloMosaic.Lib.StableHlo.Run

namespace Cert.LibTypedRead

open Idealize.ShloMosaic Idealize.ShloMosaic.StableHlo

variable {τ : Topo} {sig : RefSig} {Val : EltTy → Type}
variable {T Ta Tb Tc Tx Ty Tz : BufTy}

/-- The contents of a typed reference's buffer, at the value's type. -/
def rd (x : TRef sig T) (V : Valuation τ sig Val) : T.Contents Val := x.ofBuf (V (Proc.devRef .tc x.ref))

/-- Carrying contents to the buffer's type and back is the identity. -/
theorem ofBuf_toBuf (x : TRef sig T) (v : T.Contents Val) : x.ofBuf (x.toBuf v) = v := by
  obtain ⟨r, h, h2, h3⟩ := x
  subst h
  rfl

theorem rd_nullary (y : TRef sig Ty) (v : Ty.Contents Val) (V : Valuation τ sig Val) :
    rd y ((TRef.nullary (τ := τ) y v).result V) = v := by
  unfold rd
  rw [show (TRef.nullary (τ := τ) y v).result V (Proc.devRef .tc y.ref) = y.toBuf v from nullary_result y.ref (y.toBuf v) y.dev V]
  exact ofBuf_toBuf y v

theorem rd_nullary_ne (y : TRef sig Ty) (z : TRef sig Tz) (v : Ty.Contents Val) (V : Valuation τ sig Val) (h : z.ref ≠ y.ref) :
    rd z ((TRef.nullary (τ := τ) y v).result V) = rd z V := by
  unfold rd
  rw [show (TRef.nullary (τ := τ) y v).result V (Proc.devRef .tc z.ref) = V (Proc.devRef .tc z.ref) from
    nullary_result_ne (y := y.ref) (y.toBuf v) y.dev V h]

theorem rd_unary (x : TRef sig Tx) (y : TRef sig Ty) (f : Tx.Contents Val → Ty.Contents Val) (V : Valuation τ sig Val) :
    rd y ((TRef.unary (τ := τ) x y f).result V) = f (rd x V) := by
  unfold rd
  rw [show (TRef.unary (τ := τ) x y f).result V (Proc.devRef .tc y.ref) = y.toBuf (f (x.ofBuf (V (Proc.devRef .tc x.ref)))) from
    unary_result x.ref y.ref _ x.dev y.dev V]
  exact ofBuf_toBuf y _

theorem rd_unary_ne (x : TRef sig Tx) (y : TRef sig Ty) (z : TRef sig Tz) (f : Tx.Contents Val → Ty.Contents Val)
    (V : Valuation τ sig Val) (h : z.ref ≠ y.ref) : rd z ((TRef.unary (τ := τ) x y f).result V) = rd z V := by
  unfold rd
  rw [show (TRef.unary (τ := τ) x y f).result V (Proc.devRef .tc z.ref) = V (Proc.devRef .tc z.ref) from
    unary_result_ne (x := x.ref) (y := y.ref) _ x.dev y.dev V h]

theorem rd_binary (a : TRef sig Ta) (b : TRef sig Tb) (y : TRef sig Ty) (f : Ta.Contents Val → Tb.Contents Val → Ty.Contents Val)
    (V : Valuation τ sig Val) : rd y ((TRef.binary (τ := τ) a b y f).result V) = f (rd a V) (rd b V) := by
  unfold rd
  rw [show (TRef.binary (τ := τ) a b y f).result V (Proc.devRef .tc y.ref)
      = y.toBuf (f (a.ofBuf (V (Proc.devRef .tc a.ref))) (b.ofBuf (V (Proc.devRef .tc b.ref)))) from
    binary_result a.ref b.ref y.ref _ a.dev b.dev y.dev V]
  exact ofBuf_toBuf y _

theorem rd_binary_ne (a : TRef sig Ta) (b : TRef sig Tb) (y : TRef sig Ty) (z : TRef sig Tz)
    (f : Ta.Contents Val → Tb.Contents Val → Ty.Contents Val) (V : Valuation τ sig Val) (h : z.ref ≠ y.ref) :
    rd z ((TRef.binary (τ := τ) a b y f).result V) = rd z V := by
  unfold rd
  rw [show (TRef.binary (τ := τ) a b y f).result V (Proc.devRef .tc z.ref) = V (Proc.devRef .tc z.ref) from
    binary_result_ne (a := a.ref) (b := b.ref) (y := y.ref) _ a.dev b.dev y.dev V h]

theorem rd_ternary (c : TRef sig Tc) (a : TRef sig Ta) (b : TRef sig Tb) (y : TRef sig Ty)
    (f : Tc.Contents Val → Ta.Contents Val → Tb.Contents Val → Ty.Contents Val) (V : Valuation τ sig Val) :
    rd y ((TRef.ternary (τ := τ) c a b y f).result V) = f (rd c V) (rd a V) (rd b V) := by
  unfold rd
  rw [show (TRef.ternary (τ := τ) c a b y f).result V (Proc.devRef .tc y.ref)
      = y.toBuf (f (c.ofBuf (V (Proc.devRef .tc c.ref))) (a.ofBuf (V (Proc.devRef .tc a.ref))) (b.ofBuf (V (Proc.devRef .tc b.ref)))) from
    ternary_result c.ref a.ref b.ref y.ref _ c.dev a.dev b.dev y.dev V]
  exact ofBuf_toBuf y _

theorem rd_ternary_ne (c : TRef sig Tc) (a : TRef sig Ta) (b : TRef sig Tb) (y : TRef sig Ty) (z : TRef sig Tz)
    (f : Tc.Contents Val → Ta.Contents Val → Tb.Contents Val → Ty.Contents Val) (V : Valuation τ sig Val) (h : z.ref ≠ y.ref) :
    rd z ((TRef.ternary (τ := τ) c a b y f).result V) = rd z V := by
  unfold rd
  rw [show (TRef.ternary (τ := τ) c a b y f).result V (Proc.devRef .tc z.ref) = V (Proc.devRef .tc z.ref) from
    ternary_result_ne (c := c.ref) (a := a.ref) (b := b.ref) (y := y.ref) _ c.dev a.dev b.dev y.dev V h]

end Cert.LibTypedRead
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.Region0.lean ====
/-
  The first dense layer, read off the pipelined kernel.

  The kernel walks the 100000 rows of its left operand in 25 blocks of 4000 rows; at each block it multiplies the
  4000 x 767 block by the whole 767 x 32 right operand and writes the 4000 x 32 product back as the same rows of the
  result. Entry (p, q) of a block's product is the sum over e of block (p, e) * w (e, q), and row p of block t is row
  t * 4000 + p of the array, so every block is the restriction of ONE function of the two arrays — the matrix product
  `Layers.proj` — and the 25 blocks tile the result. Hence the result array, after the last block is written back,
  is the matrix product of the two arrays as the kernel finds them.
-/
import proofs.«126903_j3564822856024_2_alg».proof.Proof.Gen.KernelIdeal.Frame
import proofs.«126903_j3564822856024_2_alg».proof.Proof.Layers
import proofs.«126903_j3564822856024_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

/-- The all-zero offsets of a whole-block access. -/
theorem hz : (![0, 0] : Fin 2 → Nat) = fun _ => 0 := funext fun a => by fin_cases a <;> rfl

/-- The body's value at an index: row `p` of the left block against column `q` of the right block (the changes of
    float format are the identity on the extended reals, and the product starts from a zero accumulator). -/
theorem pay_apply (x0 : Vec Ideal S4000x767 .f32) (x1 : Vec Ideal S767x32 .f32) (p : Fin 4000) (q : Fin 32) :
    k0_pay1 x0 x1 (ix2 p q) = ∑ e : Fin 767, x0 (ix2 p e) * x1 (ix2 e q) := by
  unfold k0_pay1
  have hd : dot_S4000x767_S767x32_S4000x32_1_0_0_1_n_n = Cert.LibMatmulNN.dims dot_S4000x767_S767x32_S4000x32_1_0_0_1_n_n_wf := rfl
  rw [hd, shapeCast_self]
  exact Cert.LibMatmulNN.matmul_zero_apply dot_S4000x767_S767x32_S4000x32_1_0_0_1_n_n_wf none _ _ p q

/-- The printed index maps over the grid: the left operand's and the result's blocks move down the rows with the
    point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` as a row of the array. -/
def row (t : Fin cfg0.N) (p : Fin 4000) : Fin 100000 :=
  ⟨t.val * 4000 + p.val, by have ht : t.val < 25 := N_0 ▸ t.isLt; have := p.isLt; omega⟩

variable (V : (c : Dev nD) → (b : Ref sig .tc) → Buf (Elt Ideal) ((c : Thread nD τ).loc b))

/-- The left operand's block at a point, read at an index: rows `t * 4000 …` of the array. -/
theorem left_apply (c : Dev nD) (t : Fin cfg0.N) (p : Fin 4000) (e : Fin 767) :
    iblk0 V c 0 t (ix2 p e) = V c main_arg0 (ix2 (row t p) e) := by
  obtain ⟨e0, e1, -, -, -, -⟩ := idx_facts t
  show V c main_arg0 (((cfg0.win 0).blk t).view.emb (ix2 p e)) = V c main_arg0 (ix2 (row t p) e)
  refine congrArg (V c main_arg0) (funext fun a => Fin.ext ?_)
  match a with
  | ⟨0, _⟩ => show win0_0.index t (0 : Fin 2) * 4000 + 1 * p.val = t.val * 4000 + p.val; omega
  | ⟨1, _⟩ => show win0_0.index t (1 : Fin 2) * 767 + 1 * e.val = e.val; omega

/-- The right operand's block at a point is the whole array. -/
theorem right_apply (c : Dev nD) (t : Fin cfg0.N) (e : Fin 767) (q : Fin 32) :
    iblk0 V c 1 t (ix2 e q) = V c main_v28 (ix2 e q) := by
  obtain ⟨-, -, e2, e3, -, -⟩ := idx_facts t
  show V c main_v28 (((cfg0.win 1).blk t).view.emb (ix2 e q)) = V c main_v28 (ix2 e q)
  refine congrArg (V c main_v28) (funext fun a => Fin.ext ?_)
  match a with
  | ⟨0, _⟩ => show win0_1.index t (0 : Fin 2) * 767 + 1 * e.val = e.val; omega
  | ⟨1, _⟩ => show win0_1.index t (1 : Fin 2) * 32 + 1 * q.val = q.val; omega

/-- The result's block at a point, as indices of the array. -/
theorem out_emb (t : Fin cfg0.N) (p : Fin 4000) (q : Fin 32) :
    ((cfg0.win 2).blk t).view.emb (ix2 p q) = ix2 (row t p) q := by
  obtain ⟨-, -, -, -, e4, e5⟩ := idx_facts t
  refine funext fun a => Fin.ext ?_
  match a with
  | ⟨0, _⟩ => show win0_2.index t (0 : Fin 2) * 4000 + 1 * p.val = t.val * 4000 + p.val; omega
  | ⟨1, _⟩ => show win0_2.index t (1 : Fin 2) * 32 + 1 * q.val = q.val; omega

/-- What point `t` writes back is block `t` of the matrix product of the two arrays. -/
theorem flushed_eq (c : Dev nD) (t : Fin cfg0.N) :
    (dat0 V c).flushed 2 t = ((cfg0.win 2).blk t).view.read (Elt Ideal) (Cert.Layers.proj (V c main_arg0) (V c main_v28)) := by
  show (cfg0.win 2).cut (grid0.coords t) ((dat0 V c).after 2 t) = _
  rw [after0_2]
  unfold out0_2
  rw [View.canon_unit_zero hz]
  simp only [View.ld_unit_zero (S := S4000x767) hz, View.ld_unit_zero (S := S767x32) hz]
  funext j
  obtain ⟨p, q, rfl⟩ : ∃ (p : Fin 4000) (q : Fin 32), j = ix2 p q := ⟨j 0, j 1, eq_ix2 j⟩
  show k0_pay1 (iblk0 V c 0 t) (iblk0 V c 1 t) (ix2 p q)
    = Cert.Layers.proj (V c main_arg0) (V c main_v28) (((cfg0.win 2).blk t).view.emb (ix2 p q))
  rw [out_emb t p q, Cert.Layers.proj_apply]
  refine (pay_apply (iblk0 V c 0 t) (iblk0 V c 1 t) p q).trans (Finset.sum_congr rfl fun e _ => ?_)
  rw [left_apply V c t p e, right_apply V c t e q]

/-- An index of the result array is in point `t`'s block iff each coordinate is in the block's range. -/
theorem mem_blk (t : Fin cfg0.N) (i : S100000x32.Idx) :
    i ∈ ((cfg0.win 2).blk t).view.set ↔ ∀ a : Fin 2, win0_2.index t a * S4000x32.size a ≤ (i a).val
      ∧ (i a).val < win0_2.index t a * S4000x32.size a + S4000x32.size a := by
  show i ∈ ((View.whole main_v29).slice (win0_2.rect t)).set ↔ _
  rw [View.set_slice_whole, Rect.mem_set_unit]
  exact Iff.rfl

/-- The 25 blocks tile the result: row `r` is in block `r / 4000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 25 := N_0
  let t : Fin cfg0.N := ⟨(i 0).val / 4000, by rw [hN]; omega⟩
  obtain ⟨-, -, -, -, e4, e5⟩ := idx_facts t
  have ht : t.val = (i 0).val / 4000 := rfl
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 32 ≤ (i 1).val ∧ (i 1).val < win0_2.index t (1 : Fin 2) * 32 + 32; omega

/-- The result array after the last point: the matrix product of the two operand arrays as the kernel finds them. -/
theorem array_eq (c : Dev nD) :
    (dat0 V c).arrAt 2 cfg0.N = Cert.Layers.proj (V c main_arg0) (V c main_v28) :=
  (dat0 V c).arrAt_eq_of_cover 2 _ (fun t _ => flushed_eq V c t) cover

end Cert.KernelIdeal.Region0

end
-- ==== Proof.Region1.lean ====
/-
  The second dense layer, read off the pipelined kernel.

  The kernel walks the 100000 rows of the aggregated messages and of the root term in 10 blocks of 10000 rows. At each
  block it adds the two 10000 x 16 blocks entry by entry, adds the 1 x 16 bias row to every row, cuts the sum off below
  at zero, multiplies the 10000 x 16 activation by the whole 16 x 32 weight array, and writes the 10000 x 32 product back
  as the same rows of the result. The activation at entry (p, e) of a block depends only on row p of the two row
  blocks and on column e of the bias, and row p of block t is row t * 10000 + p of the arrays; the bias and the weights
  are the same at every block. So entry (p, q) of a block's product is the sum over e of activation (t * 10000 + p, e)
  times weight (e, q): every block is the restriction of ONE function of the four arrays — Layers.reluProj — to its
  rows. Row r of the result lies in block r / 10000 and in no other, so the 10 blocks tile the result. Hence the
  result array, after the last block is written back, is that one function of the four arrays as the kernel finds
  them.
-/
import proofs.«126903_j3564822856024_2_alg».proof.Proof.Gen.KernelIdeal.Frame
import proofs.«126903_j3564822856024_2_alg».proof.Proof.Layers
import proofs.«126903_j3564822856024_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

/-- The all-zero offsets of a whole-block access. -/
theorem hz : (![0, 0] : Fin 2 → Nat) = fun _ => 0 := funext fun a => by fin_cases a <;> rfl

/-- One row repeated down 10000 rows, read at an index: the row's entry in that column, whatever the row asked for. -/
theorem row_apply (v : Vec Ideal S1x16 .f32) (h : S1x16.Broadcasts S10000x16) (p : Fin 10000) (e : Fin 16) :
    broadcastTo S10000x16 v h (ix2 p e) = v (ix2 (0 : Fin 1) e) := by
  refine broadcastTo_apply v h (ix2 p e) (ix2 (0 : Fin 1) e) fun a => ?_
  match a with
  | ⟨0, _⟩ => rfl
  | ⟨1, _⟩ => rfl

/-- The body's value at an index: row p of the activation — the two row blocks added, the bias row added to every
    row, the sum cut off below at zero — against column q of the weight block (the changes of float format are the
    identity on the extended reals, and the product starts from a zero accumulator). -/
theorem pay_apply (x0 x1 : Vec Ideal S10000x16 .f32) (x2 : Vec Ideal S1x16 .f32) (x3 : Vec Ideal S16x32 .f32)
    (p : Fin 10000) (q : Fin 32) :
    k1_pay1 x0 x1 x2 x3 (ix2 p q) = ∑ e : Fin 16, Cert.Layers.act x0 x1 x2 p e * x3 (ix2 e q) := by
  unfold k1_pay1
  have hd : dot_S10000x16_S16x32_S10000x32_1_0_0_1_n_n = Cert.LibMatmulNN.dims dot_S10000x16_S16x32_S10000x32_1_0_0_1_n_n_wf := rfl
  rw [hd]
  simp only [shapeCast_self]
  refine (Cert.LibMatmulNN.matmul_zero_apply dot_S10000x16_S16x32_S10000x32_1_0_0_1_n_n_wf none _ _ p q).trans
    (Finset.sum_congr rfl fun e _ => ?_)
  show max (x0 (ix2 p e) + x1 (ix2 p e) + broadcastTo S10000x16 x2 _ (ix2 p e)) (Ideal.ofBits .f32 0x00000000#32)
    * x3 (ix2 e q) = _
  rw [row_apply x2 _ p e]
  rfl

/-- The printed index maps over the grid: the two row operands' and the result's blocks move down the rows with the
    point; the bias's and the weights' blocks stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t as a row of the array. -/
def row (t : Fin cfg1.N) (p : Fin 10000) : Fin 100000 :=
  ⟨t.val * 10000 + p.val, by have ht : t.val < 10 := N_1 ▸ t.isLt; have := p.isLt; omega⟩

variable (V : (c : Dev nD) → (b : Ref sig .tc) → Buf (Elt Ideal) ((c : Thread nD τ).loc b))

/-- The aggregated messages' block at a point, read at an index: rows t * 10000 … of the array. -/
theorem msg_apply (c : Dev nD) (t : Fin cfg1.N) (p : Fin 10000) (e : Fin 16) :
    iblk1 V c 0 t (ix2 p e) = V c main_v44 (ix2 (row t p) e) := by
  obtain ⟨e0, e1, -, -, -, -, -, -, -, -⟩ := idx_facts t
  show V c main_v44 (((cfg1.win 0).blk t).view.emb (ix2 p e)) = V c main_v44 (ix2 (row t p) e)
  refine congrArg (V c main_v44) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * e.val = e.val; omega

/-- The root term's block at a point, read at an index: the same rows of its array. -/
theorem root_apply (c : Dev nD) (t : Fin cfg1.N) (p : Fin 10000) (e : Fin 16) :
    iblk1 V c 1 t (ix2 p e) = V c main_v31 (ix2 (row t p) e) := by
  obtain ⟨-, -, e2, e3, -, -, -, -, -, -⟩ := idx_facts t
  show V c main_v31 (((cfg1.win 1).blk t).view.emb (ix2 p e)) = V c main_v31 (ix2 (row t p) e)
  refine congrArg (V c main_v31) (funext fun a => Fin.ext ?_)
  match a with
  | ⟨0, _⟩ => show win1_1.index t (0 : Fin 2) * 10000 + 1 * p.val = t.val * 10000 + p.val; omega
  | ⟨1, _⟩ => show win1_1.index t (1 : Fin 2) * 16 + 1 * e.val = e.val; omega

/-- The bias's block at a point is the whole one-row array. -/
theorem bias_apply (c : Dev nD) (t : Fin cfg1.N) (z : Fin 1) (e : Fin 16) :
    iblk1 V c 2 t (ix2 z e) = V c main_v45 (ix2 z e) := by
  obtain ⟨-, -, -, -, e4, e5, -, -, -, -⟩ := idx_facts t
  show V c main_v45 (((cfg1.win 2).blk t).view.emb (ix2 z e)) = V c main_v45 (ix2 z e)
  refine congrArg (V c main_v45) (funext fun a => Fin.ext ?_)
  match a with
  | ⟨0, _⟩ => show win1_2.index t (0 : Fin 2) * 1 + 1 * z.val = z.val; omega
  | ⟨1, _⟩ => show win1_2.index t (1 : Fin 2) * 16 + 1 * e.val = e.val; omega

/-- The weights' block at a point is the whole array. -/
theorem weight_apply (c : Dev nD) (t : Fin cfg1.N) (e : Fin 16) (q : Fin 32) :
    iblk1 V c 3 t (ix2 e q) = V c main_v46 (ix2 e q) := by
  obtain ⟨-, -, -, -, -, -, e6, e7, -, -⟩ := idx_facts t
  show V c main_v46 (((cfg1.win 3).blk t).view.emb (ix2 e q)) = V c main_v46 (ix2 e q)
  refine congrArg (V c main_v46) (funext fun a => Fin.ext ?_)
  match a with
  | ⟨0, _⟩ => show win1_3.index t (0 : Fin 2) * 16 + 1 * e.val = e.val; omega
  | ⟨1, _⟩ => show win1_3.index t (1 : Fin 2) * 32 + 1 * q.val = q.val; omega

/-- The result's block at a point, as indices of the array. -/
theorem out_emb (t : Fin cfg1.N) (p : Fin 10000) (q : Fin 32) :
    ((cfg1.win 4).blk t).view.emb (ix2 p q) = ix2 (row t p) q := by
  obtain ⟨-, -, -, -, -, -, -, -, e8, e9⟩ := idx_facts t
  refine funext fun a => Fin.ext ?_
  match a with
  | ⟨0, _⟩ => show win1_4.index t (0 : Fin 2) * 10000 + 1 * p.val = t.val * 10000 + p.val; omega
  | ⟨1, _⟩ => show win1_4.index t (1 : Fin 2) * 32 + 1 * q.val = q.val; omega

/-- What point t writes back is block t of the activation's product with the weights, all four arrays as the
    kernel finds them. -/
theorem flushed_eq (c : Dev nD) (t : Fin cfg1.N) :
    (dat1 V c).flushed 4 t = ((cfg1.win 4).blk t).view.read (Elt Ideal)
      (Cert.Layers.reluProj (V c main_v44) (V c main_v31) (V c main_v45) (V c main_v46)) := by
  show (cfg1.win 4).cut (grid1.coords t) ((dat1 V c).after 4 t) = _
  rw [after1_4]
  unfold out1_4
  rw [View.canon_unit_zero hz]
  simp only [View.ld_unit_zero (S := S10000x16) hz, View.ld_unit_zero (S := S1x16) hz, View.ld_unit_zero (S := S16x32) hz]
  funext j
  obtain ⟨p, q, rfl⟩ : ∃ (p : Fin 10000) (q : Fin 32), j = ix2 p q := ⟨j 0, j 1, eq_ix2 j⟩
  show k1_pay1 (iblk1 V c 0 t) (iblk1 V c 1 t) (iblk1 V c 2 t) (iblk1 V c 3 t) (ix2 p q)
    = Cert.Layers.reluProj (V c main_v44) (V c main_v31) (V c main_v45) (V c main_v46) (((cfg1.win 4).blk t).view.emb (ix2 p q))
  rw [out_emb t p q, Cert.Layers.reluProj_apply]
  refine (pay_apply (iblk1 V c 0 t) (iblk1 V c 1 t) (iblk1 V c 2 t) (iblk1 V c 3 t) p q).trans (Finset.sum_congr rfl fun e _ => ?_)
  unfold Cert.Layers.act
  rw [msg_apply V c t p e, root_apply V c t p e, bias_apply V c t (0 : Fin 1) e, weight_apply V c t e q]

/-- An index of the result array is in point t's block iff each coordinate is in the block's range. -/
theorem mem_blk (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v47).slice (win1_4.rect t)).set ↔ _
  rw [View.set_slice_whole, Rect.mem_set_unit]
  exact Iff.rfl

/-- The 10 blocks tile the result: row r is in block r / 10000. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, -, -, -, -, e8, e9⟩ := idx_facts t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

/-- The result array after the last point: the activation of the messages, the root term and the bias, multiplied by
    the weights — all four arrays as the kernel finds them. -/
theorem array_eq (c : Dev nD) :
    (dat1 V c).arrAt 4 cfg1.N = Cert.Layers.reluProj (V c main_v44) (V c main_v31) (V c main_v45) (V c main_v46) :=
  (dat1 V c).arrAt_eq_of_cover 4 _ (fun t _ => flushed_eq V c t) cover

end Cert.KernelIdeal.Region1

end
-- ==== Proof.Region2.lean ====
/-
  The third dense layer, read off the pipelined kernel.

  The kernel walks the 100000 rows of the aggregated messages and of the root term in 10 blocks of 10000 rows. At each
  block it adds the two 10000 x 16 blocks entry by entry, adds the 1 x 16 bias row to every row, cuts the sum off below
  at zero, multiplies the 10000 x 16 activation by the whole 16 x 20 weight array, and writes the 10000 x 20 product back
  as the same rows of the result. The activation at entry (p, e) of a block depends only on row p of the two row
  blocks and on column e of the bias, and row p of block t is row t * 10000 + p of the arrays; the bias and the weights
  are the same at every block. So entry (p, q) of a block's product is the sum over e of activation (t * 10000 + p, e)
  times weight (e, q): every block is the restriction of ONE function of the four arrays — Layers.reluProj — to its
  rows. Row r of the result lies in block r / 10000 and in no other, so the 10 blocks tile the result. Hence the
  result array, after the last block is written back, is that one function of the four arrays as the kernel finds
  them.
-/
import proofs.«126903_j3564822856024_2_alg».proof.Proof.Gen.KernelIdeal.Frame
import proofs.«126903_j3564822856024_2_alg».proof.Proof.Layers
import proofs.«126903_j3564822856024_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

/-- The all-zero offsets of a whole-block access. -/
theorem hz : (![0, 0] : Fin 2 → Nat) = fun _ => 0 := funext fun a => by fin_cases a <;> rfl

/-- One row repeated down 10000 rows, read at an index: the row's entry in that column, whatever the row asked for. -/
theorem row_apply (v : Vec Ideal S1x16 .f32) (h : S1x16.Broadcasts S10000x16) (p : Fin 10000) (e : Fin 16) :
    broadcastTo S10000x16 v h (ix2 p e) = v (ix2 (0 : Fin 1) e) := by
  refine broadcastTo_apply v h (ix2 p e) (ix2 (0 : Fin 1) e) fun a => ?_
  match a with
  | ⟨0, _⟩ => rfl
  | ⟨1, _⟩ => rfl

/-- The body's value at an index: row p of the activation — the two row blocks added, the bias row added to every
    row, the sum cut off below at zero — against column q of the weight block (the changes of float format are the
    identity on the extended reals, and the product starts from a zero accumulator). -/
theorem pay_apply (x0 x1 : Vec Ideal S10000x16 .f32) (x2 : Vec Ideal S1x16 .f32) (x3 : Vec Ideal S16x20 .f32)
    (p : Fin 10000) (q : Fin 20) :
    k2_pay1 x0 x1 x2 x3 (ix2 p q) = ∑ e : Fin 16, Cert.Layers.act x0 x1 x2 p e * x3 (ix2 e q) := by
  unfold k2_pay1
  have hd : dot_S10000x16_S16x20_S10000x20_1_0_0_1_n_n = Cert.LibMatmulNN.dims dot_S10000x16_S16x20_S10000x20_1_0_0_1_n_n_wf := rfl
  rw [hd]
  simp only [shapeCast_self]
  refine (Cert.LibMatmulNN.matmul_zero_apply dot_S10000x16_S16x20_S10000x20_1_0_0_1_n_n_wf none _ _ p q).trans
    (Finset.sum_congr rfl fun e _ => ?_)
  show max (x0 (ix2 p e) + x1 (ix2 p e) + broadcastTo S10000x16 x2 _ (ix2 p e)) (Ideal.ofBits .f32 0x00000000#32)
    * x3 (ix2 e q) = _
  rw [row_apply x2 _ p e]
  rfl

/-- The printed index maps over the grid: the two row operands' and the result's blocks move down the rows with the
    point; the bias's and the weights' blocks stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t as a row of the array. -/
def row (t : Fin cfg2.N) (p : Fin 10000) : Fin 100000 :=
  ⟨t.val * 10000 + p.val, by have ht : t.val < 10 := N_2 ▸ t.isLt; have := p.isLt; omega⟩

variable (V : (c : Dev nD) → (b : Ref sig .tc) → Buf (Elt Ideal) ((c : Thread nD τ).loc b))

/-- The aggregated messages' block at a point, read at an index: rows t * 10000 … of the array. -/
theorem msg_apply (c : Dev nD) (t : Fin cfg2.N) (p : Fin 10000) (e : Fin 16) :
    iblk2 V c 0 t (ix2 p e) = V c main_v62 (ix2 (row t p) e) := by
  obtain ⟨e0, e1, -, -, -, -, -, -, -, -⟩ := idx_facts t
  show V c main_v62 (((cfg2.win 0).blk t).view.emb (ix2 p e)) = V c main_v62 (ix2 (row t p) e)
  refine congrArg (V c main_v62) (funext fun a => Fin.ext ?_)
  match a with
  | ⟨0, _⟩ => show win2_0.index t (0 : Fin 2) * 10000 + 1 * p.val = t.val * 10000 + p.val; omega
  | ⟨1, _⟩ => show win2_0.index t (1 : Fin 2) * 16 + 1 * e.val = e.val; omega

/-- The root term's block at a point, read at an index: the same rows of its array. -/
theorem root_apply (c : Dev nD) (t : Fin cfg2.N) (p : Fin 10000) (e : Fin 16) :
    iblk2 V c 1 t (ix2 p e) = V c main_v49 (ix2 (row t p) e) := by
  obtain ⟨-, -, e2, e3, -, -, -, -, -, -⟩ := idx_facts t
  show V c main_v49 (((cfg2.win 1).blk t).view.emb (ix2 p e)) = V c main_v49 (ix2 (row t p) e)
  refine congrArg (V c main_v49) (funext fun a => Fin.ext ?_)
  match a with
  | ⟨0, _⟩ => show win2_1.index t (0 : Fin 2) * 10000 + 1 * p.val = t.val * 10000 + p.val; omega
  | ⟨1, _⟩ => show win2_1.index t (1 : Fin 2) * 16 + 1 * e.val = e.val; omega

/-- The bias's block at a point is the whole one-row array. -/
theorem bias_apply (c : Dev nD) (t : Fin cfg2.N) (z : Fin 1) (e : Fin 16) :
    iblk2 V c 2 t (ix2 z e) = V c main_v63 (ix2 z e) := by
  obtain ⟨-, -, -, -, e4, e5, -, -, -, -⟩ := idx_facts t
  show V c main_v63 (((cfg2.win 2).blk t).view.emb (ix2 z e)) = V c main_v63 (ix2 z e)
  refine congrArg (V c main_v63) (funext fun a => Fin.ext ?_)
  match a with
  | ⟨0, _⟩ => show win2_2.index t (0 : Fin 2) * 1 + 1 * z.val = z.val; omega
  | ⟨1, _⟩ => show win2_2.index t (1 : Fin 2) * 16 + 1 * e.val = e.val; omega

/-- The weights' block at a point is the whole array. -/
theorem weight_apply (c : Dev nD) (t : Fin cfg2.N) (e : Fin 16) (q : Fin 20) :
    iblk2 V c 3 t (ix2 e q) = V c main_v64 (ix2 e q) := by
  obtain ⟨-, -, -, -, -, -, e6, e7, -, -⟩ := idx_facts t
  show V c main_v64 (((cfg2.win 3).blk t).view.emb (ix2 e q)) = V c main_v64 (ix2 e q)
  refine congrArg (V c main_v64) (funext fun a => Fin.ext ?_)
  match a with
  | ⟨0, _⟩ => show win2_3.index t (0 : Fin 2) * 16 + 1 * e.val = e.val; omega
  | ⟨1, _⟩ => show win2_3.index t (1 : Fin 2) * 20 + 1 * q.val = q.val; omega

/-- The result's block at a point, as indices of the array. -/
theorem out_emb (t : Fin cfg2.N) (p : Fin 10000) (q : Fin 20) :
    ((cfg2.win 4).blk t).view.emb (ix2 p q) = ix2 (row t p) q := by
  obtain ⟨-, -, -, -, -, -, -, -, e8, e9⟩ := idx_facts t
  refine funext fun a => Fin.ext ?_
  match a with
  | ⟨0, _⟩ => show win2_4.index t (0 : Fin 2) * 10000 + 1 * p.val = t.val * 10000 + p.val; omega
  | ⟨1, _⟩ => show win2_4.index t (1 : Fin 2) * 20 + 1 * q.val = q.val; omega

/-- What point t writes back is block t of the activation's product with the weights, all four arrays as the
    kernel finds them. -/
theorem flushed_eq (c : Dev nD) (t : Fin cfg2.N) :
    (dat2 V c).flushed 4 t = ((cfg2.win 4).blk t).view.read (Elt Ideal)
      (Cert.Layers.reluProj (V c main_v62) (V c main_v49) (V c main_v63) (V c main_v64)) := by
  show (cfg2.win 4).cut (grid2.coords t) ((dat2 V c).after 4 t) = _
  rw [after2_4]
  unfold out2_4
  rw [View.canon_unit_zero hz]
  simp only [View.ld_unit_zero (S := S10000x16) hz, View.ld_unit_zero (S := S1x16) hz, View.ld_unit_zero (S := S16x20) hz]
  funext j
  obtain ⟨p, q, rfl⟩ : ∃ (p : Fin 10000) (q : Fin 20), j = ix2 p q := ⟨j 0, j 1, eq_ix2 j⟩
  show k2_pay1 (iblk2 V c 0 t) (iblk2 V c 1 t) (iblk2 V c 2 t) (iblk2 V c 3 t) (ix2 p q)
    = Cert.Layers.reluProj (V c main_v62) (V c main_v49) (V c main_v63) (V c main_v64) (((cfg2.win 4).blk t).view.emb (ix2 p q))
  rw [out_emb t p q, Cert.Layers.reluProj_apply]
  refine (pay_apply (iblk2 V c 0 t) (iblk2 V c 1 t) (iblk2 V c 2 t) (iblk2 V c 3 t) p q).trans (Finset.sum_congr rfl fun e _ => ?_)
  unfold Cert.Layers.act
  rw [msg_apply V c t p e, root_apply V c t p e, bias_apply V c t (0 : Fin 1) e, weight_apply V c t e q]

/-- An index of the result array is in point t's block iff each coordinate is in the block's range. -/
theorem mem_blk (t : Fin cfg2.N) (i : S100000x20.Idx) :
    i ∈ ((cfg2.win 4).blk t).view.set ↔ ∀ a : Fin 2, win2_4.index t a * S10000x20.size a ≤ (i a).val
      ∧ (i a).val < win2_4.index t a * S10000x20.size a + S10000x20.size a := by
  show i ∈ ((View.whole main_v65).slice (win2_4.rect t)).set ↔ _
  rw [View.set_slice_whole, Rect.mem_set_unit]
  exact Iff.rfl

/-- The 10 blocks tile the result: row r is in block r / 10000. -/
theorem cover (i : S100000x20.Idx) :
    ∃ t : Fin cfg2.N, (cfg2.win 4).flush t = true ∧ i ∈ ((cfg2.win 4).blk t).view.set := by
  have hi0 : (i 0).val < 100000 := (i 0).isLt
  have hi1 : (i 1).val < 20 := (i 1).isLt
  have hN : cfg2.N = 10 := N_2
  let t : Fin cfg2.N := ⟨(i 0).val / 10000, by rw [hN]; omega⟩
  obtain ⟨-, -, -, -, -, -, -, -, e8, e9⟩ := idx_facts t
  have ht : t.val = (i 0).val / 10000 := rfl
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 20 ≤ (i 1).val ∧ (i 1).val < win2_4.index t (1 : Fin 2) * 20 + 20; omega

/-- The result array after the last point: the activation of the messages, the root term and the bias, multiplied by
    the weights — all four arrays as the kernel finds them. -/
theorem array_eq (c : Dev nD) :
    (dat2 V c).arrAt 4 cfg2.N = Cert.Layers.reluProj (V c main_v62) (V c main_v49) (V c main_v63) (V c main_v64) :=
  (dat2 V c).arrAt_eq_of_cover 4 _ (fun t _ => flushed_eq V c t) cover

end Cert.KernelIdeal.Region2

end
-- ==== Proof.KFold.lean ====
/-
  The kernel's fold, computed.

  The buffers at the return are a fold over the launch memory: three stretches of host operations up to the first
  kernel, the first kernel, a stretch, the second kernel, a stretch, the third kernel, and three stretches to the
  return. Each stretch is read once, at an arbitrary starting contents `W`, as the named graph functions of
  `Cert.Chain` applied to the buffers it reads, and it leaves the buffers it does not write as they were; each
  kernel replaces its result array by the fused product of its operand arrays (`Region0`, `Region1`, `Region2`) and
  leaves every other buffer. Composing the eleven steps from the launch memory, the result buffer holds
  `Chain.kerOut` of the argument arrays.
-/
import proofs.«126903_j3564822856024_2_alg».proof.Proof.Gen.KernelIdeal.Frame
import proofs.«126903_j3564822856024_2_alg».proof.Proof.Gen.ReferenceIdeal
import proofs.«126903_j3564822856024_2_alg».proof.Proof.HostChain
import proofs.«126903_j3564822856024_2_alg».proof.Proof.LibTypedRead
import proofs.«126903_j3564822856024_2_alg».proof.Proof.Region0
import proofs.«126903_j3564822856024_2_alg».proof.Proof.Region1
import proofs.«126903_j3564822856024_2_alg».proof.Proof.Region2
import Idealize.ShloMosaic.Lib.StableHlo.Run

set_option maxRecDepth 16384
set_option maxHeartbeats 8000000

noncomputable section

namespace Cert.KernelIdeal.KFold

open Cert.KernelIdeal Cert.KernelIdeal.Gen Cert.Chain Cert.LibTypedRead
open Idealize.ShloMosaic Idealize.ShloMosaic.TcCoe Idealize.ShloMosaic.StableHlo Idealize.SL.Sem

/-! ## The stretches of host operations, each from an arbitrary contents `W` -/

section Stretches

/-! ### Typed references read at their buffers (one evaluation of a buffer's type each) -/
theorem rd_v9 (V : Valuation τ sig (Elt Ideal)) : rd (TRef.of (sig := sig) (T := ⟨S100000, .i1⟩) main_v9) V = V (Proc.devRef .tc main_v9) := rfl
theorem rd_v11 (V : Valuation τ sig (Elt Ideal)) : rd (TRef.of (sig := sig) (T := ⟨S100000, .f32⟩) main_v11) V = V (Proc.devRef .tc main_v11) := rfl
theorem rd_cst_3 (V : Valuation τ sig (Elt Ideal)) : rd (TRef.of (sig := sig) (T := ⟨S_, .f32⟩) main_cst_3) V = V (Proc.devRef .tc main_cst_3) := rfl
theorem rd_v12 (V : Valuation τ sig (Elt Ideal)) : rd (TRef.of (sig := sig) (T := ⟨S100000, .f32⟩) main_v12) V = V (Proc.devRef .tc main_v12) := rfl
theorem rd_v84 (V : Valuation τ sig (Elt Ideal)) : rd (TRef.of (sig := sig) (T := ⟨S100000x10, .f32⟩) main_v84) V = V (Proc.devRef .tc main_v84) := rfl
theorem rd_v85 (V : Valuation τ sig (Elt Ideal)) : rd (TRef.of (sig := sig) (T := ⟨S100000x10, .f32⟩) main_v85) V = V (Proc.devRef .tc main_v85) := rfl
theorem rd_v86 (V : Valuation τ sig (Elt Ideal)) : rd (TRef.of (sig := sig) (T := ⟨S100000x10, .f32⟩) main_v86) V = V (Proc.devRef .tc main_v86) := rfl

variable (W : Valuation τ sig (Elt Ideal))

/-! ### Up to the first kernel -/
/-- The first stretch: the source and target vectors of the edges, the comparison and the power of the degrees that the inverse square root is selected from, and the zero it is selected against. -/
theorem p0_row : after hostOps0 W (Proc.devRef .tc main_v1) = rowVec (W (Proc.devRef .tc main_arg1)) := by
  dsimp only [hostOps0]; after_results_simp; rfl
theorem p0_col : after hostOps0 W (Proc.devRef .tc main_v3) = colVec (W (Proc.devRef .tc main_arg1)) := by
  dsimp only [hostOps0]; after_results_simp; rfl
theorem p0_cmp : after hostOps0 W (Proc.devRef .tc main_v9) = degPos (F := Ideal) (colVec (W (Proc.devRef .tc main_arg1))) := by
  dsimp only [hostOps0]; after_results_simp; rfl
theorem p0_pow : after hostOps0 W (Proc.devRef .tc main_v11) = degPow (F := Ideal) (colVec (W (Proc.devRef .tc main_arg1))) := by
  dsimp only [hostOps0]; after_results_simp; rfl
theorem p0_zero : after hostOps0 W (Proc.devRef .tc main_cst_3) = zeroS (F := Ideal) := by
  dsimp only [hostOps0]; after_results_simp; rfl
/-- It reads the edge list only and writes no argument. -/
theorem p0_keep :
    after hostOps0 W (Proc.devRef .tc main_arg0) = W (Proc.devRef .tc main_arg0)
    ∧ after hostOps0 W (Proc.devRef .tc main_arg2) = W (Proc.devRef .tc main_arg2)
    ∧ after hostOps0 W (Proc.devRef .tc main_arg3) = W (Proc.devRef .tc main_arg3)
    ∧ after hostOps0 W (Proc.devRef .tc main_arg4) = W (Proc.devRef .tc main_arg4)
    ∧ after hostOps0 W (Proc.devRef .tc main_arg5) = W (Proc.devRef .tc main_arg5)
    ∧ after hostOps0 W (Proc.devRef .tc main_arg6) = W (Proc.devRef .tc main_arg6)
    ∧ after hostOps0 W (Proc.devRef .tc main_arg7) = W (Proc.devRef .tc main_arg7)
    ∧ after hostOps0 W (Proc.devRef .tc main_arg8) = W (Proc.devRef .tc main_arg8)
    ∧ after hostOps0 W (Proc.devRef .tc main_arg9) = W (Proc.devRef .tc main_arg9)
    ∧ after hostOps0 W (Proc.devRef .tc main_arg10) = W (Proc.devRef .tc main_arg10) := by
  refine ⟨?_, ?_, ?_, ?_, ?_, ?_, ?_, ?_, ?_, ?_⟩ <;> (dsimp only [hostOps0] <;> after_results_simp)
theorem p1_dinv_rd : rd (TRef.of (sig := sig) (T := ⟨S100000, .f32⟩) main_v12) (after hostOps0_1 W) = dinvOf (rd (TRef.of (sig := sig) (T := ⟨S100000, .i1⟩) main_v9) W) (rd (TRef.of (sig := sig) (T := ⟨S100000, .f32⟩) main_v11) W) (rd (TRef.of (sig := sig) (T := ⟨S_, .f32⟩) main_cst_3) W) := by
  dsimp only [hostOps0_1]
  simp (disch := decide) only [after_cons, after_nil, rd_nullary, rd_unary, rd_binary, rd_ternary, rd_nullary_ne, rd_unary_ne, rd_binary_ne, rd_ternary_ne]
  rfl
/-- The selection itself (a called function: read through typed references). -/
theorem p1_dinv : after hostOps0_1 W (Proc.devRef .tc main_v12) = dinvOf (W (Proc.devRef .tc main_v9)) (W (Proc.devRef .tc main_v11)) (W (Proc.devRef .tc main_cst_3)) :=
  (rd_v12 (after hostOps0_1 W)).symm.trans ((p1_dinv_rd W).trans (by rw [rd_v9 W, rd_v11 W, rd_cst_3 W]))
theorem p1_keep :
    after hostOps0_1 W (Proc.devRef .tc main_v1) = W (Proc.devRef .tc main_v1)
    ∧ after hostOps0_1 W (Proc.devRef .tc main_v3) = W (Proc.devRef .tc main_v3)
    ∧ after hostOps0_1 W (Proc.devRef .tc main_arg0) = W (Proc.devRef .tc main_arg0)
    ∧ after hostOps0_1 W (Proc.devRef .tc main_arg2) = W (Proc.devRef .tc main_arg2)
    ∧ after hostOps0_1 W (Proc.devRef .tc main_arg3) = W (Proc.devRef .tc main_arg3)
    ∧ after hostOps0_1 W (Proc.devRef .tc main_arg4) = W (Proc.devRef .tc main_arg4)
    ∧ after hostOps0_1 W (Proc.devRef .tc main_arg5) = W (Proc.devRef .tc main_arg5)
    ∧ after hostOps0_1 W (Proc.devRef .tc main_arg6) = W (Proc.devRef .tc main_arg6)
    ∧ after hostOps0_1 W (Proc.devRef .tc main_arg7) = W (Proc.devRef .tc main_arg7)
    ∧ after hostOps0_1 W (Proc.devRef .tc main_arg8) = W (Proc.devRef .tc main_arg8)
    ∧ after hostOps0_1 W (Proc.devRef .tc main_arg9) = W (Proc.devRef .tc main_arg9)
    ∧ after hostOps0_1 W (Proc.devRef .tc main_arg10) = W (Proc.devRef .tc main_arg10) := by
  refine ⟨?_, ?_, ?_, ?_, ?_, ?_, ?_, ?_, ?_, ?_, ?_, ?_⟩ <;> (dsimp only [hostOps0_1] <;> after_results_simp)
/-- The edge weights from the selected inverse square roots, and the two first-layer weight arrays side by side. -/
theorem p2_nrm : after hostOps0_2 W (Proc.devRef .tc main_v27) = nrmOf (W (Proc.devRef .tc main_v12)) (W (Proc.devRef .tc main_v1)) (W (Proc.devRef .tc main_v3)) := by
  dsimp only [hostOps0_2]; after_results_simp; rfl
theorem p2_cat : after hostOps0_2 W (Proc.devRef .tc main_v28) = cat767 (W (Proc.devRef .tc main_arg2)) (W (Proc.devRef .tc main_arg3)) := by
  dsimp only [hostOps0_2]; after_results_simp; rfl
theorem p2_keep :
    after hostOps0_2 W (Proc.devRef .tc main_v1) = W (Proc.devRef .tc main_v1)
    ∧ after hostOps0_2 W (Proc.devRef .tc main_v3) = W (Proc.devRef .tc main_v3)
    ∧ after hostOps0_2 W (Proc.devRef .tc main_arg0) = W (Proc.devRef .tc main_arg0)
    ∧ after hostOps0_2 W (Proc.devRef .tc main_arg4) = W (Proc.devRef .tc main_arg4)
    ∧ after hostOps0_2 W (Proc.devRef .tc main_arg5) = W (Proc.devRef .tc main_arg5)
    ∧ after hostOps0_2 W (Proc.devRef .tc main_arg6) = W (Proc.devRef .tc main_arg6)
    ∧ after hostOps0_2 W (Proc.devRef .tc main_arg7) = W (Proc.devRef .tc main_arg7)
    ∧ after hostOps0_2 W (Proc.devRef .tc main_arg8) = W (Proc.devRef .tc main_arg8)
    ∧ after hostOps0_2 W (Proc.devRef .tc main_arg9) = W (Proc.devRef .tc main_arg9)
    ∧ after hostOps0_2 W (Proc.devRef .tc main_arg10) = W (Proc.devRef .tc main_arg10) := by
  refine ⟨?_, ?_, ?_, ?_, ?_, ?_, ?_, ?_, ?_, ?_⟩ <;> (dsimp only [hostOps0_2] <;> after_results_simp)
/-! ### Between the kernels -/
/-- Between the first and the second kernel: the left half of the first product sent along the edges, its right half, the first bias as a row, the two second-layer weight arrays side by side. -/
theorem mid1_agg : after hostOps1 W (Proc.devRef .tc main_v44) = aggV16 (W (Proc.devRef .tc main_v1)) (W (Proc.devRef .tc main_v3)) (W (Proc.devRef .tc main_v27)) (left16 (W (Proc.devRef .tc main_v29))) := by
  dsimp only [hostOps1]; after_results_simp; rfl
theorem mid1_root : after hostOps1 W (Proc.devRef .tc main_v31) = right16 (W (Proc.devRef .tc main_v29)) := by
  dsimp only [hostOps1]; after_results_simp; rfl
theorem mid1_bias : after hostOps1 W (Proc.devRef .tc main_v45) = biasRow (W (Proc.devRef .tc main_arg4)) := by
  dsimp only [hostOps1]; after_results_simp; rfl
theorem mid1_cat : after hostOps1 W (Proc.devRef .tc main_v46) = cat32 (W (Proc.devRef .tc main_arg5)) (W (Proc.devRef .tc main_arg6)) := by
  dsimp only [hostOps1]; after_results_simp; rfl
theorem mid1_keep :
    after hostOps1 W (Proc.devRef .tc main_v1) = W (Proc.devRef .tc main_v1)
    ∧ after hostOps1 W (Proc.devRef .tc main_v3) = W (Proc.devRef .tc main_v3)
    ∧ after hostOps1 W (Proc.devRef .tc main_v27) = W (Proc.devRef .tc main_v27)
    ∧ after hostOps1 W (Proc.devRef .tc main_arg7) = W (Proc.devRef .tc main_arg7)
    ∧ after hostOps1 W (Proc.devRef .tc main_arg8) = W (Proc.devRef .tc main_arg8)
    ∧ after hostOps1 W (Proc.devRef .tc main_arg9) = W (Proc.devRef .tc main_arg9)
    ∧ after hostOps1 W (Proc.devRef .tc main_arg10) = W (Proc.devRef .tc main_arg10) := by
  refine ⟨?_, ?_, ?_, ?_, ?_, ?_, ?_⟩ <;> (dsimp only [hostOps1] <;> after_results_simp)
/-- Between the second and the third kernel: the same steps one layer on. -/
theorem mid2_agg : after hostOps2 W (Proc.devRef .tc main_v62) = aggV16 (W (Proc.devRef .tc main_v1)) (W (Proc.devRef .tc main_v3)) (W (Proc.devRef .tc main_v27)) (left16 (W (Proc.devRef .tc main_v47))) := by
  dsimp only [hostOps2]; after_results_simp; rfl
theorem mid2_root : after hostOps2 W (Proc.devRef .tc main_v49) = right16 (W (Proc.devRef .tc main_v47)) := by
  dsimp only [hostOps2]; after_results_simp; rfl
theorem mid2_bias : after hostOps2 W (Proc.devRef .tc main_v63) = biasRow (W (Proc.devRef .tc main_arg7)) := by
  dsimp only [hostOps2]; after_results_simp; rfl
theorem mid2_cat : after hostOps2 W (Proc.devRef .tc main_v64) = cat20 (W (Proc.devRef .tc main_arg8)) (W (Proc.devRef .tc main_arg9)) := by
  dsimp only [hostOps2]; after_results_simp; rfl
theorem mid2_keep :
    after hostOps2 W (Proc.devRef .tc main_v1) = W (Proc.devRef .tc main_v1)
    ∧ after hostOps2 W (Proc.devRef .tc main_v3) = W (Proc.devRef .tc main_v3)
    ∧ after hostOps2 W (Proc.devRef .tc main_v27) = W (Proc.devRef .tc main_v27)
    ∧ after hostOps2 W (Proc.devRef .tc main_arg10) = W (Proc.devRef .tc main_arg10) := by
  refine ⟨?_, ?_, ?_, ?_⟩ <;> (dsimp only [hostOps2] <;> after_results_simp)
/-! ### After the third kernel -/
/-- The left half of the third product sent along the edges, plus its right half, plus the last bias; then the cut-off at zero; then the row-wise log-softmax (two called functions). -/
theorem q0_pre : after hostOps3 W (Proc.devRef .tc main_v84) = pre10 (aggV10 (W (Proc.devRef .tc main_v1)) (W (Proc.devRef .tc main_v3)) (W (Proc.devRef .tc main_v27)) (left10 (W (Proc.devRef .tc main_v65)))) (right10 (W (Proc.devRef .tc main_v65))) (W (Proc.devRef .tc main_arg10)) := by
  dsimp only [hostOps3]; after_results_simp; rfl
theorem q1_relu_rd : rd (TRef.of (sig := sig) (T := ⟨S100000x10, .f32⟩) main_v85) (after hostOps3_1 W) = relu10 (rd (TRef.of (sig := sig) (T := ⟨S100000x10, .f32⟩) main_v84) W) := by
  dsimp only [hostOps3_1]
  simp (disch := decide) only [after_cons, after_nil, rd_nullary, rd_unary, rd_binary, rd_ternary, rd_nullary_ne, rd_unary_ne, rd_binary_ne, rd_ternary_ne]
  rfl
theorem q1_relu : after hostOps3_1 W (Proc.devRef .tc main_v85) = relu10 (W (Proc.devRef .tc main_v84)) :=
  (rd_v85 (after hostOps3_1 W)).symm.trans ((q1_relu_rd W).trans (by rw [rd_v84 W]))
theorem q2_fin_rd : rd (TRef.of (sig := sig) (T := ⟨S100000x10, .f32⟩) main_v86) (after hostOps3_2 W) = finish (rd (TRef.of (sig := sig) (T := ⟨S100000x10, .f32⟩) main_v85) W) := by
  dsimp only [hostOps3_2]
  simp (disch := decide) only [after_cons, after_nil, rd_nullary, rd_unary, rd_binary, rd_ternary, rd_nullary_ne, rd_unary_ne, rd_binary_ne, rd_ternary_ne]
  rfl
theorem q2_fin : after hostOps3_2 W (Proc.devRef .tc main_v86) = finish (W (Proc.devRef .tc main_v85)) :=
  (rd_v86 (after hostOps3_2 W)).symm.trans ((q2_fin_rd W).trans (by rw [rd_v85 W]))

end Stretches

/-! ## The fold from the launch memory, boundary by boundary: `bN_x` is buffer `x` at boundary `N` -/

section Fold

variable (m : (ℓ : Loc nD τ sig) → Buf (Elt Ideal) ℓ) (ρ : Dev nD → PrngReg) (c : Dev nD)

theorem b1_v1 : W1 m ρ c (Proc.devRef .tc main_v1) = rowVec (m ((c : Thread nD τ).loc main_arg1)) := p0_row (W0 m ρ c)
theorem b1_v3 : W1 m ρ c (Proc.devRef .tc main_v3) = colVec (m ((c : Thread nD τ).loc main_arg1)) := p0_col (W0 m ρ c)
theorem b1_v9 : W1 m ρ c (Proc.devRef .tc main_v9) = degPos (F := Ideal) (colVec (m ((c : Thread nD τ).loc main_arg1))) := p0_cmp (W0 m ρ c)
theorem b1_v11 : W1 m ρ c (Proc.devRef .tc main_v11) = degPow (F := Ideal) (colVec (m ((c : Thread nD τ).loc main_arg1))) := p0_pow (W0 m ρ c)
theorem b1_cst_3 : W1 m ρ c (Proc.devRef .tc main_cst_3) = zeroS (F := Ideal) := p0_zero (W0 m ρ c)
theorem b1_arg0 : W1 m ρ c (Proc.devRef .tc main_arg0) = m ((c : Thread nD τ).loc main_arg0) := (p0_keep (W0 m ρ c)).1
theorem b1_arg2 : W1 m ρ c (Proc.devRef .tc main_arg2) = m ((c : Thread nD τ).loc main_arg2) := (p0_keep (W0 m ρ c)).2.1
theorem b1_arg3 : W1 m ρ c (Proc.devRef .tc main_arg3) = m ((c : Thread nD τ).loc main_arg3) := (p0_keep (W0 m ρ c)).2.2.1
theorem b1_arg4 : W1 m ρ c (Proc.devRef .tc main_arg4) = m ((c : Thread nD τ).loc main_arg4) := (p0_keep (W0 m ρ c)).2.2.2.1
theorem b1_arg5 : W1 m ρ c (Proc.devRef .tc main_arg5) = m ((c : Thread nD τ).loc main_arg5) := (p0_keep (W0 m ρ c)).2.2.2.2.1
theorem b1_arg6 : W1 m ρ c (Proc.devRef .tc main_arg6) = m ((c : Thread nD τ).loc main_arg6) := (p0_keep (W0 m ρ c)).2.2.2.2.2.1
theorem b1_arg7 : W1 m ρ c (Proc.devRef .tc main_arg7) = m ((c : Thread nD τ).loc main_arg7) := (p0_keep (W0 m ρ c)).2.2.2.2.2.2.1
theorem b1_arg8 : W1 m ρ c (Proc.devRef .tc main_arg8) = m ((c : Thread nD τ).loc main_arg8) := (p0_keep (W0 m ρ c)).2.2.2.2.2.2.2.1
theorem b1_arg9 : W1 m ρ c (Proc.devRef .tc main_arg9) = m ((c : Thread nD τ).loc main_arg9) := (p0_keep (W0 m ρ c)).2.2.2.2.2.2.2.2.1
theorem b1_arg10 : W1 m ρ c (Proc.devRef .tc main_arg10) = m ((c : Thread nD τ).loc main_arg10) := (p0_keep (W0 m ρ c)).2.2.2.2.2.2.2.2.2
theorem b2_v12 : W2 m ρ c (Proc.devRef .tc main_v12) = dinv (colVec (m ((c : Thread nD τ).loc main_arg1))) :=
  (p1_dinv (W1 m ρ c)).trans (by rw [b1_v9 m ρ c, b1_v11 m ρ c, b1_cst_3 m ρ c]; rfl)
theorem b2_v1 : W2 m ρ c (Proc.devRef .tc main_v1) = rowVec (m ((c : Thread nD τ).loc main_arg1)) := ((p1_keep (W1 m ρ c)).1).trans (b1_v1 m ρ c)
theorem b2_v3 : W2 m ρ c (Proc.devRef .tc main_v3) = colVec (m ((c : Thread nD τ).loc main_arg1)) := ((p1_keep (W1 m ρ c)).2.1).trans (b1_v3 m ρ c)
theorem b2_arg0 : W2 m ρ c (Proc.devRef .tc main_arg0) = m ((c : Thread nD τ).loc main_arg0) := ((p1_keep (W1 m ρ c)).2.2.1).trans (b1_arg0 m ρ c)
theorem b2_arg2 : W2 m ρ c (Proc.devRef .tc main_arg2) = m ((c : Thread nD τ).loc main_arg2) := ((p1_keep (W1 m ρ c)).2.2.2.1).trans (b1_arg2 m ρ c)
theorem b2_arg3 : W2 m ρ c (Proc.devRef .tc main_arg3) = m ((c : Thread nD τ).loc main_arg3) := ((p1_keep (W1 m ρ c)).2.2.2.2.1).trans (b1_arg3 m ρ c)
theorem b2_arg4 : W2 m ρ c (Proc.devRef .tc main_arg4) = m ((c : Thread nD τ).loc main_arg4) := ((p1_keep (W1 m ρ c)).2.2.2.2.2.1).trans (b1_arg4 m ρ c)
theorem b2_arg5 : W2 m ρ c (Proc.devRef .tc main_arg5) = m ((c : Thread nD τ).loc main_arg5) := ((p1_keep (W1 m ρ c)).2.2.2.2.2.2.1).trans (b1_arg5 m ρ c)
theorem b2_arg6 : W2 m ρ c (Proc.devRef .tc main_arg6) = m ((c : Thread nD τ).loc main_arg6) := ((p1_keep (W1 m ρ c)).2.2.2.2.2.2.2.1).trans (b1_arg6 m ρ c)
theorem b2_arg7 : W2 m ρ c (Proc.devRef .tc main_arg7) = m ((c : Thread nD τ).loc main_arg7) := ((p1_keep (W1 m ρ c)).2.2.2.2.2.2.2.2.1).trans (b1_arg7 m ρ c)
theorem b2_arg8 : W2 m ρ c (Proc.devRef .tc main_arg8) = m ((c : Thread nD τ).loc main_arg8) := ((p1_keep (W1 m ρ c)).2.2.2.2.2.2.2.2.2.1).trans (b1_arg8 m ρ c)
theorem b2_arg9 : W2 m ρ c (Proc.devRef .tc main_arg9) = m ((c : Thread nD τ).loc main_arg9) := ((p1_keep (W1 m ρ c)).2.2.2.2.2.2.2.2.2.2.1).trans (b1_arg9 m ρ c)
theorem b2_arg10 : W2 m ρ c (Proc.devRef .tc main_arg10) = m ((c : Thread nD τ).loc main_arg10) := ((p1_keep (W1 m ρ c)).2.2.2.2.2.2.2.2.2.2.2).trans (b1_arg10 m ρ c)
theorem b3_v27 : W3 m ρ c (Proc.devRef .tc main_v27) = nrm (rowVec (m ((c : Thread nD τ).loc main_arg1))) (colVec (m ((c : Thread nD τ).loc main_arg1))) :=
  (p2_nrm (W2 m ρ c)).trans (by rw [b2_v12 m ρ c, b2_v1 m ρ c, b2_v3 m ρ c]; rfl)
theorem b3_v28 : W3 m ρ c (Proc.devRef .tc main_v28) = cat767 (m ((c : Thread nD τ).loc main_arg2)) (m ((c : Thread nD τ).loc main_arg3)) := (p2_cat (W2 m ρ c)).trans (by rw [b2_arg2 m ρ c, b2_arg3 m ρ c])
theorem b3_v1 : W3 m ρ c (Proc.devRef .tc main_v1) = rowVec (m ((c : Thread nD τ).loc main_arg1)) := ((p2_keep (W2 m ρ c)).1).trans (b2_v1 m ρ c)
theorem b3_v3 : W3 m ρ c (Proc.devRef .tc main_v3) = colVec (m ((c : Thread nD τ).loc main_arg1)) := ((p2_keep (W2 m ρ c)).2.1).trans (b2_v3 m ρ c)
theorem b3_arg0 : W3 m ρ c (Proc.devRef .tc main_arg0) = m ((c : Thread nD τ).loc main_arg0) := ((p2_keep (W2 m ρ c)).2.2.1).trans (b2_arg0 m ρ c)
theorem b3_arg4 : W3 m ρ c (Proc.devRef .tc main_arg4) = m ((c : Thread nD τ).loc main_arg4) := ((p2_keep (W2 m ρ c)).2.2.2.1).trans (b2_arg4 m ρ c)
theorem b3_arg5 : W3 m ρ c (Proc.devRef .tc main_arg5) = m ((c : Thread nD τ).loc main_arg5) := ((p2_keep (W2 m ρ c)).2.2.2.2.1).trans (b2_arg5 m ρ c)
theorem b3_arg6 : W3 m ρ c (Proc.devRef .tc main_arg6) = m ((c : Thread nD τ).loc main_arg6) := ((p2_keep (W2 m ρ c)).2.2.2.2.2.1).trans (b2_arg6 m ρ c)
theorem b3_arg7 : W3 m ρ c (Proc.devRef .tc main_arg7) = m ((c : Thread nD τ).loc main_arg7) := ((p2_keep (W2 m ρ c)).2.2.2.2.2.2.1).trans (b2_arg7 m ρ c)
theorem b3_arg8 : W3 m ρ c (Proc.devRef .tc main_arg8) = m ((c : Thread nD τ).loc main_arg8) := ((p2_keep (W2 m ρ c)).2.2.2.2.2.2.2.1).trans (b2_arg8 m ρ c)
theorem b3_arg9 : W3 m ρ c (Proc.devRef .tc main_arg9) = m ((c : Thread nD τ).loc main_arg9) := ((p2_keep (W2 m ρ c)).2.2.2.2.2.2.2.2.1).trans (b2_arg9 m ρ c)
theorem b3_arg10 : W3 m ρ c (Proc.devRef .tc main_arg10) = m ((c : Thread nD τ).loc main_arg10) := ((p2_keep (W2 m ρ c)).2.2.2.2.2.2.2.2.2).trans (b2_arg10 m ρ c)
theorem b4_v29 : W4 m ρ c (Proc.devRef .tc main_v29) = y1K (m ((c : Thread nD τ).loc main_arg0)) (m ((c : Thread nD τ).loc main_arg2)) (m ((c : Thread nD τ).loc main_arg3)) :=
  (W4_arr m ρ c 2).trans ((Cert.KernelIdeal.Region0.array_eq (V3 m ρ) c).trans (congrArg₂ Cert.Layers.proj (b3_arg0 m ρ c) (b3_v28 m ρ c)))
theorem b4_v1 : W4 m ρ c (Proc.devRef .tc main_v1) = rowVec (m ((c : Thread nD τ).loc main_arg1)) := (W4_of_ne m ρ c main_v1 (by decide)).trans (b3_v1 m ρ c)
theorem b4_v3 : W4 m ρ c (Proc.devRef .tc main_v3) = colVec (m ((c : Thread nD τ).loc main_arg1)) := (W4_of_ne m ρ c main_v3 (by decide)).trans (b3_v3 m ρ c)
theorem b4_v27 : W4 m ρ c (Proc.devRef .tc main_v27) = nrm (rowVec (m ((c : Thread nD τ).loc main_arg1))) (colVec (m ((c : Thread nD τ).loc main_arg1))) := (W4_of_ne m ρ c main_v27 (by decide)).trans (b3_v27 m ρ c)
theorem b4_arg4 : W4 m ρ c (Proc.devRef .tc main_arg4) = m ((c : Thread nD τ).loc main_arg4) := (W4_of_ne m ρ c main_arg4 (by decide)).trans (b3_arg4 m ρ c)
theorem b4_arg5 : W4 m ρ c (Proc.devRef .tc main_arg5) = m ((c : Thread nD τ).loc main_arg5) := (W4_of_ne m ρ c main_arg5 (by decide)).trans (b3_arg5 m ρ c)
theorem b4_arg6 : W4 m ρ c (Proc.devRef .tc main_arg6) = m ((c : Thread nD τ).loc main_arg6) := (W4_of_ne m ρ c main_arg6 (by decide)).trans (b3_arg6 m ρ c)
theorem b4_arg7 : W4 m ρ c (Proc.devRef .tc main_arg7) = m ((c : Thread nD τ).loc main_arg7) := (W4_of_ne m ρ c main_arg7 (by decide)).trans (b3_arg7 m ρ c)
theorem b4_arg8 : W4 m ρ c (Proc.devRef .tc main_arg8) = m ((c : Thread nD τ).loc main_arg8) := (W4_of_ne m ρ c main_arg8 (by decide)).trans (b3_arg8 m ρ c)
theorem b4_arg9 : W4 m ρ c (Proc.devRef .tc main_arg9) = m ((c : Thread nD τ).loc main_arg9) := (W4_of_ne m ρ c main_arg9 (by decide)).trans (b3_arg9 m ρ c)
theorem b4_arg10 : W4 m ρ c (Proc.devRef .tc main_arg10) = m ((c : Thread nD τ).loc main_arg10) := (W4_of_ne m ρ c main_arg10 (by decide)).trans (b3_arg10 m ρ c)
theorem b5_v44 : W5 m ρ c (Proc.devRef .tc main_v44) = agg16 (m ((c : Thread nD τ).loc main_arg1)) (left16 (y1K (m ((c : Thread nD τ).loc main_arg0)) (m ((c : Thread nD τ).loc main_arg2)) (m ((c : Thread nD τ).loc main_arg3)))) :=
  (mid1_agg (W4 m ρ c)).trans (by rw [b4_v1 m ρ c, b4_v3 m ρ c, b4_v27 m ρ c, b4_v29 m ρ c]; rfl)
theorem b5_v31 : W5 m ρ c (Proc.devRef .tc main_v31) = right16 (y1K (m ((c : Thread nD τ).loc main_arg0)) (m ((c : Thread nD τ).loc main_arg2)) (m ((c : Thread nD τ).loc main_arg3))) := (mid1_root (W4 m ρ c)).trans (by rw [b4_v29 m ρ c])
theorem b5_v45 : W5 m ρ c (Proc.devRef .tc main_v45) = biasRow (m ((c : Thread nD τ).loc main_arg4)) := (mid1_bias (W4 m ρ c)).trans (by rw [b4_arg4 m ρ c])
theorem b5_v46 : W5 m ρ c (Proc.devRef .tc main_v46) = cat32 (m ((c : Thread nD τ).loc main_arg5)) (m ((c : Thread nD τ).loc main_arg6)) := (mid1_cat (W4 m ρ c)).trans (by rw [b4_arg5 m ρ c, b4_arg6 m ρ c])
theorem b5_v1 : W5 m ρ c (Proc.devRef .tc main_v1) = rowVec (m ((c : Thread nD τ).loc main_arg1)) := ((mid1_keep (W4 m ρ c)).1).trans (b4_v1 m ρ c)
theorem b5_v3 : W5 m ρ c (Proc.devRef .tc main_v3) = colVec (m ((c : Thread nD τ).loc main_arg1)) := ((mid1_keep (W4 m ρ c)).2.1).trans (b4_v3 m ρ c)
theorem b5_v27 : W5 m ρ c (Proc.devRef .tc main_v27) = nrm (rowVec (m ((c : Thread nD τ).loc main_arg1))) (colVec (m ((c : Thread nD τ).loc main_arg1))) := ((mid1_keep (W4 m ρ c)).2.2.1).trans (b4_v27 m ρ c)
theorem b5_arg7 : W5 m ρ c (Proc.devRef .tc main_arg7) = m ((c : Thread nD τ).loc main_arg7) := ((mid1_keep (W4 m ρ c)).2.2.2.1).trans (b4_arg7 m ρ c)
theorem b5_arg8 : W5 m ρ c (Proc.devRef .tc main_arg8) = m ((c : Thread nD τ).loc main_arg8) := ((mid1_keep (W4 m ρ c)).2.2.2.2.1).trans (b4_arg8 m ρ c)
theorem b5_arg9 : W5 m ρ c (Proc.devRef .tc main_arg9) = m ((c : Thread nD τ).loc main_arg9) := ((mid1_keep (W4 m ρ c)).2.2.2.2.2.1).trans (b4_arg9 m ρ c)
theorem b5_arg10 : W5 m ρ c (Proc.devRef .tc main_arg10) = m ((c : Thread nD τ).loc main_arg10) := ((mid1_keep (W4 m ρ c)).2.2.2.2.2.2).trans (b4_arg10 m ρ c)
theorem b6_v47 : W6 m ρ c (Proc.devRef .tc main_v47) = y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) :=
  (W6_arr m ρ c 4).trans ((Cert.KernelIdeal.Region1.array_eq (V5 m ρ) c).trans (by
    rw [show V5 m ρ c main_v44 = _ from b5_v44 m ρ c, show V5 m ρ c main_v31 = _ from b5_v31 m ρ c,
      show V5 m ρ c main_v45 = _ from b5_v45 m ρ c, show V5 m ρ c main_v46 = _ from b5_v46 m ρ c]; rfl))
theorem b6_v1 : W6 m ρ c (Proc.devRef .tc main_v1) = rowVec (m ((c : Thread nD τ).loc main_arg1)) := (W6_of_ne m ρ c main_v1 (by decide)).trans (b5_v1 m ρ c)
theorem b6_v3 : W6 m ρ c (Proc.devRef .tc main_v3) = colVec (m ((c : Thread nD τ).loc main_arg1)) := (W6_of_ne m ρ c main_v3 (by decide)).trans (b5_v3 m ρ c)
theorem b6_v27 : W6 m ρ c (Proc.devRef .tc main_v27) = nrm (rowVec (m ((c : Thread nD τ).loc main_arg1))) (colVec (m ((c : Thread nD τ).loc main_arg1))) := (W6_of_ne m ρ c main_v27 (by decide)).trans (b5_v27 m ρ c)
theorem b6_arg7 : W6 m ρ c (Proc.devRef .tc main_arg7) = m ((c : Thread nD τ).loc main_arg7) := (W6_of_ne m ρ c main_arg7 (by decide)).trans (b5_arg7 m ρ c)
theorem b6_arg8 : W6 m ρ c (Proc.devRef .tc main_arg8) = m ((c : Thread nD τ).loc main_arg8) := (W6_of_ne m ρ c main_arg8 (by decide)).trans (b5_arg8 m ρ c)
theorem b6_arg9 : W6 m ρ c (Proc.devRef .tc main_arg9) = m ((c : Thread nD τ).loc main_arg9) := (W6_of_ne m ρ c main_arg9 (by decide)).trans (b5_arg9 m ρ c)
theorem b6_arg10 : W6 m ρ c (Proc.devRef .tc main_arg10) = m ((c : Thread nD τ).loc main_arg10) := (W6_of_ne m ρ c main_arg10 (by decide)).trans (b5_arg10 m ρ c)
theorem b7_v62 : W7 m ρ c (Proc.devRef .tc main_v62) = agg16 (m ((c : Thread nD τ).loc main_arg1)) (left16 (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)))) :=
  (mid2_agg (W6 m ρ c)).trans (by rw [b6_v1 m ρ c, b6_v3 m ρ c, b6_v27 m ρ c, b6_v47 m ρ c]; rfl)
theorem b7_v49 : W7 m ρ c (Proc.devRef .tc main_v49) = right16 (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) := (mid2_root (W6 m ρ c)).trans (by rw [b6_v47 m ρ c])
theorem b7_v63 : W7 m ρ c (Proc.devRef .tc main_v63) = biasRow (m ((c : Thread nD τ).loc main_arg7)) := (mid2_bias (W6 m ρ c)).trans (by rw [b6_arg7 m ρ c])
theorem b7_v64 : W7 m ρ c (Proc.devRef .tc main_v64) = cat20 (m ((c : Thread nD τ).loc main_arg8)) (m ((c : Thread nD τ).loc main_arg9)) := (mid2_cat (W6 m ρ c)).trans (by rw [b6_arg8 m ρ c, b6_arg9 m ρ c])
theorem b7_v1 : W7 m ρ c (Proc.devRef .tc main_v1) = rowVec (m ((c : Thread nD τ).loc main_arg1)) := ((mid2_keep (W6 m ρ c)).1).trans (b6_v1 m ρ c)
theorem b7_v3 : W7 m ρ c (Proc.devRef .tc main_v3) = colVec (m ((c : Thread nD τ).loc main_arg1)) := ((mid2_keep (W6 m ρ c)).2.1).trans (b6_v3 m ρ c)
theorem b7_v27 : W7 m ρ c (Proc.devRef .tc main_v27) = nrm (rowVec (m ((c : Thread nD τ).loc main_arg1))) (colVec (m ((c : Thread nD τ).loc main_arg1))) := ((mid2_keep (W6 m ρ c)).2.2.1).trans (b6_v27 m ρ c)
theorem b7_arg10 : W7 m ρ c (Proc.devRef .tc main_arg10) = m ((c : Thread nD τ).loc main_arg10) := ((mid2_keep (W6 m ρ c)).2.2.2).trans (b6_arg10 m ρ c)
theorem b8_v65 : W8 m ρ c (Proc.devRef .tc main_v65) = y3K (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) :=
  (W8_arr m ρ c 4).trans ((Cert.KernelIdeal.Region2.array_eq (V7 m ρ) c).trans (by
    rw [show V7 m ρ c main_v62 = _ from b7_v62 m ρ c, show V7 m ρ c main_v49 = _ from b7_v49 m ρ c,
      show V7 m ρ c main_v63 = _ from b7_v63 m ρ c, show V7 m ρ c main_v64 = _ from b7_v64 m ρ c]; rfl))
theorem b8_v1 : W8 m ρ c (Proc.devRef .tc main_v1) = rowVec (m ((c : Thread nD τ).loc main_arg1)) := (W8_of_ne m ρ c main_v1 (by decide)).trans (b7_v1 m ρ c)
theorem b8_v3 : W8 m ρ c (Proc.devRef .tc main_v3) = colVec (m ((c : Thread nD τ).loc main_arg1)) := (W8_of_ne m ρ c main_v3 (by decide)).trans (b7_v3 m ρ c)
theorem b8_v27 : W8 m ρ c (Proc.devRef .tc main_v27) = nrm (rowVec (m ((c : Thread nD τ).loc main_arg1))) (colVec (m ((c : Thread nD τ).loc main_arg1))) := (W8_of_ne m ρ c main_v27 (by decide)).trans (b7_v27 m ρ c)
theorem b8_arg10 : W8 m ρ c (Proc.devRef .tc main_arg10) = m ((c : Thread nD τ).loc main_arg10) := (W8_of_ne m ρ c main_arg10 (by decide)).trans (b7_arg10 m ρ c)
theorem b9_v84 : W9 m ρ c (Proc.devRef .tc main_v84) = pre10 (agg10 (m ((c : Thread nD τ).loc main_arg1)) (left10 (y3K (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))))) (right10 (y3K (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)))) (m ((c : Thread nD τ).loc main_arg10)) :=
  (q0_pre (W8 m ρ c)).trans (by rw [b8_v1 m ρ c, b8_v3 m ρ c, b8_v27 m ρ c, b8_v65 m ρ c, b8_arg10 m ρ c]; rfl)
theorem b10_v85 : W10 m ρ c (Proc.devRef .tc main_v85) = relu10 (pre10 (agg10 (m ((c : Thread nD τ).loc main_arg1)) (left10 (y3K (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))))) (right10 (y3K (y2K (y1K (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)))) (m ((c : Thread nD τ).loc main_arg10))) := (q1_relu (W9 m ρ c)).trans (by rw [b9_v84 m ρ c])
/-- The result buffer at the return holds the kernel's composition of the argument arrays. -/
theorem fold_eq : W11 m ρ c (Proc.devRef .tc main_v86) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (q2_fin (W10 m ρ c)).trans (by rw [b10_v85 m ρ c]; rfl)

end Fold

end Cert.KernelIdeal.KFold

end
-- ==== Proof.RefRun.lean ====
/-
  The reference's run, read back.

  The reference is a straight line of 135 host operations (the functions it calls stand at their call sites), cut
  here into twelve stretches at the calls. Each stretch, from an arbitrary contents `W`, is one of the named graph
  functions of `Cert.Chain` or a host matrix product applied to the buffers it reads, and it leaves the buffers it
  does not write. Composing the twelve from the launch memory, the result buffer holds `Chain.refOut` of the argument
  arrays — gather, scale, scatter-add; add the root product and the bias; cut off at zero (twice, the second time
  changing nothing); three times over, the last followed by the row-wise log-softmax — and no argument is written.
-/
import proofs.«126903_j3564822856024_2_alg».proof.Proof.Gen.ReferenceIdeal
import proofs.«126903_j3564822856024_2_alg».proof.Proof.Gen.KernelIdeal
import proofs.«126903_j3564822856024_2_alg».proof.Proof.HostChain
import proofs.«126903_j3564822856024_2_alg».proof.Proof.LibTypedRead
import Idealize.ShloMosaic.Lib.StableHlo.Run
import Idealize.ShloMosaic.Lib.Pipeline.Frame

set_option maxRecDepth 16384
set_option maxHeartbeats 8000000

noncomputable section

namespace Cert.ReferenceIdeal.RefRun

open Cert.ReferenceIdeal Cert.ReferenceIdeal.Gen Cert.Chain Cert.LibTypedRead Idealize.ShloMosaic Idealize.ShloMosaic.TcCoe Idealize.SL.Sem Idealize.ShloMosaic.StableHlo

section Program

variable {F : FTy → Type} [FloatOps F]

/-- The program's operations, in order. -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v11) (TRef.of (T := ⟨S100000, .f32⟩) main_call0_v1) (TRef.of (T := ⟨S100000, .f32⟩) main_v12) select,
    nullary main_c (constantI S_ 32 0#32),
    unary main_c main_v13 (broadcastInDim S3200000 ![] bcast_S_S3200000 : (⟨S_, .i32⟩ : BufTy).Contents (Elt F) → (⟨S3200000, .i32⟩ : BufTy).Contents (Elt F)),
    binary main_v1 main_v13 main_v14 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v15 (broadcastInDim S3200000 ![] bcast_S_S3200000 : (⟨S_, .i32⟩ : BufTy).Contents (Elt F) → (⟨S3200000, .i32⟩ : BufTy).Contents (Elt F)),
    binary main_v1 main_v15 main_v16 (addi : (⟨S3200000, .i32⟩ : BufTy).Contents (Elt F) → (⟨S3200000, .i32⟩ : BufTy).Contents (Elt F) → (⟨S3200000, .i32⟩ : BufTy).Contents (Elt F)),
    ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v17 main_v18 (broadcastInDim S3200000x1 ![0] bcast_S3200000_S3200000x1_0 : (⟨S3200000, .i32⟩ : BufTy).Contents (Elt F) → (⟨S3200000x1, .i32⟩ : BufTy).Contents (Elt F)),
    binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_5 (constantI S_ 32 0#32),
    unary main_c_5 main_v20 (broadcastInDim S3200000 ![] bcast_S_S3200000 : (⟨S_, .i32⟩ : BufTy).Contents (Elt F) → (⟨S3200000, .i32⟩ : BufTy).Contents (Elt F)),
    binary main_v3 main_v20 main_v21 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v22 (broadcastInDim S3200000 ![] bcast_S_S3200000 : (⟨S_, .i32⟩ : BufTy).Contents (Elt F) → (⟨S3200000, .i32⟩ : BufTy).Contents (Elt F)),
    binary main_v3 main_v22 main_v23 (addi : (⟨S3200000, .i32⟩ : BufTy).Contents (Elt F) → (⟨S3200000, .i32⟩ : BufTy).Contents (Elt F) → (⟨S3200000, .i32⟩ : BufTy).Contents (Elt F)),
    ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v24 main_v25 (broadcastInDim S3200000x1 ![0] bcast_S3200000_S3200000x1_0 : (⟨S3200000, .i32⟩ : BufTy).Contents (Elt F) → (⟨S3200000x1, .i32⟩ : BufTy).Contents (Elt F)),
    binary main_v12 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v19 main_v26 main_v27 (mulf : (⟨S3200000, .f32⟩ : BufTy).Contents (Elt F) → (⟨S3200000, .f32⟩ : BufTy).Contents (Elt F) → (⟨S3200000, .f32⟩ : BufTy).Contents (Elt F)),
    binary main_arg0 main_arg2 main_v28 ((fun l r => Host.dotGeneral dot_S100000x767_S767x16_S100000x16_1_0_0_1_n_n none l r) : (⟨S100000x767, .f32⟩ : BufTy).Contents (Elt F) → (⟨S767x16, .f32⟩ : BufTy).Contents (Elt F) → (⟨S100000x16, .f32⟩ : BufTy).Contents (Elt F)),
    nullary main_c_7 (constantI S_ 32 0#32),
    unary main_c_7 main_v29 (broadcastInDim S3200000 ![] bcast_S_S3200000 : (⟨S_, .i32⟩ : BufTy).Contents (Elt F) → (⟨S3200000, .i32⟩ : BufTy).Contents (Elt F)),
    binary main_v1 main_v29 main_v30 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v31 (broadcastInDim S3200000 ![] bcast_S_S3200000 : (⟨S_, .i32⟩ : BufTy).Contents (Elt F) → (⟨S3200000, .i32⟩ : BufTy).Contents (Elt F)),
    binary main_v1 main_v31 main_v32 (addi : (⟨S3200000, .i32⟩ : BufTy).Contents (Elt F) → (⟨S3200000, .i32⟩ : BufTy).Contents (Elt F) → (⟨S3200000, .i32⟩ : BufTy).Contents (Elt F)),
    ternary main_v30 main_v32 main_v1 main_v33 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v33 main_v34 (broadcastInDim S3200000x1 ![0] bcast_S3200000_S3200000x1_0 : (⟨S3200000, .i32⟩ : BufTy).Contents (Elt F) → (⟨S3200000x1, .i32⟩ : BufTy).Contents (Elt F)),
    binary main_v28 main_v34 main_v35 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v27 main_v36 (broadcastInDim S3200000x1 ![0] bcast_S3200000_S3200000x1_0 : (⟨S3200000, .f32⟩ : BufTy).Contents (Elt F) → (⟨S3200000x1, .f32⟩ : BufTy).Contents (Elt F)),
    unary main_v36 main_v37 (broadcastInDim S3200000x16 ![0, 1] bcast_S3200000x1_S3200000x16_0_1 : (⟨S3200000x1, .f32⟩ : BufTy).Contents (Elt F) → (⟨S3200000x16, .f32⟩ : BufTy).Contents (Elt F)),
    binary main_v35 main_v37 main_v38 (mulf : (⟨S3200000x16, .f32⟩ : BufTy).Contents (Elt F) → (⟨S3200000x16, .f32⟩ : BufTy).Contents (Elt F) → (⟨S3200000x16, .f32⟩ : BufTy).Contents (Elt F)),
    nullary main_cst_9 (constant S_ .f32 0x00000000#32),
    unary main_cst_9 main_v39 (broadcastInDim S100000x16 ![] bcast_S_S100000x16 : (⟨S_, .f32⟩ : BufTy).Contents (Elt F) → (⟨S100000x16, .f32⟩ : BufTy).Contents (Elt F)),
    unary main_v3 main_v40 (broadcastInDim S3200000x1 ![0] bcast_S3200000_S3200000x1_0 : (⟨S3200000, .i32⟩ : BufTy).Contents (Elt F) → (⟨S3200000x1, .i32⟩ : BufTy).Contents (Elt F)),
    ternary main_v39 main_v40 main_v38 main_v41 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_arg0 main_arg3 main_v42 ((fun l r => Host.dotGeneral dot_S100000x767_S767x16_S100000x16_1_0_0_1_n_n none l r) : (⟨S100000x767, .f32⟩ : BufTy).Contents (Elt F) → (⟨S767x16, .f32⟩ : BufTy).Contents (Elt F) → (⟨S100000x16, .f32⟩ : BufTy).Contents (Elt F)),
    binary main_v41 main_v42 main_v43 (addf : (⟨S100000x16, .f32⟩ : BufTy).Contents (Elt F) → (⟨S100000x16, .f32⟩ : BufTy).Contents (Elt F) → (⟨S100000x16, .f32⟩ : BufTy).Contents (Elt F)),
    unary main_arg4 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v47) (TRef.of (T := ⟨S100000x16, .f32⟩) main_call2_v0) (TRef.of (T := ⟨S100000x16, .f32⟩) main_v48) maximumf,
    binary main_v48 main_arg5 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_10 (constantI S_ 32 0#32),
    unary main_c_10 main_v50 (broadcastInDim S3200000 ![] bcast_S_S3200000 : (⟨S_, .i32⟩ : BufTy).Contents (Elt F) → (⟨S3200000, .i32⟩ : BufTy).Contents (Elt F)),
    binary main_v1 main_v50 main_v51 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v52 (broadcastInDim S3200000 ![] bcast_S_S3200000 : (⟨S_, .i32⟩ : BufTy).Contents (Elt F) → (⟨S3200000, .i32⟩ : BufTy).Contents (Elt F)),
    binary main_v1 main_v52 main_v53 (addi : (⟨S3200000, .i32⟩ : BufTy).Contents (Elt F) → (⟨S3200000, .i32⟩ : BufTy).Contents (Elt F) → (⟨S3200000, .i32⟩ : BufTy).Contents (Elt F)),
    ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v54 main_v55 (broadcastInDim S3200000x1 ![0] bcast_S3200000_S3200000x1_0 : (⟨S3200000, .i32⟩ : BufTy).Contents (Elt F) → (⟨S3200000x1, .i32⟩ : BufTy).Contents (Elt F)),
    binary main_v49 main_v55 main_v56 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v27 main_v57 (broadcastInDim S3200000x1 ![0] bcast_S3200000_S3200000x1_0 : (⟨S3200000, .f32⟩ : BufTy).Contents (Elt F) → (⟨S3200000x1, .f32⟩ : BufTy).Contents (Elt F)),
    unary main_v57 main_v58 (broadcastInDim S3200000x16 ![0, 1] bcast_S3200000x1_S3200000x16_0_1 : (⟨S3200000x1, .f32⟩ : BufTy).Contents (Elt F) → (⟨S3200000x16, .f32⟩ : BufTy).Contents (Elt F)),
    binary main_v56 main_v58 main_v59 (mulf : (⟨S3200000x16, .f32⟩ : BufTy).Contents (Elt F) → (⟨S3200000x16, .f32⟩ : BufTy).Contents (Elt F) → (⟨S3200000x16, .f32⟩ : BufTy).Contents (Elt F)),
    nullary main_cst_12 (constant S_ .f32 0x00000000#32),
    unary main_cst_12 main_v60 (broadcastInDim S100000x16 ![] bcast_S_S100000x16 : (⟨S_, .f32⟩ : BufTy).Contents (Elt F) → (⟨S100000x16, .f32⟩ : BufTy).Contents (Elt F)),
    unary main_v3 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_v48 main_arg6 main_v63 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v62 main_v63 main_v64 (addf : (⟨S100000x16, .f32⟩ : BufTy).Contents (Elt F) → (⟨S100000x16, .f32⟩ : BufTy).Contents (Elt F) → (⟨S100000x16, .f32⟩ : BufTy).Contents (Elt F)),
    unary main_arg7 main_v65 (broadcastInDim S1x16 ![1] bcast_S16_S1x16_1 : (⟨S16, .f32⟩ : BufTy).Contents (Elt F) → (⟨S1x16, .f32⟩ : BufTy).Contents (Elt F)),
    unary main_v65 main_v66 (broadcastInDim S100000x16 ![0, 1] bcast_S1x16_S100000x16_0_1 : (⟨S1x16, .f32⟩ : BufTy).Contents (Elt F) → (⟨S100000x16, .f32⟩ : BufTy).Contents (Elt F)),
    binary main_v64 main_v66 main_v67 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x16, .f32⟩) main_call3_v0) (broadcastInDim S100000x16 ![] bcast_S_S100000x16),
    TRef.binary (TRef.of (T := ⟨S100000x16, .f32⟩) main_v67) (TRef.of (T := ⟨S100000x16, .f32⟩) main_call3_v0) (TRef.of (T := ⟨S100000x16, .f32⟩) main_v68) maximumf,
    TRef.nullary (TRef.of (T := ⟨S_, .f32⟩) main_call4_cst) (constant S_ .f32 0x00000000#32),
    TRef.unary (TRef.of (T := ⟨S_, .f32⟩) main_call4_cst) (TRef.of (T := ⟨S100000x16, .f32⟩) main_call4_v0) (broadcastInDim S100000x16 ![] bcast_S_S100000x16),
    TRef.binary (TRef.of (T := ⟨S100000x16, .f32⟩) main_v68) (TRef.of (T := ⟨S100000x16, .f32⟩) main_call4_v0) (TRef.of (T := ⟨S100000x16, .f32⟩) main_v69) maximumf,
    binary main_v69 main_arg8 main_v70 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    nullary main_c_13 (constantI S_ 32 0#32),
    unary main_c_13 main_v71 (broadcastInDim S3200000 ![] bcast_S_S3200000 : (⟨S_, .i32⟩ : BufTy).Contents (Elt F) → (⟨S3200000, .i32⟩ : BufTy).Contents (Elt F)),
    binary main_v1 main_v71 main_v72 (cmpi .slt : (⟨S3200000, .i32⟩ : BufTy).Contents (Elt F) → (⟨S3200000, .i32⟩ : BufTy).Contents (Elt F) → (⟨S3200000, .i1⟩ : BufTy).Contents (Elt F)),
    nullary main_c_14 (constantI S_ 32 100000#32),
    unary main_c_14 main_v73 (broadcastInDim S3200000 ![] bcast_S_S3200000 : (⟨S_, .i32⟩ : BufTy).Contents (Elt F) → (⟨S3200000, .i32⟩ : BufTy).Contents (Elt F)),
    binary main_v1 main_v73 main_v74 (addi : (⟨S3200000, .i32⟩ : BufTy).Contents (Elt F) → (⟨S3200000, .i32⟩ : BufTy).Contents (Elt F) → (⟨S3200000, .i32⟩ : BufTy).Contents (Elt F)),
    ternary main_v72 main_v74 main_v1 main_v75 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v75 main_v76 (broadcastInDim S3200000x1 ![0] bcast_S3200000_S3200000x1_0 : (⟨S3200000, .i32⟩ : BufTy).Contents (Elt F) → (⟨S3200000x1, .i32⟩ : BufTy).Contents (Elt F)),
    binary main_v70 main_v76 main_v77 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v27 main_v78 (broadcastInDim S3200000x1 ![0] bcast_S3200000_S3200000x1_0 : (⟨S3200000, .f32⟩ : BufTy).Contents (Elt F) → (⟨S3200000x1, .f32⟩ : BufTy).Contents (Elt F)),
    unary main_v78 main_v79 (broadcastInDim S3200000x10 ![0, 1] bcast_S3200000x1_S3200000x10_0_1 : (⟨S3200000x1, .f32⟩ : BufTy).Contents (Elt F) → (⟨S3200000x10, .f32⟩ : BufTy).Contents (Elt F)),
    binary main_v77 main_v79 main_v80 (mulf : (⟨S3200000x10, .f32⟩ : BufTy).Contents (Elt F) → (⟨S3200000x10, .f32⟩ : BufTy).Contents (Elt F) → (⟨S3200000x10, .f32⟩ : BufTy).Contents (Elt F)),
    nullary main_cst_15 (constant S_ .f32 0x00000000#32),
    unary main_cst_15 main_v81 (broadcastInDim S100000x10 ![] bcast_S_S100000x10 : (⟨S_, .f32⟩ : BufTy).Contents (Elt F) → (⟨S100000x10, .f32⟩ : BufTy).Contents (Elt F)),
    unary main_v3 main_v82 (broadcastInDim S3200000x1 ![0] bcast_S3200000_S3200000x1_0 : (⟨S3200000, .i32⟩ : BufTy).Contents (Elt F) → (⟨S3200000x1, .i32⟩ : BufTy).Contents (Elt F)),
    ternary main_v81 main_v82 main_v80 main_v83 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    binary main_v69 main_arg9 main_v84 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    binary main_v83 main_v84 main_v85 (addf : (⟨S100000x10, .f32⟩ : BufTy).Contents (Elt F) → (⟨S100000x10, .f32⟩ : BufTy).Contents (Elt F) → (⟨S100000x10, .f32⟩ : BufTy).Contents (Elt F)),
    unary main_arg10 main_v86 (broadcastInDim S1x10 ![1] bcast_S10_S1x10_1 : (⟨S10, .f32⟩ : BufTy).Contents (Elt F) → (⟨S1x10, .f32⟩ : BufTy).Contents (Elt F)),
    unary main_v86 main_v87 (broadcastInDim S100000x10 ![0, 1] bcast_S1x10_S100000x10_0_1 : (⟨S1x10, .f32⟩ : BufTy).Contents (Elt F) → (⟨S100000x10, .f32⟩ : BufTy).Contents (Elt F)),
    binary main_v85 main_v87 main_v88 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x10, .f32⟩) main_call5_v0) (broadcastInDim S100000x10 ![] bcast_S_S100000x10),
    TRef.binary (TRef.of (T := ⟨S100000x10, .f32⟩) main_v88) (TRef.of (T := ⟨S100000x10, .f32⟩) main_call5_v0) (TRef.of (T := ⟨S100000x10, .f32⟩) main_v89) maximumf,
    TRef.nullary (TRef.of (T := ⟨S_, .f32⟩) main_call6_cst) (constant S_ .f32 0xFF800000#32),
    TRef.binary (TRef.of (T := ⟨S100000x10, .f32⟩) main_v89) (TRef.of (T := ⟨S_, .f32⟩) main_call6_cst) (TRef.of (T := ⟨S100000, .f32⟩) main_call6_v0) (fun x v => Host.reduce FloatOps.maximumf x v reducesTo_S100000x10_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x10, .f32⟩) main_call6_v4) (broadcastInDim S100000x10 ![0, 1] bcast_S100000x1_S100000x10_0_1),
    TRef.binary (TRef.of (T := ⟨S100000x10, .f32⟩) main_v89) (TRef.of (T := ⟨S100000x10, .f32⟩) main_call6_v4) (TRef.of (T := ⟨S100000x10, .f32⟩) main_call6_v5) subf,
    TRef.unary (TRef.of (T := ⟨S100000x10, .f32⟩) main_call6_v5) (TRef.of (T := ⟨S100000x10, .f32⟩) main_call6_v6) Host.exp,
    TRef.nullary (TRef.of (T := ⟨S_, .f32⟩) main_call6_cst_1) (constant S_ .f32 0x00000000#32),
    TRef.binary (TRef.of (T := ⟨S100000x10, .f32⟩) main_call6_v6) (TRef.of (T := ⟨S_, .f32⟩) main_call6_cst_1) (TRef.of (T := ⟨S100000, .f32⟩) main_call6_v7) (fun x v => Host.reduceAdd x v reducesTo_S100000x10_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x10, .f32⟩) main_call6_v10) (broadcastInDim S100000x10 ![0, 1] bcast_S100000x1_S100000x10_0_1),
    TRef.binary (TRef.of (T := ⟨S100000x10, .f32⟩) main_call6_v5) (TRef.of (T := ⟨S100000x10, .f32⟩) main_call6_v10) (TRef.of (T := ⟨S100000x10, .f32⟩) main_v90) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! The same operations in twelve stretches, cut at the calls. -/
abbrev c0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32) ]
abbrev c1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v11) (TRef.of (T := ⟨S100000, .f32⟩) main_call0_v1) (TRef.of (T := ⟨S100000, .f32⟩) main_v12) select ]
abbrev c2 : List (HloOp τ sig (Elt F)) :=
  [ nullary main_c (constantI S_ 32 0#32),
    unary main_c main_v13 (broadcastInDim S3200000 ![] bcast_S_S3200000 : (⟨S_, .i32⟩ : BufTy).Contents (Elt F) → (⟨S3200000, .i32⟩ : BufTy).Contents (Elt F)),
    binary main_v1 main_v13 main_v14 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v15 (broadcastInDim S3200000 ![] bcast_S_S3200000 : (⟨S_, .i32⟩ : BufTy).Contents (Elt F) → (⟨S3200000, .i32⟩ : BufTy).Contents (Elt F)),
    binary main_v1 main_v15 main_v16 (addi : (⟨S3200000, .i32⟩ : BufTy).Contents (Elt F) → (⟨S3200000, .i32⟩ : BufTy).Contents (Elt F) → (⟨S3200000, .i32⟩ : BufTy).Contents (Elt F)),
    ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v17 main_v18 (broadcastInDim S3200000x1 ![0] bcast_S3200000_S3200000x1_0 : (⟨S3200000, .i32⟩ : BufTy).Contents (Elt F) → (⟨S3200000x1, .i32⟩ : BufTy).Contents (Elt F)),
    binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_5 (constantI S_ 32 0#32),
    unary main_c_5 main_v20 (broadcastInDim S3200000 ![] bcast_S_S3200000 : (⟨S_, .i32⟩ : BufTy).Contents (Elt F) → (⟨S3200000, .i32⟩ : BufTy).Contents (Elt F)),
    binary main_v3 main_v20 main_v21 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v22 (broadcastInDim S3200000 ![] bcast_S_S3200000 : (⟨S_, .i32⟩ : BufTy).Contents (Elt F) → (⟨S3200000, .i32⟩ : BufTy).Contents (Elt F)),
    binary main_v3 main_v22 main_v23 (addi : (⟨S3200000, .i32⟩ : BufTy).Contents (Elt F) → (⟨S3200000, .i32⟩ : BufTy).Contents (Elt F) → (⟨S3200000, .i32⟩ : BufTy).Contents (Elt F)),
    ternary main_v21 main_v23 main_v3 main_v24 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v24 main_v25 (broadcastInDim S3200000x1 ![0] bcast_S3200000_S3200000x1_0 : (⟨S3200000, .i32⟩ : BufTy).Contents (Elt F) → (⟨S3200000x1, .i32⟩ : BufTy).Contents (Elt F)),
    binary main_v12 main_v25 main_v26 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v19 main_v26 main_v27 (mulf : (⟨S3200000, .f32⟩ : BufTy).Contents (Elt F) → (⟨S3200000, .f32⟩ : BufTy).Contents (Elt F) → (⟨S3200000, .f32⟩ : BufTy).Contents (Elt F)) ]
abbrev c3 : List (HloOp τ sig (Elt F)) :=
  [ binary main_arg0 main_arg2 main_v28 ((fun l r => Host.dotGeneral dot_S100000x767_S767x16_S100000x16_1_0_0_1_n_n none l r) : (⟨S100000x767, .f32⟩ : BufTy).Contents (Elt F) → (⟨S767x16, .f32⟩ : BufTy).Contents (Elt F) → (⟨S100000x16, .f32⟩ : BufTy).Contents (Elt F)),
    nullary main_c_7 (constantI S_ 32 0#32),
    unary main_c_7 main_v29 (broadcastInDim S3200000 ![] bcast_S_S3200000 : (⟨S_, .i32⟩ : BufTy).Contents (Elt F) → (⟨S3200000, .i32⟩ : BufTy).Contents (Elt F)),
    binary main_v1 main_v29 main_v30 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v31 (broadcastInDim S3200000 ![] bcast_S_S3200000 : (⟨S_, .i32⟩ : BufTy).Contents (Elt F) → (⟨S3200000, .i32⟩ : BufTy).Contents (Elt F)),
    binary main_v1 main_v31 main_v32 (addi : (⟨S3200000, .i32⟩ : BufTy).Contents (Elt F) → (⟨S3200000, .i32⟩ : BufTy).Contents (Elt F) → (⟨S3200000, .i32⟩ : BufTy).Contents (Elt F)),
    ternary main_v30 main_v32 main_v1 main_v33 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v33 main_v34 (broadcastInDim S3200000x1 ![0] bcast_S3200000_S3200000x1_0 : (⟨S3200000, .i32⟩ : BufTy).Contents (Elt F) → (⟨S3200000x1, .i32⟩ : BufTy).Contents (Elt F)),
    binary main_v28 main_v34 main_v35 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v27 main_v36 (broadcastInDim S3200000x1 ![0] bcast_S3200000_S3200000x1_0 : (⟨S3200000, .f32⟩ : BufTy).Contents (Elt F) → (⟨S3200000x1, .f32⟩ : BufTy).Contents (Elt F)),
    unary main_v36 main_v37 (broadcastInDim S3200000x16 ![0, 1] bcast_S3200000x1_S3200000x16_0_1 : (⟨S3200000x1, .f32⟩ : BufTy).Contents (Elt F) → (⟨S3200000x16, .f32⟩ : BufTy).Contents (Elt F)),
    binary main_v35 main_v37 main_v38 (mulf : (⟨S3200000x16, .f32⟩ : BufTy).Contents (Elt F) → (⟨S3200000x16, .f32⟩ : BufTy).Contents (Elt F) → (⟨S3200000x16, .f32⟩ : BufTy).Contents (Elt F)),
    nullary main_cst_9 (constant S_ .f32 0x00000000#32),
    unary main_cst_9 main_v39 (broadcastInDim S100000x16 ![] bcast_S_S100000x16 : (⟨S_, .f32⟩ : BufTy).Contents (Elt F) → (⟨S100000x16, .f32⟩ : BufTy).Contents (Elt F)),
    unary main_v3 main_v40 (broadcastInDim S3200000x1 ![0] bcast_S3200000_S3200000x1_0 : (⟨S3200000, .i32⟩ : BufTy).Contents (Elt F) → (⟨S3200000x1, .i32⟩ : BufTy).Contents (Elt F)),
    ternary main_v39 main_v40 main_v38 main_v41 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_arg0 main_arg3 main_v42 ((fun l r => Host.dotGeneral dot_S100000x767_S767x16_S100000x16_1_0_0_1_n_n none l r) : (⟨S100000x767, .f32⟩ : BufTy).Contents (Elt F) → (⟨S767x16, .f32⟩ : BufTy).Contents (Elt F) → (⟨S100000x16, .f32⟩ : BufTy).Contents (Elt F)),
    binary main_v41 main_v42 main_v43 (addf : (⟨S100000x16, .f32⟩ : BufTy).Contents (Elt F) → (⟨S100000x16, .f32⟩ : BufTy).Contents (Elt F) → (⟨S100000x16, .f32⟩ : BufTy).Contents (Elt F)),
    unary main_arg4 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]
abbrev c4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]
abbrev c5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v47) (TRef.of (T := ⟨S100000x16, .f32⟩) main_call2_v0) (TRef.of (T := ⟨S100000x16, .f32⟩) main_v48) maximumf ]
abbrev c6 : List (HloOp τ sig (Elt F)) :=
  [ binary main_v48 main_arg5 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_10 (constantI S_ 32 0#32),
    unary main_c_10 main_v50 (broadcastInDim S3200000 ![] bcast_S_S3200000 : (⟨S_, .i32⟩ : BufTy).Contents (Elt F) → (⟨S3200000, .i32⟩ : BufTy).Contents (Elt F)),
    binary main_v1 main_v50 main_v51 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v52 (broadcastInDim S3200000 ![] bcast_S_S3200000 : (⟨S_, .i32⟩ : BufTy).Contents (Elt F) → (⟨S3200000, .i32⟩ : BufTy).Contents (Elt F)),
    binary main_v1 main_v52 main_v53 (addi : (⟨S3200000, .i32⟩ : BufTy).Contents (Elt F) → (⟨S3200000, .i32⟩ : BufTy).Contents (Elt F) → (⟨S3200000, .i32⟩ : BufTy).Contents (Elt F)),
    ternary main_v51 main_v53 main_v1 main_v54 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v54 main_v55 (broadcastInDim S3200000x1 ![0] bcast_S3200000_S3200000x1_0 : (⟨S3200000, .i32⟩ : BufTy).Contents (Elt F) → (⟨S3200000x1, .i32⟩ : BufTy).Contents (Elt F)),
    binary main_v49 main_v55 main_v56 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v27 main_v57 (broadcastInDim S3200000x1 ![0] bcast_S3200000_S3200000x1_0 : (⟨S3200000, .f32⟩ : BufTy).Contents (Elt F) → (⟨S3200000x1, .f32⟩ : BufTy).Contents (Elt F)),
    unary main_v57 main_v58 (broadcastInDim S3200000x16 ![0, 1] bcast_S3200000x1_S3200000x16_0_1 : (⟨S3200000x1, .f32⟩ : BufTy).Contents (Elt F) → (⟨S3200000x16, .f32⟩ : BufTy).Contents (Elt F)),
    binary main_v56 main_v58 main_v59 (mulf : (⟨S3200000x16, .f32⟩ : BufTy).Contents (Elt F) → (⟨S3200000x16, .f32⟩ : BufTy).Contents (Elt F) → (⟨S3200000x16, .f32⟩ : BufTy).Contents (Elt F)),
    nullary main_cst_12 (constant S_ .f32 0x00000000#32),
    unary main_cst_12 main_v60 (broadcastInDim S100000x16 ![] bcast_S_S100000x16 : (⟨S_, .f32⟩ : BufTy).Contents (Elt F) → (⟨S100000x16, .f32⟩ : BufTy).Contents (Elt F)),
    unary main_v3 main_v61 (broadcastInDim S3200000x1 ![0] bcast_S3200000_S3200000x1_0 : (⟨S3200000, .i32⟩ : BufTy).Contents (Elt F) → (⟨S3200000x1, .i32⟩ : BufTy).Contents (Elt F)),
    ternary main_v60 main_v61 main_v59 main_v62 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_v48 main_arg6 main_v63 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    binary main_v62 main_v63 main_v64 (addf : (⟨S100000x16, .f32⟩ : BufTy).Contents (Elt F) → (⟨S100000x16, .f32⟩ : BufTy).Contents (Elt F) → (⟨S100000x16, .f32⟩ : BufTy).Contents (Elt F)),
    unary main_arg7 main_v65 (broadcastInDim S1x16 ![1] bcast_S16_S1x16_1 : (⟨S16, .f32⟩ : BufTy).Contents (Elt F) → (⟨S1x16, .f32⟩ : BufTy).Contents (Elt F)),
    unary main_v65 main_v66 (broadcastInDim S100000x16 ![0, 1] bcast_S1x16_S100000x16_0_1 : (⟨S1x16, .f32⟩ : BufTy).Contents (Elt F) → (⟨S100000x16, .f32⟩ : BufTy).Contents (Elt F)),
    binary main_v64 main_v66 main_v67 (addf : (⟨S100000x16, .f32⟩ : BufTy).Contents (Elt F) → (⟨S100000x16, .f32⟩ : BufTy).Contents (Elt F) → (⟨S100000x16, .f32⟩ : BufTy).Contents (Elt F)) ]
abbrev c7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x16, .f32⟩) main_call3_v0) (broadcastInDim S100000x16 ![] bcast_S_S100000x16),
    TRef.binary (TRef.of (T := ⟨S100000x16, .f32⟩) main_v67) (TRef.of (T := ⟨S100000x16, .f32⟩) main_call3_v0) (TRef.of (T := ⟨S100000x16, .f32⟩) main_v68) maximumf ]
abbrev c8 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x16, .f32⟩) main_call4_v0) (broadcastInDim S100000x16 ![] bcast_S_S100000x16),
    TRef.binary (TRef.of (T := ⟨S100000x16, .f32⟩) main_v68) (TRef.of (T := ⟨S100000x16, .f32⟩) main_call4_v0) (TRef.of (T := ⟨S100000x16, .f32⟩) main_v69) maximumf ]
abbrev c9 : List (HloOp τ sig (Elt F)) :=
  [ binary main_v69 main_arg8 main_v70 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    nullary main_c_13 (constantI S_ 32 0#32),
    unary main_c_13 main_v71 (broadcastInDim S3200000 ![] bcast_S_S3200000 : (⟨S_, .i32⟩ : BufTy).Contents (Elt F) → (⟨S3200000, .i32⟩ : BufTy).Contents (Elt F)),
    binary main_v1 main_v71 main_v72 (cmpi .slt : (⟨S3200000, .i32⟩ : BufTy).Contents (Elt F) → (⟨S3200000, .i32⟩ : BufTy).Contents (Elt F) → (⟨S3200000, .i1⟩ : BufTy).Contents (Elt F)),
    nullary main_c_14 (constantI S_ 32 100000#32),
    unary main_c_14 main_v73 (broadcastInDim S3200000 ![] bcast_S_S3200000 : (⟨S_, .i32⟩ : BufTy).Contents (Elt F) → (⟨S3200000, .i32⟩ : BufTy).Contents (Elt F)),
    binary main_v1 main_v73 main_v74 (addi : (⟨S3200000, .i32⟩ : BufTy).Contents (Elt F) → (⟨S3200000, .i32⟩ : BufTy).Contents (Elt F) → (⟨S3200000, .i32⟩ : BufTy).Contents (Elt F)),
    ternary main_v72 main_v74 main_v1 main_v75 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v75 main_v76 (broadcastInDim S3200000x1 ![0] bcast_S3200000_S3200000x1_0 : (⟨S3200000, .i32⟩ : BufTy).Contents (Elt F) → (⟨S3200000x1, .i32⟩ : BufTy).Contents (Elt F)),
    binary main_v70 main_v76 main_v77 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v27 main_v78 (broadcastInDim S3200000x1 ![0] bcast_S3200000_S3200000x1_0 : (⟨S3200000, .f32⟩ : BufTy).Contents (Elt F) → (⟨S3200000x1, .f32⟩ : BufTy).Contents (Elt F)),
    unary main_v78 main_v79 (broadcastInDim S3200000x10 ![0, 1] bcast_S3200000x1_S3200000x10_0_1 : (⟨S3200000x1, .f32⟩ : BufTy).Contents (Elt F) → (⟨S3200000x10, .f32⟩ : BufTy).Contents (Elt F)),
    binary main_v77 main_v79 main_v80 (mulf : (⟨S3200000x10, .f32⟩ : BufTy).Contents (Elt F) → (⟨S3200000x10, .f32⟩ : BufTy).Contents (Elt F) → (⟨S3200000x10, .f32⟩ : BufTy).Contents (Elt F)),
    nullary main_cst_15 (constant S_ .f32 0x00000000#32),
    unary main_cst_15 main_v81 (broadcastInDim S100000x10 ![] bcast_S_S100000x10 : (⟨S_, .f32⟩ : BufTy).Contents (Elt F) → (⟨S100000x10, .f32⟩ : BufTy).Contents (Elt F)),
    unary main_v3 main_v82 (broadcastInDim S3200000x1 ![0] bcast_S3200000_S3200000x1_0 : (⟨S3200000, .i32⟩ : BufTy).Contents (Elt F) → (⟨S3200000x1, .i32⟩ : BufTy).Contents (Elt F)),
    ternary main_v81 main_v82 main_v80 main_v83 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    binary main_v69 main_arg9 main_v84 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    binary main_v83 main_v84 main_v85 (addf : (⟨S100000x10, .f32⟩ : BufTy).Contents (Elt F) → (⟨S100000x10, .f32⟩ : BufTy).Contents (Elt F) → (⟨S100000x10, .f32⟩ : BufTy).Contents (Elt F)),
    unary main_arg10 main_v86 (broadcastInDim S1x10 ![1] bcast_S10_S1x10_1 : (⟨S10, .f32⟩ : BufTy).Contents (Elt F) → (⟨S1x10, .f32⟩ : BufTy).Contents (Elt F)),
    unary main_v86 main_v87 (broadcastInDim S100000x10 ![0, 1] bcast_S1x10_S100000x10_0_1 : (⟨S1x10, .f32⟩ : BufTy).Contents (Elt F) → (⟨S100000x10, .f32⟩ : BufTy).Contents (Elt F)),
    binary main_v85 main_v87 main_v88 (addf : (⟨S100000x10, .f32⟩ : BufTy).Contents (Elt F) → (⟨S100000x10, .f32⟩ : BufTy).Contents (Elt F) → (⟨S100000x10, .f32⟩ : BufTy).Contents (Elt F)) ]
abbrev c10 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x10, .f32⟩) main_call5_v0) (broadcastInDim S100000x10 ![] bcast_S_S100000x10),
    TRef.binary (TRef.of (T := ⟨S100000x10, .f32⟩) main_v88) (TRef.of (T := ⟨S100000x10, .f32⟩) main_call5_v0) (TRef.of (T := ⟨S100000x10, .f32⟩) main_v89) maximumf ]
abbrev c11 : List (HloOp τ sig (Elt F)) :=
  [ TRef.nullary (TRef.of (T := ⟨S_, .f32⟩) main_call6_cst) (constant S_ .f32 0xFF800000#32),
    TRef.binary (TRef.of (T := ⟨S100000x10, .f32⟩) main_v89) (TRef.of (T := ⟨S_, .f32⟩) main_call6_cst) (TRef.of (T := ⟨S100000, .f32⟩) main_call6_v0) (fun x v => Host.reduce FloatOps.maximumf x v reducesTo_S100000x10_S100000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S100000, .f32⟩) main_call6_v1) (broadcastInDim S100000 ![] bcast_S_S100000),
    TRef.binary (TRef.of (T := ⟨S100000, .f32⟩) main_call6_v1) (TRef.of (T := ⟨S100000, .f32⟩) main_call6_v0) (TRef.of (T := ⟨S100000, .f32⟩) main_call6_v2) maximumf,
    TRef.unary (TRef.of (T := ⟨S100000, .f32⟩) main_call6_v2) (TRef.of (T := ⟨S100000x1, .f32⟩) main_call6_v3) (broadcastInDim S100000x1 ![0] bcast_S100000_S100000x1_0),
    TRef.unary (TRef.of (T := ⟨S100000x1, .f32⟩) main_call6_v3) (TRef.of (T := ⟨S100000x10, .f32⟩) main_call6_v4) (broadcastInDim S100000x10 ![0, 1] bcast_S100000x1_S100000x10_0_1),
    TRef.binary (TRef.of (T := ⟨S100000x10, .f32⟩) main_v89) (TRef.of (T := ⟨S100000x10, .f32⟩) main_call6_v4) (TRef.of (T := ⟨S100000x10, .f32⟩) main_call6_v5) subf,
    TRef.unary (TRef.of (T := ⟨S100000x10, .f32⟩) main_call6_v5) (TRef.of (T := ⟨S100000x10, .f32⟩) main_call6_v6) Host.exp,
    TRef.nullary (TRef.of (T := ⟨S_, .f32⟩) main_call6_cst_1) (constant S_ .f32 0x00000000#32),
    TRef.binary (TRef.of (T := ⟨S100000x10, .f32⟩) main_call6_v6) (TRef.of (T := ⟨S_, .f32⟩) main_call6_cst_1) (TRef.of (T := ⟨S100000, .f32⟩) main_call6_v7) (fun x v => Host.reduceAdd x v reducesTo_S100000x10_S100000_d1 h_S_),
    TRef.unary (TRef.of (T := ⟨S100000, .f32⟩) main_call6_v7) (TRef.of (T := ⟨S100000x1, .f32⟩) main_call6_v8) (broadcastInDim S100000x1 ![0] bcast_S100000_S100000x1_0),
    TRef.unary (TRef.of (T := ⟨S100000x1, .f32⟩) main_call6_v8) (TRef.of (T := ⟨S100000x1, .f32⟩) main_call6_v9) Host.log,
    TRef.unary (TRef.of (T := ⟨S100000x1, .f32⟩) main_call6_v9) (TRef.of (T := ⟨S100000x10, .f32⟩) main_call6_v10) (broadcastInDim S100000x10 ![0, 1] bcast_S100000x1_S100000x10_0_1),
    TRef.binary (TRef.of (T := ⟨S100000x10, .f32⟩) main_call6_v5) (TRef.of (T := ⟨S100000x10, .f32⟩) main_call6_v10) (TRef.of (T := ⟨S100000x10, .f32⟩) main_v90) subf ]

theorem ops_eq : (ops : List (HloOp τ sig (Elt F))) = c0 ++ c1 ++ c2 ++ c3 ++ c4 ++ c5 ++ c6 ++ c7 ++ c8 ++ c9 ++ c10 ++ c11 := rfl

end Program

/-! ## The stretches, each from an arbitrary contents `W` -/

section Stretches

/-! Typed references read at their buffers (one evaluation of a buffer's type each). -/
theorem rd_v9 (V : Valuation τ sig (Elt Ideal)) : rd (TRef.of (sig := sig) (T := ⟨S100000, .i1⟩) main_v9) V = V (Proc.devRef .tc main_v9) := rfl
theorem rd_v11 (V : Valuation τ sig (Elt Ideal)) : rd (TRef.of (sig := sig) (T := ⟨S100000, .f32⟩) main_v11) V = V (Proc.devRef .tc main_v11) := rfl
theorem rd_cst_3 (V : Valuation τ sig (Elt Ideal)) : rd (TRef.of (sig := sig) (T := ⟨S_, .f32⟩) main_cst_3) V = V (Proc.devRef .tc main_cst_3) := rfl
theorem rd_v12 (V : Valuation τ sig (Elt Ideal)) : rd (TRef.of (sig := sig) (T := ⟨S100000, .f32⟩) main_v12) V = V (Proc.devRef .tc main_v12) := rfl
theorem rd_v46 (V : Valuation τ sig (Elt Ideal)) : rd (TRef.of (sig := sig) (T := ⟨S100000x16, .f32⟩) main_v46) V = V (Proc.devRef .tc main_v46) := rfl
theorem rd_v47 (V : Valuation τ sig (Elt Ideal)) : rd (TRef.of (sig := sig) (T := ⟨S100000x16, .f32⟩) main_v47) V = V (Proc.devRef .tc main_v47) := rfl
theorem rd_v48 (V : Valuation τ sig (Elt Ideal)) : rd (TRef.of (sig := sig) (T := ⟨S100000x16, .f32⟩) main_v48) V = V (Proc.devRef .tc main_v48) := rfl
theorem rd_v67 (V : Valuation τ sig (Elt Ideal)) : rd (TRef.of (sig := sig) (T := ⟨S100000x16, .f32⟩) main_v67) V = V (Proc.devRef .tc main_v67) := rfl
theorem rd_v68 (V : Valuation τ sig (Elt Ideal)) : rd (TRef.of (sig := sig) (T := ⟨S100000x16, .f32⟩) main_v68) V = V (Proc.devRef .tc main_v68) := rfl
theorem rd_v69 (V : Valuation τ sig (Elt Ideal)) : rd (TRef.of (sig := sig) (T := ⟨S100000x16, .f32⟩) main_v69) V = V (Proc.devRef .tc main_v69) := rfl
theorem rd_v88 (V : Valuation τ sig (Elt Ideal)) : rd (TRef.of (sig := sig) (T := ⟨S100000x10, .f32⟩) main_v88) V = V (Proc.devRef .tc main_v88) := rfl
theorem rd_v89 (V : Valuation τ sig (Elt Ideal)) : rd (TRef.of (sig := sig) (T := ⟨S100000x10, .f32⟩) main_v89) V = V (Proc.devRef .tc main_v89) := rfl
theorem rd_v90 (V : Valuation τ sig (Elt Ideal)) : rd (TRef.of (sig := sig) (T := ⟨S100000x10, .f32⟩) main_v90) V = V (Proc.devRef .tc main_v90) := rfl

variable (W : Valuation τ sig (Elt Ideal))

/-- The first stretch: the source and target vectors of the edges, the comparison and the power of the degrees, and the zero the selection falls back to. -/
theorem r0_row : after c0 W (Proc.devRef .tc main_v1) = rowVec (W (Proc.devRef .tc main_arg1)) := by
  dsimp only [c0]; after_results_simp; rfl
theorem r0_col : after c0 W (Proc.devRef .tc main_v3) = colVec (W (Proc.devRef .tc main_arg1)) := by
  dsimp only [c0]; after_results_simp; rfl
theorem r0_cmp : after c0 W (Proc.devRef .tc main_v9) = degPos (F := Ideal) (colVec (W (Proc.devRef .tc main_arg1))) := by
  dsimp only [c0]; after_results_simp; rfl
theorem r0_pow : after c0 W (Proc.devRef .tc main_v11) = degPow (F := Ideal) (colVec (W (Proc.devRef .tc main_arg1))) := by
  dsimp only [c0]; after_results_simp; rfl
theorem r0_zero : after c0 W (Proc.devRef .tc main_cst_3) = zeroS (F := Ideal) := by
  dsimp only [c0]; after_results_simp; rfl
theorem r0_keep :
    after c0 W (Proc.devRef .tc main_arg0) = W (Proc.devRef .tc main_arg0)
    ∧ after c0 W (Proc.devRef .tc main_arg2) = W (Proc.devRef .tc main_arg2)
    ∧ after c0 W (Proc.devRef .tc main_arg3) = W (Proc.devRef .tc main_arg3)
    ∧ after c0 W (Proc.devRef .tc main_arg4) = W (Proc.devRef .tc main_arg4)
    ∧ after c0 W (Proc.devRef .tc main_arg5) = W (Proc.devRef .tc main_arg5)
    ∧ after c0 W (Proc.devRef .tc main_arg6) = W (Proc.devRef .tc main_arg6)
    ∧ after c0 W (Proc.devRef .tc main_arg7) = W (Proc.devRef .tc main_arg7)
    ∧ after c0 W (Proc.devRef .tc main_arg8) = W (Proc.devRef .tc main_arg8)
    ∧ after c0 W (Proc.devRef .tc main_arg9) = W (Proc.devRef .tc main_arg9)
    ∧ after c0 W (Proc.devRef .tc main_arg10) = W (Proc.devRef .tc main_arg10) := by
  refine ⟨?_, ?_, ?_, ?_, ?_, ?_, ?_, ?_, ?_, ?_⟩ <;> (dsimp only [c0] <;> after_results_simp)
theorem r1_dinv_rd : rd (TRef.of (sig := sig) (T := ⟨S100000, .f32⟩) main_v12) (after c1 W) = dinvOf (rd (TRef.of (sig := sig) (T := ⟨S100000, .i1⟩) main_v9) W) (rd (TRef.of (sig := sig) (T := ⟨S100000, .f32⟩) main_v11) W) (rd (TRef.of (sig := sig) (T := ⟨S_, .f32⟩) main_cst_3) W) := by
  dsimp only [c1]
  simp (disch := decide) only [after_cons, after_nil, rd_nullary, rd_unary, rd_binary, rd_ternary, rd_nullary_ne, rd_unary_ne, rd_binary_ne, rd_ternary_ne]
  rfl
/-- The selection of the inverse square roots (a called function: read through typed references). -/
theorem r1_dinv : after c1 W (Proc.devRef .tc main_v12) = dinvOf (W (Proc.devRef .tc main_v9)) (W (Proc.devRef .tc main_v11)) (W (Proc.devRef .tc main_cst_3)) :=
  (rd_v12 (after c1 W)).symm.trans ((r1_dinv_rd W).trans (by rw [rd_v9 W, rd_v11 W, rd_cst_3 W]))
theorem r1_keep :
    after c1 W (Proc.devRef .tc main_v1) = W (Proc.devRef .tc main_v1)
    ∧ after c1 W (Proc.devRef .tc main_v3) = W (Proc.devRef .tc main_v3)
    ∧ after c1 W (Proc.devRef .tc main_arg0) = W (Proc.devRef .tc main_arg0)
    ∧ after c1 W (Proc.devRef .tc main_arg2) = W (Proc.devRef .tc main_arg2)
    ∧ after c1 W (Proc.devRef .tc main_arg3) = W (Proc.devRef .tc main_arg3)
    ∧ after c1 W (Proc.devRef .tc main_arg4) = W (Proc.devRef .tc main_arg4)
    ∧ after c1 W (Proc.devRef .tc main_arg5) = W (Proc.devRef .tc main_arg5)
    ∧ after c1 W (Proc.devRef .tc main_arg6) = W (Proc.devRef .tc main_arg6)
    ∧ after c1 W (Proc.devRef .tc main_arg7) = W (Proc.devRef .tc main_arg7)
    ∧ after c1 W (Proc.devRef .tc main_arg8) = W (Proc.devRef .tc main_arg8)
    ∧ after c1 W (Proc.devRef .tc main_arg9) = W (Proc.devRef .tc main_arg9)
    ∧ after c1 W (Proc.devRef .tc main_arg10) = W (Proc.devRef .tc main_arg10) := by
  refine ⟨?_, ?_, ?_, ?_, ?_, ?_, ?_, ?_, ?_, ?_, ?_, ?_⟩ <;> (dsimp only [c1] <;> after_results_simp)
/-- The edge weights. -/
theorem r2_nrm : after c2 W (Proc.devRef .tc main_v27) = nrmOf (W (Proc.devRef .tc main_v12)) (W (Proc.devRef .tc main_v1)) (W (Proc.devRef .tc main_v3)) := by
  dsimp only [c2]; after_results_simp; rfl
theorem r2_keep :
    after c2 W (Proc.devRef .tc main_v1) = W (Proc.devRef .tc main_v1)
    ∧ after c2 W (Proc.devRef .tc main_v3) = W (Proc.devRef .tc main_v3)
    ∧ after c2 W (Proc.devRef .tc main_arg0) = W (Proc.devRef .tc main_arg0)
    ∧ after c2 W (Proc.devRef .tc main_arg2) = W (Proc.devRef .tc main_arg2)
    ∧ after c2 W (Proc.devRef .tc main_arg3) = W (Proc.devRef .tc main_arg3)
    ∧ after c2 W (Proc.devRef .tc main_arg4) = W (Proc.devRef .tc main_arg4)
    ∧ after c2 W (Proc.devRef .tc main_arg5) = W (Proc.devRef .tc main_arg5)
    ∧ after c2 W (Proc.devRef .tc main_arg6) = W (Proc.devRef .tc main_arg6)
    ∧ after c2 W (Proc.devRef .tc main_arg7) = W (Proc.devRef .tc main_arg7)
    ∧ after c2 W (Proc.devRef .tc main_arg8) = W (Proc.devRef .tc main_arg8)
    ∧ after c2 W (Proc.devRef .tc main_arg9) = W (Proc.devRef .tc main_arg9)
    ∧ after c2 W (Proc.devRef .tc main_arg10) = W (Proc.devRef .tc main_arg10) := by
  refine ⟨?_, ?_, ?_, ?_, ?_, ?_, ?_, ?_, ?_, ?_, ?_, ?_⟩ <;> (dsimp only [c2] <;> after_results_simp)
/-- The first layer before its cut-off: the product with the first weight array sent along the edges, plus the product with the second, plus the bias. -/
theorem r3_pre : after c3 W (Proc.devRef .tc main_v46) = pre16 (aggV16 (W (Proc.devRef .tc main_v1)) (W (Proc.devRef .tc main_v3)) (W (Proc.devRef .tc main_v27)) (Host.dotGeneral (F := Ideal) (φ₁ := .f32) (φ₂ := .f32) dot_S100000x767_S767x16_S100000x16_1_0_0_1_n_n none (W (Proc.devRef .tc main_arg0)) (W (Proc.devRef .tc main_arg2)))) (Host.dotGeneral (F := Ideal) (φ₁ := .f32) (φ₂ := .f32) dot_S100000x767_S767x16_S100000x16_1_0_0_1_n_n none (W (Proc.devRef .tc main_arg0)) (W (Proc.devRef .tc main_arg3))) (W (Proc.devRef .tc main_arg4)) := by
  dsimp only [c3]; after_results_simp; rfl
theorem r3_keep :
    after c3 W (Proc.devRef .tc main_v1) = W (Proc.devRef .tc main_v1)
    ∧ after c3 W (Proc.devRef .tc main_v3) = W (Proc.devRef .tc main_v3)
    ∧ after c3 W (Proc.devRef .tc main_v27) = W (Proc.devRef .tc main_v27)
    ∧ after c3 W (Proc.devRef .tc main_arg5) = W (Proc.devRef .tc main_arg5)
    ∧ after c3 W (Proc.devRef .tc main_arg6) = W (Proc.devRef .tc main_arg6)
    ∧ after c3 W (Proc.devRef .tc main_arg7) = W (Proc.devRef .tc main_arg7)
    ∧ after c3 W (Proc.devRef .tc main_arg8) = W (Proc.devRef .tc main_arg8)
    ∧ after c3 W (Proc.devRef .tc main_arg9) = W (Proc.devRef .tc main_arg9)
    ∧ after c3 W (Proc.devRef .tc main_arg10) = W (Proc.devRef .tc main_arg10) := by
  refine ⟨?_, ?_, ?_, ?_, ?_, ?_, ?_, ?_, ?_⟩ <;> (dsimp only [c3] <;> after_results_simp)
theorem r4_relu_rd : rd (TRef.of (sig := sig) (T := ⟨S100000x16, .f32⟩) main_v47) (after c4 W) = relu16 (rd (TRef.of (sig := sig) (T := ⟨S100000x16, .f32⟩) main_v46) W) := by
  dsimp only [c4]
  simp (disch := decide) only [after_cons, after_nil, rd_nullary, rd_unary, rd_binary, rd_ternary, rd_nullary_ne, rd_unary_ne, rd_binary_ne, rd_ternary_ne]
  rfl
/-- The cut-off at zero, twice. -/
theorem r4_relu : after c4 W (Proc.devRef .tc main_v47) = relu16 (W (Proc.devRef .tc main_v46)) :=
  (rd_v47 (after c4 W)).symm.trans ((r4_relu_rd W).trans (by rw [rd_v46 W]))
theorem r4_keep :
    after c4 W (Proc.devRef .tc main_v1) = W (Proc.devRef .tc main_v1)
    ∧ after c4 W (Proc.devRef .tc main_v3) = W (Proc.devRef .tc main_v3)
    ∧ after c4 W (Proc.devRef .tc main_v27) = W (Proc.devRef .tc main_v27)
    ∧ after c4 W (Proc.devRef .tc main_arg5) = W (Proc.devRef .tc main_arg5)
    ∧ after c4 W (Proc.devRef .tc main_arg6) = W (Proc.devRef .tc main_arg6)
    ∧ after c4 W (Proc.devRef .tc main_arg7) = W (Proc.devRef .tc main_arg7)
    ∧ after c4 W (Proc.devRef .tc main_arg8) = W (Proc.devRef .tc main_arg8)
    ∧ after c4 W (Proc.devRef .tc main_arg9) = W (Proc.devRef .tc main_arg9)
    ∧ after c4 W (Proc.devRef .tc main_arg10) = W (Proc.devRef .tc main_arg10) := by
  refine ⟨?_, ?_, ?_, ?_, ?_, ?_, ?_, ?_, ?_⟩ <;> (dsimp only [c4] <;> after_results_simp)
theorem r5_relu_rd : rd (TRef.of (sig := sig) (T := ⟨S100000x16, .f32⟩) main_v48) (after c5 W) = relu16 (rd (TRef.of (sig := sig) (T := ⟨S100000x16, .f32⟩) main_v47) W) := by
  dsimp only [c5]
  simp (disch := decide) only [after_cons, after_nil, rd_nullary, rd_unary, rd_binary, rd_ternary, rd_nullary_ne, rd_unary_ne, rd_binary_ne, rd_ternary_ne]
  rfl
theorem r5_relu : after c5 W (Proc.devRef .tc main_v48) = relu16 (W (Proc.devRef .tc main_v47)) :=
  (rd_v48 (after c5 W)).symm.trans ((r5_relu_rd W).trans (by rw [rd_v47 W]))
theorem r5_keep :
    after c5 W (Proc.devRef .tc main_v1) = W (Proc.devRef .tc main_v1)
    ∧ after c5 W (Proc.devRef .tc main_v3) = W (Proc.devRef .tc main_v3)
    ∧ after c5 W (Proc.devRef .tc main_v27) = W (Proc.devRef .tc main_v27)
    ∧ after c5 W (Proc.devRef .tc main_arg5) = W (Proc.devRef .tc main_arg5)
    ∧ after c5 W (Proc.devRef .tc main_arg6) = W (Proc.devRef .tc main_arg6)
    ∧ after c5 W (Proc.devRef .tc main_arg7) = W (Proc.devRef .tc main_arg7)
    ∧ after c5 W (Proc.devRef .tc main_arg8) = W (Proc.devRef .tc main_arg8)
    ∧ after c5 W (Proc.devRef .tc main_arg9) = W (Proc.devRef .tc main_arg9)
    ∧ after c5 W (Proc.devRef .tc main_arg10) = W (Proc.devRef .tc main_arg10) := by
  refine ⟨?_, ?_, ?_, ?_, ?_, ?_, ?_, ?_, ?_⟩ <;> (dsimp only [c5] <;> after_results_simp)
/-- The second layer. -/
theorem r6_pre : after c6 W (Proc.devRef .tc main_v67) = pre16 (aggV16 (W (Proc.devRef .tc main_v1)) (W (Proc.devRef .tc main_v3)) (W (Proc.devRef .tc main_v27)) (Host.dotGeneral (F := Ideal) (φ₁ := .f32) (φ₂ := .f32) dot_S100000x16_S16x16_S100000x16_1_0_0_1_n_n none (W (Proc.devRef .tc main_v48)) (W (Proc.devRef .tc main_arg5)))) (Host.dotGeneral (F := Ideal) (φ₁ := .f32) (φ₂ := .f32) dot_S100000x16_S16x16_S100000x16_1_0_0_1_n_n none (W (Proc.devRef .tc main_v48)) (W (Proc.devRef .tc main_arg6))) (W (Proc.devRef .tc main_arg7)) := by
  dsimp only [c6]; after_results_simp; rfl
theorem r6_keep :
    after c6 W (Proc.devRef .tc main_v1) = W (Proc.devRef .tc main_v1)
    ∧ after c6 W (Proc.devRef .tc main_v3) = W (Proc.devRef .tc main_v3)
    ∧ after c6 W (Proc.devRef .tc main_v27) = W (Proc.devRef .tc main_v27)
    ∧ after c6 W (Proc.devRef .tc main_arg8) = W (Proc.devRef .tc main_arg8)
    ∧ after c6 W (Proc.devRef .tc main_arg9) = W (Proc.devRef .tc main_arg9)
    ∧ after c6 W (Proc.devRef .tc main_arg10) = W (Proc.devRef .tc main_arg10) := by
  refine ⟨?_, ?_, ?_, ?_, ?_, ?_⟩ <;> (dsimp only [c6] <;> after_results_simp)
theorem r7_relu_rd : rd (TRef.of (sig := sig) (T := ⟨S100000x16, .f32⟩) main_v68) (after c7 W) = relu16 (rd (TRef.of (sig := sig) (T := ⟨S100000x16, .f32⟩) main_v67) W) := by
  dsimp only [c7]
  simp (disch := decide) only [after_cons, after_nil, rd_nullary, rd_unary, rd_binary, rd_ternary, rd_nullary_ne, rd_unary_ne, rd_binary_ne, rd_ternary_ne]
  rfl
theorem r7_relu : after c7 W (Proc.devRef .tc main_v68) = relu16 (W (Proc.devRef .tc main_v67)) :=
  (rd_v68 (after c7 W)).symm.trans ((r7_relu_rd W).trans (by rw [rd_v67 W]))
theorem r7_keep :
    after c7 W (Proc.devRef .tc main_v1) = W (Proc.devRef .tc main_v1)
    ∧ after c7 W (Proc.devRef .tc main_v3) = W (Proc.devRef .tc main_v3)
    ∧ after c7 W (Proc.devRef .tc main_v27) = W (Proc.devRef .tc main_v27)
    ∧ after c7 W (Proc.devRef .tc main_arg8) = W (Proc.devRef .tc main_arg8)
    ∧ after c7 W (Proc.devRef .tc main_arg9) = W (Proc.devRef .tc main_arg9)
    ∧ after c7 W (Proc.devRef .tc main_arg10) = W (Proc.devRef .tc main_arg10) := by
  refine ⟨?_, ?_, ?_, ?_, ?_, ?_⟩ <;> (dsimp only [c7] <;> after_results_simp)
theorem r8_relu_rd : rd (TRef.of (sig := sig) (T := ⟨S100000x16, .f32⟩) main_v69) (after c8 W) = relu16 (rd (TRef.of (sig := sig) (T := ⟨S100000x16, .f32⟩) main_v68) W) := by
  dsimp only [c8]
  simp (disch := decide) only [after_cons, after_nil, rd_nullary, rd_unary, rd_binary, rd_ternary, rd_nullary_ne, rd_unary_ne, rd_binary_ne, rd_ternary_ne]
  rfl
theorem r8_relu : after c8 W (Proc.devRef .tc main_v69) = relu16 (W (Proc.devRef .tc main_v68)) :=
  (rd_v69 (after c8 W)).symm.trans ((r8_relu_rd W).trans (by rw [rd_v68 W]))
theorem r8_keep :
    after c8 W (Proc.devRef .tc main_v1) = W (Proc.devRef .tc main_v1)
    ∧ after c8 W (Proc.devRef .tc main_v3) = W (Proc.devRef .tc main_v3)
    ∧ after c8 W (Proc.devRef .tc main_v27) = W (Proc.devRef .tc main_v27)
    ∧ after c8 W (Proc.devRef .tc main_arg8) = W (Proc.devRef .tc main_arg8)
    ∧ after c8 W (Proc.devRef .tc main_arg9) = W (Proc.devRef .tc main_arg9)
    ∧ after c8 W (Proc.devRef .tc main_arg10) = W (Proc.devRef .tc main_arg10) := by
  refine ⟨?_, ?_, ?_, ?_, ?_, ?_⟩ <;> (dsimp only [c8] <;> after_results_simp)
/-- The third layer, its cut-off, and the row-wise log-softmax. -/
theorem r9_pre : after c9 W (Proc.devRef .tc main_v88) = pre10 (aggV10 (W (Proc.devRef .tc main_v1)) (W (Proc.devRef .tc main_v3)) (W (Proc.devRef .tc main_v27)) (Host.dotGeneral (F := Ideal) (φ₁ := .f32) (φ₂ := .f32) dot_S100000x16_S16x10_S100000x10_1_0_0_1_n_n none (W (Proc.devRef .tc main_v69)) (W (Proc.devRef .tc main_arg8)))) (Host.dotGeneral (F := Ideal) (φ₁ := .f32) (φ₂ := .f32) dot_S100000x16_S16x10_S100000x10_1_0_0_1_n_n none (W (Proc.devRef .tc main_v69)) (W (Proc.devRef .tc main_arg9))) (W (Proc.devRef .tc main_arg10)) := by
  dsimp only [c9]; after_results_simp; rfl
theorem r10_relu_rd : rd (TRef.of (sig := sig) (T := ⟨S100000x10, .f32⟩) main_v89) (after c10 W) = relu10 (rd (TRef.of (sig := sig) (T := ⟨S100000x10, .f32⟩) main_v88) W) := by
  dsimp only [c10]
  simp (disch := decide) only [after_cons, after_nil, rd_nullary, rd_unary, rd_binary, rd_ternary, rd_nullary_ne, rd_unary_ne, rd_binary_ne, rd_ternary_ne]
  rfl
theorem r10_relu : after c10 W (Proc.devRef .tc main_v89) = relu10 (W (Proc.devRef .tc main_v88)) :=
  (rd_v89 (after c10 W)).symm.trans ((r10_relu_rd W).trans (by rw [rd_v88 W]))
theorem r11_fin_rd : rd (TRef.of (sig := sig) (T := ⟨S100000x10, .f32⟩) main_v90) (after c11 W) = finish (rd (TRef.of (sig := sig) (T := ⟨S100000x10, .f32⟩) main_v89) W) := by
  dsimp only [c11]
  simp (disch := decide) only [after_cons, after_nil, rd_nullary, rd_unary, rd_binary, rd_ternary, rd_nullary_ne, rd_unary_ne, rd_binary_ne, rd_ternary_ne]
  rfl
theorem r11_fin : after c11 W (Proc.devRef .tc main_v90) = finish (W (Proc.devRef .tc main_v89)) :=
  (rd_v90 (after c11 W)).symm.trans ((r11_fin_rd W).trans (by rw [rd_v89 W]))

end Stretches

/-! ## The fold from the launch memory: `eN_x` is buffer `x` after the first `N` stretches -/

section Fold

variable (m : (ℓ : Loc nD τ sig) → Buf (Elt Ideal) ℓ) (c : Dev nD)

theorem e1_v1 : (after c0 (launchContents m c)) (Proc.devRef .tc main_v1) = rowVec (m ((c.tc : Thread nD τ).loc main_arg1)) := r0_row _
theorem e1_v3 : (after c0 (launchContents m c)) (Proc.devRef .tc main_v3) = colVec (m ((c.tc : Thread nD τ).loc main_arg1)) := r0_col _
theorem e1_v9 : (after c0 (launchContents m c)) (Proc.devRef .tc main_v9) = degPos (F := Ideal) (colVec (m ((c.tc : Thread nD τ).loc main_arg1))) := r0_cmp _
theorem e1_v11 : (after c0 (launchContents m c)) (Proc.devRef .tc main_v11) = degPow (F := Ideal) (colVec (m ((c.tc : Thread nD τ).loc main_arg1))) := r0_pow _
theorem e1_cst_3 : (after c0 (launchContents m c)) (Proc.devRef .tc main_cst_3) = zeroS (F := Ideal) := r0_zero _
theorem e1_arg0 : (after c0 (launchContents m c)) (Proc.devRef .tc main_arg0) = m ((c.tc : Thread nD τ).loc main_arg0) := (r0_keep _).1
theorem e1_arg2 : (after c0 (launchContents m c)) (Proc.devRef .tc main_arg2) = m ((c.tc : Thread nD τ).loc main_arg2) := (r0_keep _).2.1
theorem e1_arg3 : (after c0 (launchContents m c)) (Proc.devRef .tc main_arg3) = m ((c.tc : Thread nD τ).loc main_arg3) := (r0_keep _).2.2.1
theorem e1_arg4 : (after c0 (launchContents m c)) (Proc.devRef .tc main_arg4) = m ((c.tc : Thread nD τ).loc main_arg4) := (r0_keep _).2.2.2.1
theorem e1_arg5 : (after c0 (launchContents m c)) (Proc.devRef .tc main_arg5) = m ((c.tc : Thread nD τ).loc main_arg5) := (r0_keep _).2.2.2.2.1
theorem e1_arg6 : (after c0 (launchContents m c)) (Proc.devRef .tc main_arg6) = m ((c.tc : Thread nD τ).loc main_arg6) := (r0_keep _).2.2.2.2.2.1
theorem e1_arg7 : (after c0 (launchContents m c)) (Proc.devRef .tc main_arg7) = m ((c.tc : Thread nD τ).loc main_arg7) := (r0_keep _).2.2.2.2.2.2.1
theorem e1_arg8 : (after c0 (launchContents m c)) (Proc.devRef .tc main_arg8) = m ((c.tc : Thread nD τ).loc main_arg8) := (r0_keep _).2.2.2.2.2.2.2.1
theorem e1_arg9 : (after c0 (launchContents m c)) (Proc.devRef .tc main_arg9) = m ((c.tc : Thread nD τ).loc main_arg9) := (r0_keep _).2.2.2.2.2.2.2.2.1
theorem e1_arg10 : (after c0 (launchContents m c)) (Proc.devRef .tc main_arg10) = m ((c.tc : Thread nD τ).loc main_arg10) := (r0_keep _).2.2.2.2.2.2.2.2.2
theorem e2_v12 : (after c1 (after c0 (launchContents m c))) (Proc.devRef .tc main_v12) = dinv (colVec (m ((c.tc : Thread nD τ).loc main_arg1))) := (r1_dinv _).trans (by rw [e1_v9 m c, e1_v11 m c, e1_cst_3 m c]; rfl)
theorem e2_v1 : (after c1 (after c0 (launchContents m c))) (Proc.devRef .tc main_v1) = rowVec (m ((c.tc : Thread nD τ).loc main_arg1)) := ((r1_keep _).1).trans (e1_v1 m c)
theorem e2_v3 : (after c1 (after c0 (launchContents m c))) (Proc.devRef .tc main_v3) = colVec (m ((c.tc : Thread nD τ).loc main_arg1)) := ((r1_keep _).2.1).trans (e1_v3 m c)
theorem e2_arg0 : (after c1 (after c0 (launchContents m c))) (Proc.devRef .tc main_arg0) = m ((c.tc : Thread nD τ).loc main_arg0) := ((r1_keep _).2.2.1).trans (e1_arg0 m c)
theorem e2_arg2 : (after c1 (after c0 (launchContents m c))) (Proc.devRef .tc main_arg2) = m ((c.tc : Thread nD τ).loc main_arg2) := ((r1_keep _).2.2.2.1).trans (e1_arg2 m c)
theorem e2_arg3 : (after c1 (after c0 (launchContents m c))) (Proc.devRef .tc main_arg3) = m ((c.tc : Thread nD τ).loc main_arg3) := ((r1_keep _).2.2.2.2.1).trans (e1_arg3 m c)
theorem e2_arg4 : (after c1 (after c0 (launchContents m c))) (Proc.devRef .tc main_arg4) = m ((c.tc : Thread nD τ).loc main_arg4) := ((r1_keep _).2.2.2.2.2.1).trans (e1_arg4 m c)
theorem e2_arg5 : (after c1 (after c0 (launchContents m c))) (Proc.devRef .tc main_arg5) = m ((c.tc : Thread nD τ).loc main_arg5) := ((r1_keep _).2.2.2.2.2.2.1).trans (e1_arg5 m c)
theorem e2_arg6 : (after c1 (after c0 (launchContents m c))) (Proc.devRef .tc main_arg6) = m ((c.tc : Thread nD τ).loc main_arg6) := ((r1_keep _).2.2.2.2.2.2.2.1).trans (e1_arg6 m c)
theorem e2_arg7 : (after c1 (after c0 (launchContents m c))) (Proc.devRef .tc main_arg7) = m ((c.tc : Thread nD τ).loc main_arg7) := ((r1_keep _).2.2.2.2.2.2.2.2.1).trans (e1_arg7 m c)
theorem e2_arg8 : (after c1 (after c0 (launchContents m c))) (Proc.devRef .tc main_arg8) = m ((c.tc : Thread nD τ).loc main_arg8) := ((r1_keep _).2.2.2.2.2.2.2.2.2.1).trans (e1_arg8 m c)
theorem e2_arg9 : (after c1 (after c0 (launchContents m c))) (Proc.devRef .tc main_arg9) = m ((c.tc : Thread nD τ).loc main_arg9) := ((r1_keep _).2.2.2.2.2.2.2.2.2.2.1).trans (e1_arg9 m c)
theorem e2_arg10 : (after c1 (after c0 (launchContents m c))) (Proc.devRef .tc main_arg10) = m ((c.tc : Thread nD τ).loc main_arg10) := ((r1_keep _).2.2.2.2.2.2.2.2.2.2.2).trans (e1_arg10 m c)
theorem e3_v27 : (after c2 (after c1 (after c0 (launchContents m c)))) (Proc.devRef .tc main_v27) = nrm (rowVec (m ((c.tc : Thread nD τ).loc main_arg1))) (colVec (m ((c.tc : Thread nD τ).loc main_arg1))) := (r2_nrm _).trans (by rw [e2_v12 m c, e2_v1 m c, e2_v3 m c]; rfl)
theorem e3_v1 : (after c2 (after c1 (after c0 (launchContents m c)))) (Proc.devRef .tc main_v1) = rowVec (m ((c.tc : Thread nD τ).loc main_arg1)) := ((r2_keep _).1).trans (e2_v1 m c)
theorem e3_v3 : (after c2 (after c1 (after c0 (launchContents m c)))) (Proc.devRef .tc main_v3) = colVec (m ((c.tc : Thread nD τ).loc main_arg1)) := ((r2_keep _).2.1).trans (e2_v3 m c)
theorem e3_arg0 : (after c2 (after c1 (after c0 (launchContents m c)))) (Proc.devRef .tc main_arg0) = m ((c.tc : Thread nD τ).loc main_arg0) := ((r2_keep _).2.2.1).trans (e2_arg0 m c)
theorem e3_arg2 : (after c2 (after c1 (after c0 (launchContents m c)))) (Proc.devRef .tc main_arg2) = m ((c.tc : Thread nD τ).loc main_arg2) := ((r2_keep _).2.2.2.1).trans (e2_arg2 m c)
theorem e3_arg3 : (after c2 (after c1 (after c0 (launchContents m c)))) (Proc.devRef .tc main_arg3) = m ((c.tc : Thread nD τ).loc main_arg3) := ((r2_keep _).2.2.2.2.1).trans (e2_arg3 m c)
theorem e3_arg4 : (after c2 (after c1 (after c0 (launchContents m c)))) (Proc.devRef .tc main_arg4) = m ((c.tc : Thread nD τ).loc main_arg4) := ((r2_keep _).2.2.2.2.2.1).trans (e2_arg4 m c)
theorem e3_arg5 : (after c2 (after c1 (after c0 (launchContents m c)))) (Proc.devRef .tc main_arg5) = m ((c.tc : Thread nD τ).loc main_arg5) := ((r2_keep _).2.2.2.2.2.2.1).trans (e2_arg5 m c)
theorem e3_arg6 : (after c2 (after c1 (after c0 (launchContents m c)))) (Proc.devRef .tc main_arg6) = m ((c.tc : Thread nD τ).loc main_arg6) := ((r2_keep _).2.2.2.2.2.2.2.1).trans (e2_arg6 m c)
theorem e3_arg7 : (after c2 (after c1 (after c0 (launchContents m c)))) (Proc.devRef .tc main_arg7) = m ((c.tc : Thread nD τ).loc main_arg7) := ((r2_keep _).2.2.2.2.2.2.2.2.1).trans (e2_arg7 m c)
theorem e3_arg8 : (after c2 (after c1 (after c0 (launchContents m c)))) (Proc.devRef .tc main_arg8) = m ((c.tc : Thread nD τ).loc main_arg8) := ((r2_keep _).2.2.2.2.2.2.2.2.2.1).trans (e2_arg8 m c)
theorem e3_arg9 : (after c2 (after c1 (after c0 (launchContents m c)))) (Proc.devRef .tc main_arg9) = m ((c.tc : Thread nD τ).loc main_arg9) := ((r2_keep _).2.2.2.2.2.2.2.2.2.2.1).trans (e2_arg9 m c)
theorem e3_arg10 : (after c2 (after c1 (after c0 (launchContents m c)))) (Proc.devRef .tc main_arg10) = m ((c.tc : Thread nD τ).loc main_arg10) := ((r2_keep _).2.2.2.2.2.2.2.2.2.2.2).trans (e2_arg10 m c)
theorem e4_v46 : (after c3 (after c2 (after c1 (after c0 (launchContents m c))))) (Proc.devRef .tc main_v46) = pre16 (agg16 (m ((c.tc : Thread nD τ).loc main_arg1)) (Host.dotGeneral (F := Ideal) (φ₁ := .f32) (φ₂ := .f32) dot_S100000x767_S767x16_S100000x16_1_0_0_1_n_n none (m ((c.tc : Thread nD τ).loc main_arg0)) (m ((c.tc : Thread nD τ).loc main_arg2)))) (Host.dotGeneral (F := Ideal) (φ₁ := .f32) (φ₂ := .f32) dot_S100000x767_S767x16_S100000x16_1_0_0_1_n_n none (m ((c.tc : Thread nD τ).loc main_arg0)) (m ((c.tc : Thread nD τ).loc main_arg3))) (m ((c.tc : Thread nD τ).loc main_arg4)) := (r3_pre _).trans (by rw [e3_v1 m c, e3_v3 m c, e3_v27 m c, e3_arg0 m c, e3_arg2 m c, e3_arg3 m c, e3_arg4 m c]; rfl)
theorem e4_v1 : (after c3 (after c2 (after c1 (after c0 (launchContents m c))))) (Proc.devRef .tc main_v1) = rowVec (m ((c.tc : Thread nD τ).loc main_arg1)) := ((r3_keep _).1).trans (e3_v1 m c)
theorem e4_v3 : (after c3 (after c2 (after c1 (after c0 (launchContents m c))))) (Proc.devRef .tc main_v3) = colVec (m ((c.tc : Thread nD τ).loc main_arg1)) := ((r3_keep _).2.1).trans (e3_v3 m c)
theorem e4_v27 : (after c3 (after c2 (after c1 (after c0 (launchContents m c))))) (Proc.devRef .tc main_v27) = nrm (rowVec (m ((c.tc : Thread nD τ).loc main_arg1))) (colVec (m ((c.tc : Thread nD τ).loc main_arg1))) := ((r3_keep _).2.2.1).trans (e3_v27 m c)
theorem e4_arg5 : (after c3 (after c2 (after c1 (after c0 (launchContents m c))))) (Proc.devRef .tc main_arg5) = m ((c.tc : Thread nD τ).loc main_arg5) := ((r3_keep _).2.2.2.1).trans (e3_arg5 m c)
theorem e4_arg6 : (after c3 (after c2 (after c1 (after c0 (launchContents m c))))) (Proc.devRef .tc main_arg6) = m ((c.tc : Thread nD τ).loc main_arg6) := ((r3_keep _).2.2.2.2.1).trans (e3_arg6 m c)
theorem e4_arg7 : (after c3 (after c2 (after c1 (after c0 (launchContents m c))))) (Proc.devRef .tc main_arg7) = m ((c.tc : Thread nD τ).loc main_arg7) := ((r3_keep _).2.2.2.2.2.1).trans (e3_arg7 m c)
theorem e4_arg8 : (after c3 (after c2 (after c1 (after c0 (launchContents m c))))) (Proc.devRef .tc main_arg8) = m ((c.tc : Thread nD τ).loc main_arg8) := ((r3_keep _).2.2.2.2.2.2.1).trans (e3_arg8 m c)
theorem e4_arg9 : (after c3 (after c2 (after c1 (after c0 (launchContents m c))))) (Proc.devRef .tc main_arg9) = m ((c.tc : Thread nD τ).loc main_arg9) := ((r3_keep _).2.2.2.2.2.2.2.1).trans (e3_arg9 m c)
theorem e4_arg10 : (after c3 (after c2 (after c1 (after c0 (launchContents m c))))) (Proc.devRef .tc main_arg10) = m ((c.tc : Thread nD τ).loc main_arg10) := ((r3_keep _).2.2.2.2.2.2.2.2).trans (e3_arg10 m c)
theorem e5_v47 : (after c4 (after c3 (after c2 (after c1 (after c0 (launchContents m c)))))) (Proc.devRef .tc main_v47) = relu16 (pre16 (agg16 (m ((c.tc : Thread nD τ).loc main_arg1)) (Host.dotGeneral (F := Ideal) (φ₁ := .f32) (φ₂ := .f32) dot_S100000x767_S767x16_S100000x16_1_0_0_1_n_n none (m ((c.tc : Thread nD τ).loc main_arg0)) (m ((c.tc : Thread nD τ).loc main_arg2)))) (Host.dotGeneral (F := Ideal) (φ₁ := .f32) (φ₂ := .f32) dot_S100000x767_S767x16_S100000x16_1_0_0_1_n_n none (m ((c.tc : Thread nD τ).loc main_arg0)) (m ((c.tc : Thread nD τ).loc main_arg3))) (m ((c.tc : Thread nD τ).loc main_arg4))) := (r4_relu _).trans (by rw [e4_v46 m c])
theorem e5_v1 : (after c4 (after c3 (after c2 (after c1 (after c0 (launchContents m c)))))) (Proc.devRef .tc main_v1) = rowVec (m ((c.tc : Thread nD τ).loc main_arg1)) := ((r4_keep _).1).trans (e4_v1 m c)
theorem e5_v3 : (after c4 (after c3 (after c2 (after c1 (after c0 (launchContents m c)))))) (Proc.devRef .tc main_v3) = colVec (m ((c.tc : Thread nD τ).loc main_arg1)) := ((r4_keep _).2.1).trans (e4_v3 m c)
theorem e5_v27 : (after c4 (after c3 (after c2 (after c1 (after c0 (launchContents m c)))))) (Proc.devRef .tc main_v27) = nrm (rowVec (m ((c.tc : Thread nD τ).loc main_arg1))) (colVec (m ((c.tc : Thread nD τ).loc main_arg1))) := ((r4_keep _).2.2.1).trans (e4_v27 m c)
theorem e5_arg5 : (after c4 (after c3 (after c2 (after c1 (after c0 (launchContents m c)))))) (Proc.devRef .tc main_arg5) = m ((c.tc : Thread nD τ).loc main_arg5) := ((r4_keep _).2.2.2.1).trans (e4_arg5 m c)
theorem e5_arg6 : (after c4 (after c3 (after c2 (after c1 (after c0 (launchContents m c)))))) (Proc.devRef .tc main_arg6) = m ((c.tc : Thread nD τ).loc main_arg6) := ((r4_keep _).2.2.2.2.1).trans (e4_arg6 m c)
theorem e5_arg7 : (after c4 (after c3 (after c2 (after c1 (after c0 (launchContents m c)))))) (Proc.devRef .tc main_arg7) = m ((c.tc : Thread nD τ).loc main_arg7) := ((r4_keep _).2.2.2.2.2.1).trans (e4_arg7 m c)
theorem e5_arg8 : (after c4 (after c3 (after c2 (after c1 (after c0 (launchContents m c)))))) (Proc.devRef .tc main_arg8) = m ((c.tc : Thread nD τ).loc main_arg8) := ((r4_keep _).2.2.2.2.2.2.1).trans (e4_arg8 m c)
theorem e5_arg9 : (after c4 (after c3 (after c2 (after c1 (after c0 (launchContents m c)))))) (Proc.devRef .tc main_arg9) = m ((c.tc : Thread nD τ).loc main_arg9) := ((r4_keep _).2.2.2.2.2.2.2.1).trans (e4_arg9 m c)
theorem e5_arg10 : (after c4 (after c3 (after c2 (after c1 (after c0 (launchContents m c)))))) (Proc.devRef .tc main_arg10) = m ((c.tc : Thread nD τ).loc main_arg10) := ((r4_keep _).2.2.2.2.2.2.2.2).trans (e4_arg10 m c)
theorem e6_v48 : (after c5 (after c4 (after c3 (after c2 (after c1 (after c0 (launchContents m c))))))) (Proc.devRef .tc main_v48) = hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (r5_relu _).trans (by rw [e5_v47 m c]; rfl)
theorem e6_v1 : (after c5 (after c4 (after c3 (after c2 (after c1 (after c0 (launchContents m c))))))) (Proc.devRef .tc main_v1) = rowVec (m ((c.tc : Thread nD τ).loc main_arg1)) := ((r5_keep _).1).trans (e5_v1 m c)
theorem e6_v3 : (after c5 (after c4 (after c3 (after c2 (after c1 (after c0 (launchContents m c))))))) (Proc.devRef .tc main_v3) = colVec (m ((c.tc : Thread nD τ).loc main_arg1)) := ((r5_keep _).2.1).trans (e5_v3 m c)
theorem e6_v27 : (after c5 (after c4 (after c3 (after c2 (after c1 (after c0 (launchContents m c))))))) (Proc.devRef .tc main_v27) = nrm (rowVec (m ((c.tc : Thread nD τ).loc main_arg1))) (colVec (m ((c.tc : Thread nD τ).loc main_arg1))) := ((r5_keep _).2.2.1).trans (e5_v27 m c)
theorem e6_arg5 : (after c5 (after c4 (after c3 (after c2 (after c1 (after c0 (launchContents m c))))))) (Proc.devRef .tc main_arg5) = m ((c.tc : Thread nD τ).loc main_arg5) := ((r5_keep _).2.2.2.1).trans (e5_arg5 m c)
theorem e6_arg6 : (after c5 (after c4 (after c3 (after c2 (after c1 (after c0 (launchContents m c))))))) (Proc.devRef .tc main_arg6) = m ((c.tc : Thread nD τ).loc main_arg6) := ((r5_keep _).2.2.2.2.1).trans (e5_arg6 m c)
theorem e6_arg7 : (after c5 (after c4 (after c3 (after c2 (after c1 (after c0 (launchContents m c))))))) (Proc.devRef .tc main_arg7) = m ((c.tc : Thread nD τ).loc main_arg7) := ((r5_keep _).2.2.2.2.2.1).trans (e5_arg7 m c)
theorem e6_arg8 : (after c5 (after c4 (after c3 (after c2 (after c1 (after c0 (launchContents m c))))))) (Proc.devRef .tc main_arg8) = m ((c.tc : Thread nD τ).loc main_arg8) := ((r5_keep _).2.2.2.2.2.2.1).trans (e5_arg8 m c)
theorem e6_arg9 : (after c5 (after c4 (after c3 (after c2 (after c1 (after c0 (launchContents m c))))))) (Proc.devRef .tc main_arg9) = m ((c.tc : Thread nD τ).loc main_arg9) := ((r5_keep _).2.2.2.2.2.2.2.1).trans (e5_arg9 m c)
theorem e6_arg10 : (after c5 (after c4 (after c3 (after c2 (after c1 (after c0 (launchContents m c))))))) (Proc.devRef .tc main_arg10) = m ((c.tc : Thread nD τ).loc main_arg10) := ((r5_keep _).2.2.2.2.2.2.2.2).trans (e5_arg10 m c)
theorem e7_v67 : (after c6 (after c5 (after c4 (after c3 (after c2 (after c1 (after c0 (launchContents m c)))))))) (Proc.devRef .tc main_v67) = pre16 (agg16 (m ((c.tc : Thread nD τ).loc main_arg1)) (Host.dotGeneral (F := Ideal) (φ₁ := .f32) (φ₂ := .f32) dot_S100000x16_S16x16_S100000x16_1_0_0_1_n_n none (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))) (Host.dotGeneral (F := Ideal) (φ₁ := .f32) (φ₂ := .f32) dot_S100000x16_S16x16_S100000x16_1_0_0_1_n_n none (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg6))) (m ((c.tc : Thread nD τ).loc main_arg7)) := (r6_pre _).trans (by rw [e6_v1 m c, e6_v3 m c, e6_v27 m c, e6_v48 m c, e6_arg5 m c, e6_arg6 m c, e6_arg7 m c]; rfl)
theorem e7_v1 : (after c6 (after c5 (after c4 (after c3 (after c2 (after c1 (after c0 (launchContents m c)))))))) (Proc.devRef .tc main_v1) = rowVec (m ((c.tc : Thread nD τ).loc main_arg1)) := ((r6_keep _).1).trans (e6_v1 m c)
theorem e7_v3 : (after c6 (after c5 (after c4 (after c3 (after c2 (after c1 (after c0 (launchContents m c)))))))) (Proc.devRef .tc main_v3) = colVec (m ((c.tc : Thread nD τ).loc main_arg1)) := ((r6_keep _).2.1).trans (e6_v3 m c)
theorem e7_v27 : (after c6 (after c5 (after c4 (after c3 (after c2 (after c1 (after c0 (launchContents m c)))))))) (Proc.devRef .tc main_v27) = nrm (rowVec (m ((c.tc : Thread nD τ).loc main_arg1))) (colVec (m ((c.tc : Thread nD τ).loc main_arg1))) := ((r6_keep _).2.2.1).trans (e6_v27 m c)
theorem e7_arg8 : (after c6 (after c5 (after c4 (after c3 (after c2 (after c1 (after c0 (launchContents m c)))))))) (Proc.devRef .tc main_arg8) = m ((c.tc : Thread nD τ).loc main_arg8) := ((r6_keep _).2.2.2.1).trans (e6_arg8 m c)
theorem e7_arg9 : (after c6 (after c5 (after c4 (after c3 (after c2 (after c1 (after c0 (launchContents m c)))))))) (Proc.devRef .tc main_arg9) = m ((c.tc : Thread nD τ).loc main_arg9) := ((r6_keep _).2.2.2.2.1).trans (e6_arg9 m c)
theorem e7_arg10 : (after c6 (after c5 (after c4 (after c3 (after c2 (after c1 (after c0 (launchContents m c)))))))) (Proc.devRef .tc main_arg10) = m ((c.tc : Thread nD τ).loc main_arg10) := ((r6_keep _).2.2.2.2.2).trans (e6_arg10 m c)
theorem e8_v68 : (after c7 (after c6 (after c5 (after c4 (after c3 (after c2 (after c1 (after c0 (launchContents m c))))))))) (Proc.devRef .tc main_v68) = relu16 (pre16 (agg16 (m ((c.tc : Thread nD τ).loc main_arg1)) (Host.dotGeneral (F := Ideal) (φ₁ := .f32) (φ₂ := .f32) dot_S100000x16_S16x16_S100000x16_1_0_0_1_n_n none (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)))) (Host.dotGeneral (F := Ideal) (φ₁ := .f32) (φ₂ := .f32) dot_S100000x16_S16x16_S100000x16_1_0_0_1_n_n none (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg6))) (m ((c.tc : Thread nD τ).loc main_arg7))) := (r7_relu _).trans (by rw [e7_v67 m c])
theorem e8_v1 : (after c7 (after c6 (after c5 (after c4 (after c3 (after c2 (after c1 (after c0 (launchContents m c))))))))) (Proc.devRef .tc main_v1) = rowVec (m ((c.tc : Thread nD τ).loc main_arg1)) := ((r7_keep _).1).trans (e7_v1 m c)
theorem e8_v3 : (after c7 (after c6 (after c5 (after c4 (after c3 (after c2 (after c1 (after c0 (launchContents m c))))))))) (Proc.devRef .tc main_v3) = colVec (m ((c.tc : Thread nD τ).loc main_arg1)) := ((r7_keep _).2.1).trans (e7_v3 m c)
theorem e8_v27 : (after c7 (after c6 (after c5 (after c4 (after c3 (after c2 (after c1 (after c0 (launchContents m c))))))))) (Proc.devRef .tc main_v27) = nrm (rowVec (m ((c.tc : Thread nD τ).loc main_arg1))) (colVec (m ((c.tc : Thread nD τ).loc main_arg1))) := ((r7_keep _).2.2.1).trans (e7_v27 m c)
theorem e8_arg8 : (after c7 (after c6 (after c5 (after c4 (after c3 (after c2 (after c1 (after c0 (launchContents m c))))))))) (Proc.devRef .tc main_arg8) = m ((c.tc : Thread nD τ).loc main_arg8) := ((r7_keep _).2.2.2.1).trans (e7_arg8 m c)
theorem e8_arg9 : (after c7 (after c6 (after c5 (after c4 (after c3 (after c2 (after c1 (after c0 (launchContents m c))))))))) (Proc.devRef .tc main_arg9) = m ((c.tc : Thread nD τ).loc main_arg9) := ((r7_keep _).2.2.2.2.1).trans (e7_arg9 m c)
theorem e8_arg10 : (after c7 (after c6 (after c5 (after c4 (after c3 (after c2 (after c1 (after c0 (launchContents m c))))))))) (Proc.devRef .tc main_arg10) = m ((c.tc : Thread nD τ).loc main_arg10) := ((r7_keep _).2.2.2.2.2).trans (e7_arg10 m c)
theorem e9_v69 : (after c8 (after c7 (after c6 (after c5 (after c4 (after c3 (after c2 (after c1 (after c0 (launchContents m c)))))))))) (Proc.devRef .tc main_v69) = hid2R (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7)) := (r8_relu _).trans (by rw [e8_v68 m c]; rfl)
theorem e9_v1 : (after c8 (after c7 (after c6 (after c5 (after c4 (after c3 (after c2 (after c1 (after c0 (launchContents m c)))))))))) (Proc.devRef .tc main_v1) = rowVec (m ((c.tc : Thread nD τ).loc main_arg1)) := ((r8_keep _).1).trans (e8_v1 m c)
theorem e9_v3 : (after c8 (after c7 (after c6 (after c5 (after c4 (after c3 (after c2 (after c1 (after c0 (launchContents m c)))))))))) (Proc.devRef .tc main_v3) = colVec (m ((c.tc : Thread nD τ).loc main_arg1)) := ((r8_keep _).2.1).trans (e8_v3 m c)
theorem e9_v27 : (after c8 (after c7 (after c6 (after c5 (after c4 (after c3 (after c2 (after c1 (after c0 (launchContents m c)))))))))) (Proc.devRef .tc main_v27) = nrm (rowVec (m ((c.tc : Thread nD τ).loc main_arg1))) (colVec (m ((c.tc : Thread nD τ).loc main_arg1))) := ((r8_keep _).2.2.1).trans (e8_v27 m c)
theorem e9_arg8 : (after c8 (after c7 (after c6 (after c5 (after c4 (after c3 (after c2 (after c1 (after c0 (launchContents m c)))))))))) (Proc.devRef .tc main_arg8) = m ((c.tc : Thread nD τ).loc main_arg8) := ((r8_keep _).2.2.2.1).trans (e8_arg8 m c)
theorem e9_arg9 : (after c8 (after c7 (after c6 (after c5 (after c4 (after c3 (after c2 (after c1 (after c0 (launchContents m c)))))))))) (Proc.devRef .tc main_arg9) = m ((c.tc : Thread nD τ).loc main_arg9) := ((r8_keep _).2.2.2.2.1).trans (e8_arg9 m c)
theorem e9_arg10 : (after c8 (after c7 (after c6 (after c5 (after c4 (after c3 (after c2 (after c1 (after c0 (launchContents m c)))))))))) (Proc.devRef .tc main_arg10) = m ((c.tc : Thread nD τ).loc main_arg10) := ((r8_keep _).2.2.2.2.2).trans (e8_arg10 m c)
theorem e10_v88 : (after c9 (after c8 (after c7 (after c6 (after c5 (after c4 (after c3 (after c2 (after c1 (after c0 (launchContents m c))))))))))) (Proc.devRef .tc main_v88) = pre10 (agg10 (m ((c.tc : Thread nD τ).loc main_arg1)) (Host.dotGeneral (F := Ideal) (φ₁ := .f32) (φ₂ := .f32) dot_S100000x16_S16x10_S100000x10_1_0_0_1_n_n none (hid2R (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8)))) (Host.dotGeneral (F := Ideal) (φ₁ := .f32) (φ₂ := .f32) dot_S100000x16_S16x10_S100000x10_1_0_0_1_n_n none (hid2R (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg9))) (m ((c.tc : Thread nD τ).loc main_arg10)) := (r9_pre _).trans (by rw [e9_v1 m c, e9_v3 m c, e9_v27 m c, e9_v69 m c, e9_arg8 m c, e9_arg9 m c, e9_arg10 m c]; rfl)
theorem e11_v89 : (after c10 (after c9 (after c8 (after c7 (after c6 (after c5 (after c4 (after c3 (after c2 (after c1 (after c0 (launchContents m c)))))))))))) (Proc.devRef .tc main_v89) = relu10 (pre10 (agg10 (m ((c.tc : Thread nD τ).loc main_arg1)) (Host.dotGeneral (F := Ideal) (φ₁ := .f32) (φ₂ := .f32) dot_S100000x16_S16x10_S100000x10_1_0_0_1_n_n none (hid2R (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg8)))) (Host.dotGeneral (F := Ideal) (φ₁ := .f32) (φ₂ := .f32) dot_S100000x16_S16x10_S100000x10_1_0_0_1_n_n none (hid2R (hid1R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) (m ((c.tc : Thread nD τ).loc main_arg9))) (m ((c.tc : Thread nD τ).loc main_arg10))) := (r10_relu _).trans (by rw [e10_v88 m c])
/-- The result buffer after the last operation: the reference's composition of the argument arrays. -/
theorem result_eq : (after c11 (after c10 (after c9 (after c8 (after c7 (after c6 (after c5 (after c4 (after c3 (after c2 (after c1 (after c0 (launchContents m c))))))))))))) (Proc.devRef .tc main_v90) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (r11_fin _).trans (by rw [e11_v89 m c]; rfl)

/-- The whole line at the result buffer. -/
theorem after_ops_result : after (ops (F := Ideal)) (launchContents m c) (Proc.devRef .tc main_v90) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_eq]
  simp only [StableHlo.after_append]
  exact result_eq m c

end Fold

set_option maxRecDepth 8192 in
set_option maxHeartbeats 54000000 in
/-- From any memory with zero counters every weakly fair execution of the reference terminates with the result at
    the reference's composition of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v90).trans (after_ops_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RefRun

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«126903_j3564822856024_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.Bridge.lean ====
/-
  The kernel's three fused matrix products against the reference's six plain ones, on the extended reals.

  Each layer of the kernel multiplies once by two weight arrays laid side by side and then cuts the product into its
  left and right column halves. Column `q` of the left half is row-against-column `q` of the first weight array, and
  column `q` of the right half is row-against-column `q` of the second one, because column `q` (resp. `n + q`) of the
  side-by-side array IS column `q` of the first (resp. second) array: the two sums agree term by term. For the second
  and third layers the left factor is the activation `max (a + r + b) 0` formed entry by entry; the reference forms
  the same array by adding the bias row repeated down the rows and cutting off at zero twice, and
  `max (max z c) c = max z c`. With the six halves identified, the two programs apply the same named graph steps to
  equal arrays, so their outputs are equal. Nothing here needs a value to be finite: only the order of a maximum and
  the term-by-term equality of finite sums are used, and the zero is kept as the float word it is printed with.
-/
import proofs.«126903_j3564822856024_2_alg».proof.Proof.HostChain
import proofs.«126903_j3564822856024_2_alg».proof.Proof.LibDotNN
import proofs.«126903_j3564822856024_2_alg».proof.Proof.LibBroadcastInDim
import proofs.«126903_j3564822856024_2_alg».proof.Proof.Gen.KernelIdeal
import proofs.«126903_j3564822856024_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 8192

noncomputable section

namespace Cert.Bridge

open Idealize.ShloMosaic Idealize.ShloMosaic.ValueIdx Cert.KernelIdeal Cert.Chain

/-! ## Two arrays side by side, read at a column -/

section Reads
variable {α : Type} {K n m : ℕ}

/-- Column `k` of `[x₁ | x₂]` with `k` below the first array's width is column `k` of `x₁`. -/
theorem cat_left_apply (x₁ x₂ : (⟨2, ![K, n]⟩ : Shape).Idx → α)
    (h : Shape.Concatenates [(⟨2, ![K, n]⟩ : Shape), ⟨2, ![K, n]⟩] ⟨2, ![K, m]⟩ 1)
    (e : Fin K) (q : Fin n) (k : Fin m) (hk : k.val = q.val) :
    concatenate ⟨2, ![K, m]⟩ 1 [⟨⟨2, ![K, n]⟩, x₁⟩, ⟨⟨2, ![K, n]⟩, x₂⟩] h (ix2 e k) = x₁ (ix2 e q) :=
  concatenate_pair_apply_left 1 x₁ x₂ h (ix2 e k) rfl (ix2 e q) (fun b => by
    match b with
    | ⟨0, _⟩ => rfl
    | ⟨1, _⟩ => exact hk.symm)

/-- Column `n + q` of `[x₁ | x₂]`, `n` the first array's width, is column `q` of `x₂`. -/
theorem cat_right_apply (x₁ x₂ : (⟨2, ![K, n]⟩ : Shape).Idx → α)
    (h : Shape.Concatenates [(⟨2, ![K, n]⟩ : Shape), ⟨2, ![K, n]⟩] ⟨2, ![K, m]⟩ 1)
    (e : Fin K) (q : Fin n) (k : Fin m) (hk : k.val = n + q.val) :
    concatenate ⟨2, ![K, m]⟩ 1 [⟨⟨2, ![K, n]⟩, x₁⟩, ⟨⟨2, ![K, n]⟩, x₂⟩] h (ix2 e k) = x₂ (ix2 e q) :=
  concatenate_pair_apply_right 1 x₁ x₂ h (ix2 e k) rfl rfl (ix2 e q)
    (fun b hb => by
      match b, hb with
      | ⟨0, _⟩, _ => rfl
      | ⟨1, _⟩, hb => exact absurd rfl hb)
    (by show q.val + n = k.val; omega)

end Reads

/-! ## The activation, read at an index -/

/-- The bias as a one-row array reads, at column `e`, the bias at `e`. -/
theorem biasRow_apply (b : Arr Ideal S16) (e : Fin 16) : biasRow b (ix2 (0 : Fin 1) e) = b (ix1 e) :=
  shapeCast_a_1a_apply b _ 0 e

/-- The bias repeated down the rows reads, at `(p, e)`, the bias at `e`. -/
theorem bias16_apply (b : Arr Ideal S16) (p : Fin 100000) (e : Fin 16) : bias16 b (ix2 p e) = b (ix1 e) := by
  unfold bias16
  rw [BroadcastRead.row_apply, BroadcastRead.vector_row_apply]

/-- The all-zero array reads the zero word everywhere. -/
theorem zeros16_apply (j : S100000x16.Idx) : zeros16 (F := Ideal) j = Ideal.ofBits .f32 0x00000000#32 := rfl

/-- Cutting off at zero twice is cutting off once: the reference's hidden array at `(p, e)` is the kernel's activation. -/
theorem act_eq (a r : Arr Ideal S100000x16) (b : Arr Ideal S16) (p : Fin 100000) (e : Fin 16) :
    Cert.Layers.act a r (biasRow b) p e = relu16 (relu16 (pre16 a r b)) (ix2 p e) := by
  show max (a (ix2 p e) + r (ix2 p e) + biasRow b (ix2 (0 : Fin 1) e)) (Ideal.ofBits .f32 0x00000000#32)
    = max (max (a (ix2 p e) + r (ix2 p e) + bias16 b (ix2 p e)) (zeros16 (F := Ideal) (ix2 p e))) (zeros16 (F := Ideal) (ix2 p e))
  rw [biasRow_apply, bias16_apply, zeros16_apply]
  exact (max_eq_left (le_max_right _ _)).symm

/-! ## The first layer: a plain product against the two weight arrays side by side -/

/-- The left half of `x · [w1i | w1r]` is `x · w1i`: entry `(p, q)` of both is `∑ e, x (p, e) * w1i (e, q)`. -/
theorem first_left (x : Arr Ideal S100000x767) (w1i w1r : Arr Ideal S767x16) :
    left16 (y1K x w1i w1r) = Host.dotGeneral (F := Ideal) (φ₁ := .f32) (φ₂ := .f32) Cert.ReferenceIdeal.dot_S100000x767_S767x16_S100000x16_1_0_0_1_n_n none x w1i := by
  funext j
  obtain ⟨p, q, rfl⟩ : ∃ (p : Fin 100000) (q : Fin 16), j = ix2 p q := ⟨j 0, j 1, eq_ix2 j⟩
  have hd : Cert.ReferenceIdeal.dot_S100000x767_S767x16_S100000x16_1_0_0_1_n_n
      = Cert.LibMatmulNN.dims Cert.ReferenceIdeal.Facts₀.dot_S100000x767_S767x16_S100000x16_1_0_0_1_n_n_wf := rfl
  rw [hd]
  refine Eq.trans ?_ (Cert.LibDotNN.dotGeneral_apply _ none .single x w1i p q).symm
  refine (slice2_axis1_apply 0 _ _ p q (⟨q.val, by omega⟩ : Fin 32) (Nat.zero_add _).symm).trans ?_
  refine (Cert.Layers.proj_apply _ _ p _).trans ?_
  refine Finset.sum_congr rfl fun e _ => ?_
  exact congrArg (x (ix2 p e) * ·) (cat_left_apply w1i w1r _ e q _ rfl)

/-- The right half of `x · [w1i | w1r]` is `x · w1r`: column `16 + q` of the side-by-side array is column `q` of `w1r`. -/
theorem first_right (x : Arr Ideal S100000x767) (w1i w1r : Arr Ideal S767x16) :
    right16 (y1K x w1i w1r) = Host.dotGeneral (F := Ideal) (φ₁ := .f32) (φ₂ := .f32) Cert.ReferenceIdeal.dot_S100000x767_S767x16_S100000x16_1_0_0_1_n_n none x w1r := by
  funext j
  obtain ⟨p, q, rfl⟩ : ∃ (p : Fin 100000) (q : Fin 16), j = ix2 p q := ⟨j 0, j 1, eq_ix2 j⟩
  have hd : Cert.ReferenceIdeal.dot_S100000x767_S767x16_S100000x16_1_0_0_1_n_n
      = Cert.LibMatmulNN.dims Cert.ReferenceIdeal.Facts₀.dot_S100000x767_S767x16_S100000x16_1_0_0_1_n_n_wf := rfl
  rw [hd]
  refine Eq.trans ?_ (Cert.LibDotNN.dotGeneral_apply _ none .single x w1r p q).symm
  refine (slice2_axis1_apply 16 _ _ p q (⟨16 + q.val, by omega⟩ : Fin 32) rfl).trans ?_
  refine (Cert.Layers.proj_apply _ _ p _).trans ?_
  refine Finset.sum_congr rfl fun e _ => ?_
  exact congrArg (x (ix2 p e) * ·) (cat_right_apply w1i w1r _ e q _ rfl)

/-! ## The second layer: the activation times two 16-column weight arrays side by side -/

/-- The left half of `act · [wi | wr]` is `h · wi`, `h` the reference's hidden array (messages + root term + bias,
    cut off at zero): the left factors agree entry by entry and so do the columns of the right factors. -/
theorem fused16_left (a r : Arr Ideal S100000x16) (b : Arr Ideal S16) (wi wr : Arr Ideal S16x16) :
    left16 (F := Ideal) (Cert.Layers.reluProj a r (biasRow b) (cat32 wi wr))
      = Host.dotGeneral (F := Ideal) (φ₁ := .f32) (φ₂ := .f32) Cert.ReferenceIdeal.dot_S100000x16_S16x16_S100000x16_1_0_0_1_n_n none (relu16 (relu16 (pre16 a r b))) wi := by
  funext j
  obtain ⟨p, q, rfl⟩ : ∃ (p : Fin 100000) (q : Fin 16), j = ix2 p q := ⟨j 0, j 1, eq_ix2 j⟩
  have hd : Cert.ReferenceIdeal.dot_S100000x16_S16x16_S100000x16_1_0_0_1_n_n
      = Cert.LibMatmulNN.dims Cert.ReferenceIdeal.Facts₀.dot_S100000x16_S16x16_S100000x16_1_0_0_1_n_n_wf := rfl
  rw [hd]
  refine Eq.trans ?_ (Cert.LibDotNN.dotGeneral_apply _ none .single (relu16 (relu16 (pre16 a r b))) wi p q).symm
  refine (slice2_axis1_apply 0 _ _ p q (⟨q.val, by omega⟩ : Fin 32) (Nat.zero_add _).symm).trans ?_
  refine (Cert.Layers.reluProj_apply _ _ _ _ p _).trans ?_
  refine Finset.sum_congr rfl fun e _ => ?_
  exact congrArg₂ (· * ·) (act_eq a r b p e) (cat_left_apply wi wr _ e q _ rfl)

/-- The right half of `act · [wi | wr]` is `h · wr`. -/
theorem fused16_right (a r : Arr Ideal S100000x16) (b : Arr Ideal S16) (wi wr : Arr Ideal S16x16) :
    right16 (F := Ideal) (Cert.Layers.reluProj a r (biasRow b) (cat32 wi wr))
      = Host.dotGeneral (F := Ideal) (φ₁ := .f32) (φ₂ := .f32) Cert.ReferenceIdeal.dot_S100000x16_S16x16_S100000x16_1_0_0_1_n_n none (relu16 (relu16 (pre16 a r b))) wr := by
  funext j
  obtain ⟨p, q, rfl⟩ : ∃ (p : Fin 100000) (q : Fin 16), j = ix2 p q := ⟨j 0, j 1, eq_ix2 j⟩
  have hd : Cert.ReferenceIdeal.dot_S100000x16_S16x16_S100000x16_1_0_0_1_n_n
      = Cert.LibMatmulNN.dims Cert.ReferenceIdeal.Facts₀.dot_S100000x16_S16x16_S100000x16_1_0_0_1_n_n_wf := rfl
  rw [hd]
  refine Eq.trans ?_ (Cert.LibDotNN.dotGeneral_apply _ none .single (relu16 (relu16 (pre16 a r b))) wr p q).symm
  refine (slice2_axis1_apply 16 _ _ p q (⟨16 + q.val, by omega⟩ : Fin 32) rfl).trans ?_
  refine (Cert.Layers.reluProj_apply _ _ _ _ p _).trans ?_
  refine Finset.sum_congr rfl fun e _ => ?_
  exact congrArg₂ (· * ·) (act_eq a r b p e) (cat_right_apply wi wr _ e q _ rfl)

/-! ## The third layer: the activation times two 10-column weight arrays side by side -/

/-- The left half of `act · [wi | wr]` (ten columns each) is `h · wi`. -/
theorem fused10_left (a r : Arr Ideal S100000x16) (b : Arr Ideal S16) (wi wr : Arr Ideal S16x10) :
    left10 (F := Ideal) (Cert.Layers.reluProj a r (biasRow b) (cat20 wi wr))
      = Host.dotGeneral (F := Ideal) (φ₁ := .f32) (φ₂ := .f32) Cert.ReferenceIdeal.dot_S100000x16_S16x10_S100000x10_1_0_0_1_n_n none (relu16 (relu16 (pre16 a r b))) wi := by
  funext j
  obtain ⟨p, q, rfl⟩ : ∃ (p : Fin 100000) (q : Fin 10), j = ix2 p q := ⟨j 0, j 1, eq_ix2 j⟩
  have hd : Cert.ReferenceIdeal.dot_S100000x16_S16x10_S100000x10_1_0_0_1_n_n
      = Cert.LibMatmulNN.dims Cert.ReferenceIdeal.Facts₀.dot_S100000x16_S16x10_S100000x10_1_0_0_1_n_n_wf := rfl
  rw [hd]
  refine Eq.trans ?_ (Cert.LibDotNN.dotGeneral_apply _ none .single (relu16 (relu16 (pre16 a r b))) wi p q).symm
  refine (slice2_axis1_apply 0 _ _ p q (⟨q.val, by omega⟩ : Fin 20) (Nat.zero_add _).symm).trans ?_
  refine (Cert.Layers.reluProj_apply _ _ _ _ p _).trans ?_
  refine Finset.sum_congr rfl fun e _ => ?_
  exact congrArg₂ (· * ·) (act_eq a r b p e) (cat_left_apply wi wr _ e q _ rfl)

/-- The right half of `act · [wi | wr]` (ten columns each) is `h · wr`: column `10 + q` is column `q` of `wr`. -/
theorem fused10_right (a r : Arr Ideal S100000x16) (b : Arr Ideal S16) (wi wr : Arr Ideal S16x10) :
    right10 (F := Ideal) (Cert.Layers.reluProj a r (biasRow b) (cat20 wi wr))
      = Host.dotGeneral (F := Ideal) (φ₁ := .f32) (φ₂ := .f32) Cert.ReferenceIdeal.dot_S100000x16_S16x10_S100000x10_1_0_0_1_n_n none (relu16 (relu16 (pre16 a r b))) wr := by
  funext j
  obtain ⟨p, q, rfl⟩ : ∃ (p : Fin 100000) (q : Fin 10), j = ix2 p q := ⟨j 0, j 1, eq_ix2 j⟩
  have hd : Cert.ReferenceIdeal.dot_S100000x16_S16x10_S100000x10_1_0_0_1_n_n
      = Cert.LibMatmulNN.dims Cert.ReferenceIdeal.Facts₀.dot_S100000x16_S16x10_S100000x10_1_0_0_1_n_n_wf := rfl
  rw [hd]
  refine Eq.trans ?_ (Cert.LibDotNN.dotGeneral_apply _ none .single (relu16 (relu16 (pre16 a r b))) wr p q).symm
  refine (slice2_axis1_apply 10 _ _ p q (⟨10 + q.val, by omega⟩ : Fin 20) rfl).trans ?_
  refine (Cert.Layers.reluProj_apply _ _ _ _ p _).trans ?_
  refine Finset.sum_congr rfl fun e _ => ?_
  exact congrArg₂ (· * ·) (act_eq a r b p e) (cat_right_apply wi wr _ e q _ rfl)

/-! ## The two programs compute the same array -/

/-- The kernel's output is the reference's: layer by layer, the two column halves of the kernel's fused product are the
    reference's two plain products, and everything between the products — the aggregation along the edges, the bias,
    the cut-off at zero, the row-wise log-softmax — is the same named step applied to equal arrays. -/
theorem out_eq (x : Arr Ideal S100000x767) (ei : IArr Ideal S2x3200000) (w1i w1r : Arr Ideal S767x16) (b1 : Arr Ideal S16)
    (w2i w2r : Arr Ideal S16x16) (b2 : Arr Ideal S16) (w3i w3r : Arr Ideal S16x10) (b3 : Arr Ideal S10) :
    kerOut x ei w1i w1r b1 w2i w2r b2 w3i w3r b3 = refOut (F := Ideal) x ei w1i w1r b1 w2i w2r b2 w3i w3r b3 := by
  unfold kerOut refOut lastK lastR y3K y2K hid2R hid1R
  rw [first_left, first_right, fused16_left, fused16_right, fused10_left, fused10_right]

end Cert.Bridge

end
-- ==== Proof.lean ====
/-
  A three-layer graph network (dense projection, aggregation along the edges, bias and cut-off at zero, three times
  over, then a row-wise log-softmax), computed by a program with three pipelined kernels and by a plain reference,
  gives the same result on the extended reals.

  The two programs share the graph part — the edge weights from the node degrees, and for each layer the gather of
  the source rows, their scaling and their sum at the targets — operation for operation; `Cert.Chain` names these
  steps once, and neither side ever opens them. They differ in the dense part. The reference multiplies the node
  features by the layer's two weight arrays separately and applies the cut-off twice. The kernel concatenates the two
  weight arrays, multiplies once, block of rows by block of rows, and takes the two column halves of the product; from
  the second layer on its kernel also forms the previous layer's activation (messages + root term + bias, cut off at
  zero, once) before multiplying. Index by index the two agree: column q of [w | w'] is column q of w for q below the
  width of w and column q - width of w' above it, so each half of the fused product is the product with one of the two
  arrays, term by term of the same finite sum; and cutting off at zero twice is cutting off once. No finiteness of the
  inputs is used: the only laws are the order of a maximum and the equality of sums term by term.

  The modules: `Layers` (the dense layers as whole-array functions), `Region0` … `Region2` (each kernel's result
  array is its layer function of its operand arrays: every block the kernel writes back is a restriction of that one
  function, and the blocks tile the array), `KRun` and `KFold` (the program's run ends with its buffers at a fold of
  its segments over the launch memory, and that fold at the result buffer is `Chain.kerOut` of the arguments),
  `RefRun` (the reference's run ends with the result at `Chain.refOut` of the arguments), `Bridge`
  (`kerOut = refOut`), and the general lemma files `LibMatmulNN`, `LibDotNN`, `LibBroadcastInDim`, `LibTypedRead`.
-/
import proofs.«126903_j3564822856024_2_alg».proof.Defs
import proofs.«126903_j3564822856024_2_alg».proof.Proof.Gen.Kernel
import proofs.«126903_j3564822856024_2_alg».proof.Proof.Gen.Kernel.Frame
import proofs.«126903_j3564822856024_2_alg».proof.Proof.Gen.KernelIdeal
import proofs.«126903_j3564822856024_2_alg».proof.Proof.Gen.KernelIdeal.Frame
import proofs.«126903_j3564822856024_2_alg».proof.Proof.Gen.ReferenceIdeal
import proofs.«126903_j3564822856024_2_alg».proof.Proof.Gen.Pre_finite_inputs
import proofs.«126903_j3564822856024_2_alg».proof.Proof.KRun
import proofs.«126903_j3564822856024_2_alg».proof.Proof.KFold
import proofs.«126903_j3564822856024_2_alg».proof.Proof.RefRun
import proofs.«126903_j3564822856024_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments: its run, the result forgotten. -/
theorem frame_ri : Cert.frame_ReferenceIdeal := fun m ρ _ =>
  (θ_run Cert.ReferenceIdeal.defs _ _).mono (fun _ h c => (h c).2) (Cert.ReferenceIdeal.RefRun.run m ρ)

/-- The idealized kernel ends at the kernel's composition of its arguments, the reference at the reference's
    composition of its own; the arguments agree, and the two compositions are one function. -/
theorem algebraic : Cert.algebraic_KernelIdeal_ReferenceIdeal := by
  intro m ρ m' ρ' _ hagree
  refine ⟨fun c => Cert.Chain.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KFold.fold_eq m ρ c), (h c).2⟩)
      (Cert.KernelIdeal.KRun.run_fold (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10⟩ := hagree c
    rw [e0, e1, e2, e3, e4, e5, e6, e7, e8, e9, e10]
    exact (Cert.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
